-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S2x32 : Shape := ⟨2, ![2, 32]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg15 : FVec F S32x64 .f32) (main_arg16 : FVec F S32 .f32) (main_arg17 : FVec F S2x32 .f32) (main_arg18 : FVec F S2 .f32) (main_v63 : IVec S_ 1) (main_v67 : IVec S_ 1) : IVec S_ 1 :=
  let main_v68 : IVec S_ 1 := andi main_v63 main_v67
  let main_v69 : FVec F S32x64 .f32 := Host.absf main_arg15
  let main_cst_26 : FVec F S_ .f32 := constant S_ .f32 0x7F800000#32
  let main_v70 : FVec F S32x64 .f32 := broadcastInDim S32x64 ![] bcast_S_S32x64 main_cst_26
  let main_v71 : IVec S32x64 1 := cmpf .olt main_v69 main_v70
  let main_c_27 : IVec S_ 1 := constantI S_ 1 1#1
  let main_v72 : IVec S_ 1 := (fun x v => Host.reduce IntOp.andi x v reducesTo_S32x64_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S2x32 .f32 := Host.absf main_arg17
  let main_cst_30 : FVec F S_ .f32 := constant S_ .f32 0x7F800000#32
  let main_v80 : FVec F S2x32 .f32 := broadcastInDim S2x32 ![] bcast_S_S2x32 main_cst_30
  let main_v81 : IVec S2x32 1 := cmpf .olt main_v79 main_v80
  let main_c_31 : IVec S_ 1 := constantI S_ 1 1#1
  let main_v82 : IVec S_ 1 := (fun x v => Host.reduce IntOp.andi x v reducesTo_S2x32_S_d0_1 h_S_) main_v81 main_c_31
  let main_v83 : IVec S_ 1 := andi main_v78 main_v82
  let main_v84 : FVec F S2 .f32 := Host.absf main_arg18
  let main_cst_32 : FVec F S_ .f32 := constant S_ .f32 0x7F800000#32
  fn_part5 (F := F) main_v83 main_v84 main_cst_32

def fn_part3 {F : FTy → Type} [FloatOps F] (main_arg12 : FVec F S64 .f32) (main_arg13 : FVec F S64 .f32) (main_arg14 : FVec F S64 .f32) (main_arg15 : FVec F S32x64 .f32) (main_arg16 : FVec F S32 .f32) (main_arg17 : FVec F S2x32 .f32) (main_arg18 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_v63 main_v67

def fn_part2 {F : FTy → Type} [FloatOps F] (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S32x64 .f32) (main_arg16 : FVec F S32 .f32) (main_arg17 : FVec F S2x32 .f32) (main_arg18 : FVec F S2 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_v48 main_v49 main_v50

def fn_part1 {F : FTy → Type} [FloatOps F] (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S32x64 .f32) (main_arg16 : FVec F S32 .f32) (main_arg17 : FVec F S2x32 .f32) (main_arg18 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : FVec F S800000x1 .f32) (main_arg3 : FVec F S64x128 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S32x64 .f32) (main_arg16 : FVec F S32 .f32) (main_arg17 : FVec F S2x32 .f32) (main_arg18 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S2x32 : Shape := ⟨2, ![2, 32]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S128x64 : Shape := ⟨2, ![128, 64]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S800000x64 : Shape := ⟨2, ![800000, 64]⟩
abbrev S5000x1 : Shape := ⟨2, ![5000, 1]⟩
abbrev S5000x64 : Shape := ⟨2, ![5000, 64]⟩
abbrev S64x32 : Shape := ⟨2, ![64, 32]⟩
abbrev S1x32 : Shape := ⟨2, ![1, 32]⟩
abbrev S50000x32 : Shape := ⟨2, ![50000, 32]⟩
abbrev S2000x32 : Shape := ⟨2, ![2000, 32]⟩
abbrev S32x2 : Shape := ⟨2, ![32, 2]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 144
  | .vmem => 69
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S64x128, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S32x64, .f32⟩
  | 16 => ⟨S32, .f32⟩
  | 17 => ⟨S2x32, .f32⟩
  | 18 => ⟨S2, .f32⟩
  | 19 => ⟨S1x800000, .i32⟩
  | 20 => ⟨S800000, .i32⟩
  | 21 => ⟨S1x800000, .i32⟩
  | 22 => ⟨S800000, .i32⟩
  | 23 => ⟨S800000, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .i1⟩
  | 39 => ⟨S50000, .f32⟩
  | 40 => ⟨S_, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S800000, .f32⟩
  | 66 => ⟨S800000, .f32⟩
  | 67 => ⟨S800000, .f32⟩
  | 68 => ⟨S800000x1, .f32⟩
  | 69 => ⟨S128x64, .f32⟩
  | 70 => ⟨S_, .f32⟩
  | 71 => ⟨S64, .f32⟩
  | 72 => ⟨S1x64, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S1x64, .f32⟩
  | 89 => ⟨S1x64, .f32⟩
  | 90 => ⟨S1x64, .f32⟩
  | 91 => ⟨S50000x64, .f32⟩
  | 92 => ⟨S64x64, .f32⟩
  | 93 => ⟨S_, .f32⟩
  | 94 => ⟨S64, .f32⟩
  | 95 => ⟨S1x64, .f32⟩
  | 96 => ⟨S50000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S1x64, .f32⟩
  | 112 => ⟨S1x64, .f32⟩
  | 113 => ⟨S1x64, .f32⟩
  | 114 => ⟨S50000x64, .f32⟩
  | 115 => ⟨S64x64, .f32⟩
  | 116 => ⟨S_, .f32⟩
  | 117 => ⟨S64, .f32⟩
  | 118 => ⟨S1x64, .f32⟩
  | 119 => ⟨S50000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x64, .f32⟩
  | 1 => ⟨S800000x64, .f32⟩
  | 2 => ⟨S_, .f32⟩
  | 3 => ⟨S50000x64, .f32⟩
  | 4 => ⟨S800000x1, .i32⟩
  | 5 => ⟨S50000x64, .f32⟩
  | 6 => ⟨S1x64, .f32⟩
  | 7 => ⟨S1x64, .f32⟩
  | 8 => ⟨S1x64, .f32⟩
  | 9 => ⟨S50000x64, .f32⟩
  | 10 => ⟨S64x32, .f32⟩
  | 11 => ⟨S1x32, .f32⟩
  | 12 => ⟨S50000x32, .f32⟩
  | 13 => ⟨S32x2, .f32⟩
  | 14 => ⟨S1x2, .f32⟩
  | 15 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S5000x1, .f32⟩
  | .local _ .vmem, ⟨7, _⟩ => ⟨S5000x1, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S2000x64, .f32⟩
  | .local _ .vmem, ⟨13, _⟩ => ⟨S2000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S64x64, .f32⟩
  | .local _ .vmem, ⟨22, _⟩ => ⟨S1x64, .f32⟩
  | .local _ .vmem, ⟨23, _⟩ => ⟨S2000x64, .f32⟩
  | .local _ .vmem, ⟨24, _⟩ => ⟨S2000x64, .f32⟩
  | .local _ .vmem, ⟨25, _⟩ => ⟨S5000x1, .f32⟩
  | .local _ .vmem, ⟨26, _⟩ => ⟨S5000x1, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S2000x64, .f32⟩
  | .local _ .vmem, ⟨32, _⟩ => ⟨S2000x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S64x64, .f32⟩
  | .local _ .vmem, ⟨41, _⟩ => ⟨S1x64, .f32⟩
  | .local _ .vmem, ⟨42, _⟩ => ⟨S2000x64, .f32⟩
  | .local _ .vmem, ⟨43, _⟩ => ⟨S2000x64, .f32⟩
  | .local _ .vmem, ⟨44, _⟩ => ⟨S5000x1, .f32⟩
  | .local _ .vmem, ⟨45, _⟩ => ⟨S5000x1, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S2000x64, .f32⟩
  | .local _ .vmem, ⟨51, _⟩ => ⟨S2000x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S64x32, .f32⟩
  | .local _ .vmem, ⟨60, _⟩ => ⟨S1x32, .f32⟩
  | .local _ .vmem, ⟨61, _⟩ => ⟨S2000x32, .f32⟩
  | .local _ .vmem, ⟨62, _⟩ => ⟨S2000x32, .f32⟩
  | .local _ .vmem, ⟨63, _⟩ => ⟨S2000x32, .f32⟩
  | .local _ .vmem, ⟨64, _⟩ => ⟨S2000x32, .f32⟩
  | .local _ .vmem, ⟨65, _⟩ => ⟨S32x2, .f32⟩
  | .local _ .vmem, ⟨66, _⟩ => ⟨S1x2, .f32⟩
  | .local _ .vmem, ⟨67, _⟩ => ⟨S2000x2, .f32⟩
  | .local _ .vmem, ⟨68, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_v16 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_v17 : Ref sig .tc := ⟨.hbm, 46, rfl⟩
abbrev main_c : Ref sig .tc := ⟨.hbm, 47, rfl⟩
abbrev main_v18 : Ref sig .tc := ⟨.hbm, 48, rfl⟩
abbrev main_v19 : Ref sig .tc := ⟨.hbm, 49, rfl⟩
abbrev main_c_5 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_8 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_9 : Ref sig .tc := ⟨.hbm, 74, rfl⟩
abbrev main_v40 : Ref sig .tc := ⟨.hbm, 75, rfl⟩
abbrev main_v41 : Ref sig .tc := ⟨.hbm, 76, rfl⟩
abbrev main_c_10 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_11 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_12 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_13 : Ref sig .tc := ⟨.hbm, 97, rfl⟩
abbrev main_v59 : Ref sig .tc := ⟨.hbm, 98, rfl⟩
abbrev main_v60 : Ref sig .tc := ⟨.hbm, 99, rfl⟩
abbrev main_c_14 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_15 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_16 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_17 : Ref sig .tc := ⟨.hbm, 120, rfl⟩
abbrev main_v78 : Ref sig .tc := ⟨.hbm, 121, rfl⟩
abbrev main_v79 : Ref sig .tc := ⟨.hbm, 122, rfl⟩
abbrev main_c_18 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_19 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg2_0 : Ref sig .tc := ⟨.vmem, 53, rfl⟩
abbrev cc8_stg3_0 : Ref sig .tc := ⟨.vmem, 54, rfl⟩
abbrev cc8_stg4_0 : Ref sig .tc := ⟨.vmem, 55, rfl⟩
abbrev cc8_stg4_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg3_0 : Ref sig .tc := ⟨.vmem, 61, rfl⟩
abbrev cc9_stg3_1 : Ref sig .tc := ⟨.vmem, 62, rfl⟩
abbrev cc10_stg0_0 : Ref sig .tc := ⟨.vmem, 63, rfl⟩
abbrev cc10_stg0_1 : Ref sig .tc := ⟨.vmem, 64, rfl⟩
abbrev cc10_stg1_0 : Ref sig .tc := ⟨.vmem, 65, rfl⟩
abbrev cc10_stg2_0 : Ref sig .tc := ⟨.vmem, 66, rfl⟩
abbrev cc10_stg3_0 : Ref sig .tc := ⟨.vmem, 67, rfl⟩
abbrev cc10_stg3_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem4_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem2_0 : DmaSem sig := 53
abbrev cc8_sem3_0 : DmaSem sig := 54
abbrev cc8_sem4_0 : DmaSem sig := 55
abbrev cc8_sem4_1 : DmaSem sig := 56
abbrev cc9_sem0_0 : DmaSem sig := 57
abbrev cc9_sem0_1 : DmaSem sig := 58
abbrev cc9_sem1_0 : DmaSem sig := 59
abbrev cc9_sem2_0 : DmaSem sig := 60
abbrev cc9_sem3_0 : DmaSem sig := 61
abbrev cc9_sem3_1 : DmaSem sig := 62
abbrev cc10_sem0_0 : DmaSem sig := 63
abbrev cc10_sem0_1 : DmaSem sig := 64
abbrev cc10_sem1_0 : DmaSem sig := 65
abbrev cc10_sem2_0 : DmaSem sig := 66
abbrev cc10_sem3_0 : DmaSem sig := 67
abbrev cc10_sem3_1 : DmaSem sig := 68

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![160], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S2000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x2 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x2 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000x1_S800000 : S800000x1.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  transposes_S64x128_S128x64_1_0 : S64x128.Transposes [1, 0] S128x64
  bcast_S_S64 : S_.BroadcastsInDim S64 (![] : Fin 0 → Fin S64.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bcast_S_S50000x64 : S_.BroadcastsInDim S50000x64 (![] : Fin 0 → Fin S50000x64.rank)
  shapeCasts_S2000x64_S2000x64 : S2000x64.ShapeCasts S2000x64
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S32x64_S64x32_1_0 : S32x64.Transposes [1, 0] S64x32
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  transposes_S2x32_S32x2_1_0 : S2x32.Transposes [1, 0] S32x2
  shapeCasts_S2_S1x2 : S2.ShapeCasts S1x2
  shapeCasts_S2000x32_S2000x32 : S2000x32.ShapeCasts S2000x32
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x2_S2000x2_1_0_0_1_n_n_wf : DotDims.WF S2000x32 S32x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S800000x1.size a
  hwx1_0 : ∀ i : grid1.Coords, EltTy.bits .f32 = 32 ∨ (Rect.block (s := S800000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S800000x64.size a
  hwx1_1 : ∀ i : grid1.Coords, EltTy.bits .f32 = 32 ∨ (Rect.block (s := S800000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S800000x64.size a
  hwx1_2 : ∀ i : grid1.Coords, EltTy.bits .f32 = 32 ∨ (Rect.block (s := S800000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S800000x1.size a
  hwx4_0 : ∀ i : grid4.Coords, EltTy.bits .f32 = 32 ∨ (Rect.block (s := S800000x1) S5000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S800000x64.size a
  hwx4_1 : ∀ i : grid4.Coords, EltTy.bits .f32 = 32 ∨ (Rect.block (s := S800000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S800000x64.size a
  hwx4_2 : ∀ i : grid4.Coords, EltTy.bits .f32 = 32 ∨ (Rect.block (s := S800000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x1.size a ≤ S800000x1.size a
  hwx7_0 : ∀ i : grid7.Coords, EltTy.bits .f32 = 32 ∨ (Rect.block (s := S800000x1) S5000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S800000x64.size a
  hwx7_1 : ∀ i : grid7.Coords, EltTy.bits .f32 = 32 ∨ (Rect.block (s := S800000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S800000x64.size a
  hwx7_2 : ∀ i : grid7.Coords, EltTy.bits .f32 = 32 ∨ (Rect.block (s := S800000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x64.size a ≤ S50000x64.size a
  hwx8_4 : ∀ i : grid8.Coords, EltTy.bits .f32 = 32 ∨ (Rect.block (s := S50000x64) S2000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S50000x64.size a
  hwx9_0 : ∀ i : grid9.Coords, EltTy.bits .f32 = 32 ∨ (Rect.block (s := S50000x64) S2000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x32.size a ≤ S64x32.size a
  hwx9_1 : ∀ i : grid9.Coords, EltTy.bits .f32 = 32 ∨ (Rect.block (s := S64x32) S64x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x32.size a ≤ S50000x32.size a
  hwx9_3 : ∀ i : grid9.Coords, EltTy.bits .f32 = 32 ∨ (Rect.block (s := S50000x32) S2000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x32.size a ≤ S50000x32.size a
  hwx10_0 : ∀ i : grid10.Coords, EltTy.bits .f32 = 32 ∨ (Rect.block (s := S50000x32) S2000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x2.size a ≤ S32x2.size a
  hwx10_1 : ∀ i : grid10.Coords, EltTy.bits .f32 = 32 ∨ (Rect.block (s := S32x2) S32x2.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x2.size a ≤ S1x2.size a
  hwx10_2 : ∀ i : grid10.Coords, EltTy.bits .f32 = 32 ∨ (Rect.block (s := S1x2) S1x2.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x2.size a ≤ S50000x2.size a
  hwx10_3 : ∀ i : grid10.Coords, EltTy.bits .f32 = 32 ∨ (Rect.block (s := S50000x2) S2000x2.size (cc10_transform_3 i) (hinb10_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x2_S2000x2_1_0_0_1_n_n : DotDims S2000x32 S32x2 S2000x2 where
  lhsContracting := [1]
  rhsContracting := [0]
  lhsNonContracting := [0]
  rhsNonContracting := [1]
  lhsBatch := []
  rhsBatch := []
  wf := dot_S2000x32_S32x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v35) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v73) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v35) S5000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v85) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v88) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v89) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v90) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v91) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v92) S2000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v92) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v93) S64x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v94) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v95) S2000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v95) S2000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v96) S32x2.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v97) S1x2.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v98) S2000x2.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S2x32 : Shape := ⟨2, ![2, 32]⟩
abbrev S2 : Shape := ⟨1, ![2]⟩
abbrev S128x64 : Shape := ⟨2, ![128, 64]⟩
abbrev S50000x64 : Shape := ⟨2, ![50000, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x64 : Shape := ⟨2, ![800000, 64]⟩
abbrev S1x64 : Shape := ⟨2, ![1, 64]⟩
abbrev S64x32 : Shape := ⟨2, ![64, 32]⟩
abbrev S50000x32 : Shape := ⟨2, ![50000, 32]⟩
abbrev S1x32 : Shape := ⟨2, ![1, 32]⟩
abbrev S32x2 : Shape := ⟨2, ![32, 2]⟩
abbrev S50000x2 : Shape := ⟨2, ![50000, 2]⟩
abbrev S1x2 : Shape := ⟨2, ![1, 2]⟩

abbrev nBuf : Space → Nat
  | .hbm => 278
  | .vmem => 0
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S64x128, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S32x64, .f32⟩
  | 16 => ⟨S32, .f32⟩
  | 17 => ⟨S2x32, .f32⟩
  | 18 => ⟨S2, .f32⟩
  | 19 => ⟨S128x64, .f32⟩
  | 20 => ⟨S50000x64, .f32⟩
  | 21 => ⟨S1x800000, .i32⟩
  | 22 => ⟨S800000, .i32⟩
  | 23 => ⟨S1x800000, .i32⟩
  | 24 => ⟨S800000, .i32⟩
  | 25 => ⟨S800000, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .i1⟩
  | 41 => ⟨S50000, .f32⟩
  | 42 => ⟨S_, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000, .f32⟩
  | 67 => ⟨S800000, .f32⟩
  | 68 => ⟨S800000x1, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S800000x64, .f32⟩
  | 79 => ⟨S800000x64, .f32⟩
  | 80 => ⟨S800000x64, .f32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S64x64, .f32⟩
  | 102 => ⟨S50000x64, .f32⟩
  | 103 => ⟨S1x800000, .i32⟩
  | 104 => ⟨S800000, .i32⟩
  | 105 => ⟨S1x800000, .i32⟩
  | 106 => ⟨S800000, .i32⟩
  | 107 => ⟨S800000, .f32⟩
  | 108 => ⟨S800000, .f32⟩
  | 109 => ⟨S_, .f32⟩
  | 110 => ⟨S50000, .f32⟩
  | 111 => ⟨S800000x1, .i32⟩
  | 112 => ⟨S50000, .f32⟩
  | 113 => ⟨S_, .f32⟩
  | 114 => ⟨S50000, .f32⟩
  | 115 => ⟨S50000, .i1⟩
  | 116 => ⟨S_, .f32⟩
  | 117 => ⟨S_, .f32⟩
  | 118 => ⟨S50000, .f32⟩
  | 119 => ⟨S50000, .f32⟩
  | 120 => ⟨S_, .f32⟩
  | 121 => ⟨S50000, .f32⟩
  | 122 => ⟨S50000, .i1⟩
  | 123 => ⟨S50000, .f32⟩
  | 124 => ⟨S_, .f32⟩
  | 125 => ⟨S50000, .f32⟩
  | 126 => ⟨S50000, .f32⟩
  | 127 => ⟨S_, .f32⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S800000, .f32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x64, .f32⟩
  | 33 => ⟨S800000x64, .f32⟩
  | 34 => ⟨S800000x64, .f32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S64x64, .f32⟩
  | 56 => ⟨S50000x64, .f32⟩
  | 57 => ⟨S1x800000, .i32⟩
  | 58 => ⟨S800000, .i32⟩
  | 59 => ⟨S1x800000, .i32⟩
  | 60 => ⟨S800000, .i32⟩
  | 61 => ⟨S800000, .f32⟩
  | 62 => ⟨S800000, .f32⟩
  | 63 => ⟨S_, .f32⟩
  | 64 => ⟨S50000, .f32⟩
  | 65 => ⟨S800000x1, .i32⟩
  | 66 => ⟨S50000, .f32⟩
  | 67 => ⟨S_, .f32⟩
  | 68 => ⟨S50000, .f32⟩
  | 69 => ⟨S50000, .i1⟩
  | 70 => ⟨S_, .f32⟩
  | 71 => ⟨S_, .f32⟩
  | 72 => ⟨S50000, .f32⟩
  | 73 => ⟨S50000, .f32⟩
  | 74 => ⟨S_, .f32⟩
  | 75 => ⟨S50000, .f32⟩
  | 76 => ⟨S50000, .i1⟩
  | 77 => ⟨S50000, .f32⟩
  | 78 => ⟨S_, .f32⟩
  | 79 => ⟨S50000, .f32⟩
  | 80 => ⟨S50000, .f32⟩
  | 81 => ⟨S_, .f32⟩
  | 82 => ⟨S_, .f32⟩
  | 83 => ⟨S50000, .f32⟩
  | 84 => ⟨S50000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000, .f32⟩
  | 103 => ⟨S800000, .f32⟩
  | 104 => ⟨S800000x1, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S800000x64, .f32⟩
  | 115 => ⟨S800000x64, .f32⟩
  | 116 => ⟨S800000x64, .f32⟩
  | 117 => ⟨S800000x64, .f32⟩
  | 118 => ⟨S_, .f32⟩
  | 119 => ⟨S50000x64, .f32⟩
  | 120 => ⟨S800000x1, .i32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_2 (i : Nat) : BufTy := match i % 128 with
  | 0 => ⟨S1x64, .f32⟩
  | 1 => ⟨S50000x64, .f32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S64x32, .f32⟩
  | 10 => ⟨S50000x32, .f32⟩
  | 11 => ⟨S1x32, .f32⟩
  | 12 => ⟨S50000x32, .f32⟩
  | 13 => ⟨S50000x32, .f32⟩
  | 14 => ⟨S_, .f32⟩
  | 15 => ⟨S50000x32, .f32⟩
  | 16 => ⟨S50000x32, .f32⟩
  | 17 => ⟨S32x2, .f32⟩
  | 18 => ⟨S50000x2, .f32⟩
  | 19 => ⟨S1x2, .f32⟩
  | 20 => ⟨S50000x2, .f32⟩
  | 21 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_3 : Ref sig .tc := ⟨.hbm, 42, rfl⟩
abbrev main_v17 : Ref sig .tc := ⟨.hbm, 43, rfl⟩
abbrev main_v18 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_v19 : Ref sig .tc := ⟨.hbm, 48, rfl⟩
abbrev main_c : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_8 : Ref sig .tc := ⟨.hbm, 69, rfl⟩
abbrev main_v36 : Ref sig .tc := ⟨.hbm, 70, rfl⟩
abbrev main_v37 : Ref sig .tc := ⟨.hbm, 71, rfl⟩
abbrev main_c_9 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_10 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call2_cst : Ref sig .tc := ⟨.hbm, 98, rfl⟩
abbrev main_call2_v0 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_12 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_13 : Ref sig .tc := ⟨.hbm, 113, rfl⟩
abbrev main_v73 : Ref sig .tc := ⟨.hbm, 114, rfl⟩
abbrev main_v74 : Ref sig .tc := ⟨.hbm, 115, rfl⟩
abbrev main_cst_14 : Ref sig .tc := ⟨.hbm, 116, rfl⟩
abbrev main_call3_v0 : Ref sig .tc := ⟨.hbm, 117, rfl⟩
abbrev main_call3_v1 : Ref sig .tc := ⟨.hbm, 118, rfl⟩
abbrev main_v75 : Ref sig .tc := ⟨.hbm, 119, rfl⟩
abbrev main_cst_15 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_16 : Ref sig .tc := ⟨.hbm, 124, rfl⟩
abbrev main_v79 : Ref sig .tc := ⟨.hbm, 125, rfl⟩
abbrev main_v80 : Ref sig .tc := ⟨.hbm, 126, rfl⟩
abbrev main_cst_17 : Ref sig .tc := ⟨.hbm, 127, rfl⟩
abbrev main_call4_v0 : Ref sig .tc := ⟨.hbm, 128, rfl⟩
abbrev main_call4_v1 : Ref sig .tc := ⟨.hbm, 129, rfl⟩
abbrev main_v81 : Ref sig .tc := ⟨.hbm, 130, rfl⟩
abbrev main_c_18 : Ref sig .tc := ⟨.hbm, 131, rfl⟩
abbrev main_v82 : Ref sig .tc := ⟨.hbm, 132, rfl⟩
abbrev main_v83 : Ref sig .tc := ⟨.hbm, 133, rfl⟩
abbrev main_c_19 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_20 : Ref sig .tc := ⟨.hbm, 140, rfl⟩
abbrev main_v89 : Ref sig .tc := ⟨.hbm, 141, rfl⟩
abbrev main_v90 : Ref sig .tc := ⟨.hbm, 142, rfl⟩
abbrev main_c_21 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_22 : Ref sig .tc := ⟨.hbm, 151, rfl⟩
abbrev main_v98 : Ref sig .tc := ⟨.hbm, 152, rfl⟩
abbrev main_v99 : Ref sig .tc := ⟨.hbm, 153, rfl⟩
abbrev main_c_23 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_24 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_25 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_call5_cst : Ref sig .tc := ⟨.hbm, 180, rfl⟩
abbrev main_call5_v0 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_26 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_27 : Ref sig .tc := ⟨.hbm, 195, rfl⟩
abbrev main_v135 : Ref sig .tc := ⟨.hbm, 196, rfl⟩
abbrev main_v136 : Ref sig .tc := ⟨.hbm, 197, rfl⟩
abbrev main_cst_28 : Ref sig .tc := ⟨.hbm, 198, rfl⟩
abbrev main_call6_v0 : Ref sig .tc := ⟨.hbm, 199, rfl⟩
abbrev main_call6_v1 : Ref sig .tc := ⟨.hbm, 200, rfl⟩
abbrev main_v137 : Ref sig .tc := ⟨.hbm, 201, rfl⟩
abbrev main_cst_29 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_cst_30 : Ref sig .tc := ⟨.hbm, 206, rfl⟩
abbrev main_v141 : Ref sig .tc := ⟨.hbm, 207, rfl⟩
abbrev main_v142 : Ref sig .tc := ⟨.hbm, 208, rfl⟩
abbrev main_cst_31 : Ref sig .tc := ⟨.hbm, 209, rfl⟩
abbrev main_call7_v0 : Ref sig .tc := ⟨.hbm, 210, rfl⟩
abbrev main_call7_v1 : Ref sig .tc := ⟨.hbm, 211, rfl⟩
abbrev main_v143 : Ref sig .tc := ⟨.hbm, 212, rfl⟩
abbrev main_c_32 : Ref sig .tc := ⟨.hbm, 213, rfl⟩
abbrev main_v144 : Ref sig .tc := ⟨.hbm, 214, rfl⟩
abbrev main_v145 : Ref sig .tc := ⟨.hbm, 215, rfl⟩
abbrev main_c_33 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_c_34 : Ref sig .tc := ⟨.hbm, 222, rfl⟩
abbrev main_v151 : Ref sig .tc := ⟨.hbm, 223, rfl⟩
abbrev main_v152 : Ref sig .tc := ⟨.hbm, 224, rfl⟩
abbrev main_c_35 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_c_36 : Ref sig .tc := ⟨.hbm, 233, rfl⟩
abbrev main_v160 : Ref sig .tc := ⟨.hbm, 234, rfl⟩
abbrev main_v161 : Ref sig .tc := ⟨.hbm, 235, rfl⟩
abbrev main_c_37 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_cst_38 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_cst_39 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_call8_cst : Ref sig .tc := ⟨.hbm, 262, rfl⟩
abbrev main_call8_v0 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_call9_cst : Ref sig .tc := ⟨.hbm, 270, rfl⟩
abbrev main_call9_v0 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩

abbrev nD : Nat := 1
abbrev τ : Topo := Topo.v7x

variable {F : FTy → Type} [FloatOps F]

class Facts₀ : Prop where
  transposes_S64x128_S128x64_1_0 : S64x128.Transposes [1, 0] S128x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000x1_S800000 : S800000x1.ShapeCasts S800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  transposes_S32x64_S64x32_1_0 : S32x64.Transposes [1, 0] S64x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  transposes_S2x32_S32x2_1_0 : S2x32.Transposes [1, 0] S32x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x64_S50000x64_1_0_0_1_n_n_wf : DotDims.WF S50000x128 S128x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  dot_S50000x32_S32x2_S50000x2_1_0_0_1_n_n_wf : DotDims.WF S50000x32 S32x2 S50000x2 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x2_S50000x2_1_0_0_1_n_n : DotDims S50000x32 S32x2 S50000x2 where
  lhsContracting := [1]
  rhsContracting := [0]
  lhsNonContracting := [0]
  rhsNonContracting := [1]
  lhsBatch := []
  rhsBatch := []
  wf := dot_S50000x32_S32x2_S50000x2_1_0_0_1_n_n_wf

class Facts : Prop extends Facts₀ where

variable [Facts]
-- ==== Proof.KernelRun.lean ====
/-
  The tiled program's run with its result kept.

  Every weakly fair execution of the program terminates without a fault; at the end every buffer that outlives the
  program holds what the fold of the program's segments leaves there. Read at the result buffer this is the last
  region's output array; read at an argument it is the argument as launched.
-/
import proofs.«138375_j82231443849542_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the fold's last contents, every argument as launched. -/
theorem run_result : θ_run defs (onTc (τ := τ) (main (F := F))) ⟨m, fun _ => 0, ρ⟩ (fun r => ∀ c : Dev nD,
      r.2.mem ((c.tc : Thread nD τ).loc main_v98) = W26 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v98 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c),
       (h c _ (mem_uc main_arg16 (by decide))).trans (W26_main_arg16 m ρ c),
       (h c _ (mem_uc main_arg17 (by decide))).trans (W26_main_arg17 m ρ c),
       (h c _ (mem_uc main_arg18 (by decide))).trans (W26_main_arg18 m ρ c)⟩)

end Cert.KernelIdeal.Run

end
-- ==== Proof.KeepRegions.lean ====
/-
  A region's exit contents away from its output.

  A region stages blocks of its windows' arrays, runs its body at every grid point and writes the output window's
  blocks back. An input window's array is only read, and a buffer that is no window's array is not touched, so every
  buffer other than the region's output array holds at the region's exit what it held at its entry.
-/
import proofs.«138375_j82231443849542_2_alg».proof.Proof.Gen.KernelIdeal.Frame

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- Region 0 writes back only its output array: any other buffer leaves the region as it entered. -/
theorem keep_region0 (c : Dev nD) (b : Ref sig .tc) (hb : b ≠ main_v39) :
    W6 m ρ c (Proc.devRef .tc b) = W5 m ρ c (Proc.devRef .tc b) := by
  by_cases h : ∃ w, Pipeline.arrRef spec0 w = b
  · obtain ⟨w, rfl⟩ := h
    rcases (by decide : ∀ w : Fin cfg0.W, w = 0 ∨ w = 1 ∨ w = 2 ∨ w = 3) w with rfl | rfl | rfl | rfl
    · exact (W6_arr m ρ c 0).trans (((dat0 (V5 m ρ) c).arrAt_in 0 rfl _).trans (A_eq0 (V5 m ρ) c 0))
    · exact (W6_arr m ρ c 1).trans (((dat0 (V5 m ρ) c).arrAt_in 1 rfl _).trans (A_eq0 (V5 m ρ) c 1))
    · exact (W6_arr m ρ c 2).trans (((dat0 (V5 m ρ) c).arrAt_in 2 rfl _).trans (A_eq0 (V5 m ρ) c 2))
    · exact absurd rfl hb
  · exact W6_of_ne m ρ c b (fun w e => h ⟨w, e⟩)

/-- Region 1 writes back only its output array: any other buffer leaves the region as it entered. -/
theorem keep_region1 (c : Dev nD) (b : Ref sig .tc) (hb : b ≠ main_v47) :
    W8 m ρ c (Proc.devRef .tc b) = W7 m ρ c (Proc.devRef .tc b) := by
  by_cases h : ∃ w, Pipeline.arrRef spec1 w = b
  · obtain ⟨w, rfl⟩ := h
    rcases (by decide : ∀ w : Fin cfg1.W, w = 0 ∨ w = 1 ∨ w = 2) w with rfl | rfl | rfl
    · exact (W8_arr m ρ c 0).trans (((dat1 (V7 m ρ) c).arrAt_in 0 rfl _).trans (A_eq1 (V7 m ρ) c 0))
    · exact (W8_arr m ρ c 1).trans (((dat1 (V7 m ρ) c).arrAt_in 1 rfl _).trans (A_eq1 (V7 m ρ) c 1))
    · exact absurd rfl hb
  · exact W8_of_ne m ρ c b (fun w e => h ⟨w, e⟩)

/-- Region 2 writes back only its output array: any other buffer leaves the region as it entered. -/
theorem keep_region2 (c : Dev nD) (b : Ref sig .tc) (hb : b ≠ main_v54) :
    W10 m ρ c (Proc.devRef .tc b) = W9 m ρ c (Proc.devRef .tc b) := by
  by_cases h : ∃ w, Pipeline.arrRef spec2 w = b
  · obtain ⟨w, rfl⟩ := h
    rcases (by decide : ∀ w : Fin cfg2.W, w = 0 ∨ w = 1 ∨ w = 2 ∨ w = 3 ∨ w = 4) w with rfl | rfl | rfl | rfl | rfl
    · exact (W10_arr m ρ c 0).trans (((dat2 (V9 m ρ) c).arrAt_in 0 rfl _).trans (A_eq2 (V9 m ρ) c 0))
    · exact (W10_arr m ρ c 1).trans (((dat2 (V9 m ρ) c).arrAt_in 1 rfl _).trans (A_eq2 (V9 m ρ) c 1))
    · exact (W10_arr m ρ c 2).trans (((dat2 (V9 m ρ) c).arrAt_in 2 rfl _).trans (A_eq2 (V9 m ρ) c 2))
    · exact (W10_arr m ρ c 3).trans (((dat2 (V9 m ρ) c).arrAt_in 3 rfl _).trans (A_eq2 (V9 m ρ) c 3))
    · exact absurd rfl hb
  · exact W10_of_ne m ρ c b (fun w e => h ⟨w, e⟩)

/-- Region 3 writes back only its output array: any other buffer leaves the region as it entered. -/
theorem keep_region3 (c : Dev nD) (b : Ref sig .tc) (hb : b ≠ main_v58) :
    W12 m ρ c (Proc.devRef .tc b) = W11 m ρ c (Proc.devRef .tc b) := by
  by_cases h : ∃ w, Pipeline.arrRef spec3 w = b
  · obtain ⟨w, rfl⟩ := h
    rcases (by decide : ∀ w : Fin cfg3.W, w = 0 ∨ w = 1 ∨ w = 2 ∨ w = 3) w with rfl | rfl | rfl | rfl
    · exact (W12_arr m ρ c 0).trans (((dat3 (V11 m ρ) c).arrAt_in 0 rfl _).trans (A_eq3 (V11 m ρ) c 0))
    · exact (W12_arr m ρ c 1).trans (((dat3 (V11 m ρ) c).arrAt_in 1 rfl _).trans (A_eq3 (V11 m ρ) c 1))
    · exact (W12_arr m ρ c 2).trans (((dat3 (V11 m ρ) c).arrAt_in 2 rfl _).trans (A_eq3 (V11 m ρ) c 2))
    · exact absurd rfl hb
  · exact W12_of_ne m ρ c b (fun w e => h ⟨w, e⟩)

/-- Region 4 writes back only its output array: any other buffer leaves the region as it entered. -/
theorem keep_region4 (c : Dev nD) (b : Ref sig .tc) (hb : b ≠ main_v66) :
    W14 m ρ c (Proc.devRef .tc b) = W13 m ρ c (Proc.devRef .tc b) := by
  by_cases h : ∃ w, Pipeline.arrRef spec4 w = b
  · obtain ⟨w, rfl⟩ := h
    rcases (by decide : ∀ w : Fin cfg4.W, w = 0 ∨ w = 1 ∨ w = 2) w with rfl | rfl | rfl
    · exact (W14_arr m ρ c 0).trans (((dat4 (V13 m ρ) c).arrAt_in 0 rfl _).trans (A_eq4 (V13 m ρ) c 0))
    · exact (W14_arr m ρ c 1).trans (((dat4 (V13 m ρ) c).arrAt_in 1 rfl _).trans (A_eq4 (V13 m ρ) c 1))
    · exact absurd rfl hb
  · exact W14_of_ne m ρ c b (fun w e => h ⟨w, e⟩)

/-- Region 5 writes back only its output array: any other buffer leaves the region as it entered. -/
theorem keep_region5 (c : Dev nD) (b : Ref sig .tc) (hb : b ≠ main_v73) :
    W16 m ρ c (Proc.devRef .tc b) = W15 m ρ c (Proc.devRef .tc b) := by
  by_cases h : ∃ w, Pipeline.arrRef spec5 w = b
  · obtain ⟨w, rfl⟩ := h
    rcases (by decide : ∀ w : Fin cfg5.W, w = 0 ∨ w = 1 ∨ w = 2 ∨ w = 3 ∨ w = 4) w with rfl | rfl | rfl | rfl | rfl
    · exact (W16_arr m ρ c 0).trans (((dat5 (V15 m ρ) c).arrAt_in 0 rfl _).trans (A_eq5 (V15 m ρ) c 0))
    · exact (W16_arr m ρ c 1).trans (((dat5 (V15 m ρ) c).arrAt_in 1 rfl _).trans (A_eq5 (V15 m ρ) c 1))
    · exact (W16_arr m ρ c 2).trans (((dat5 (V15 m ρ) c).arrAt_in 2 rfl _).trans (A_eq5 (V15 m ρ) c 2))
    · exact (W16_arr m ρ c 3).trans (((dat5 (V15 m ρ) c).arrAt_in 3 rfl _).trans (A_eq5 (V15 m ρ) c 3))
    · exact absurd rfl hb
  · exact W16_of_ne m ρ c b (fun w e => h ⟨w, e⟩)

/-- Region 6 writes back only its output array: any other buffer leaves the region as it entered. -/
theorem keep_region6 (c : Dev nD) (b : Ref sig .tc) (hb : b ≠ main_v77) :
    W18 m ρ c (Proc.devRef .tc b) = W17 m ρ c (Proc.devRef .tc b) := by
  by_cases h : ∃ w, Pipeline.arrRef spec6 w = b
  · obtain ⟨w, rfl⟩ := h
    rcases (by decide : ∀ w : Fin cfg6.W, w = 0 ∨ w = 1 ∨ w = 2 ∨ w = 3) w with rfl | rfl | rfl | rfl
    · exact (W18_arr m ρ c 0).trans (((dat6 (V17 m ρ) c).arrAt_in 0 rfl _).trans (A_eq6 (V17 m ρ) c 0))
    · exact (W18_arr m ρ c 1).trans (((dat6 (V17 m ρ) c).arrAt_in 1 rfl _).trans (A_eq6 (V17 m ρ) c 1))
    · exact (W18_arr m ρ c 2).trans (((dat6 (V17 m ρ) c).arrAt_in 2 rfl _).trans (A_eq6 (V17 m ρ) c 2))
    · exact absurd rfl hb
  · exact W18_of_ne m ρ c b (fun w e => h ⟨w, e⟩)

/-- Region 7 writes back only its output array: any other buffer leaves the region as it entered. -/
theorem keep_region7 (c : Dev nD) (b : Ref sig .tc) (hb : b ≠ main_v85) :
    W20 m ρ c (Proc.devRef .tc b) = W19 m ρ c (Proc.devRef .tc b) := by
  by_cases h : ∃ w, Pipeline.arrRef spec7 w = b
  · obtain ⟨w, rfl⟩ := h
    rcases (by decide : ∀ w : Fin cfg7.W, w = 0 ∨ w = 1 ∨ w = 2) w with rfl | rfl | rfl
    · exact (W20_arr m ρ c 0).trans (((dat7 (V19 m ρ) c).arrAt_in 0 rfl _).trans (A_eq7 (V19 m ρ) c 0))
    · exact (W20_arr m ρ c 1).trans (((dat7 (V19 m ρ) c).arrAt_in 1 rfl _).trans (A_eq7 (V19 m ρ) c 1))
    · exact absurd rfl hb
  · exact W20_of_ne m ρ c b (fun w e => h ⟨w, e⟩)

/-- Region 8 writes back only its output array: any other buffer leaves the region as it entered. -/
theorem keep_region8 (c : Dev nD) (b : Ref sig .tc) (hb : b ≠ main_v92) :
    W22 m ρ c (Proc.devRef .tc b) = W21 m ρ c (Proc.devRef .tc b) := by
  by_cases h : ∃ w, Pipeline.arrRef spec8 w = b
  · obtain ⟨w, rfl⟩ := h
    rcases (by decide : ∀ w : Fin cfg8.W, w = 0 ∨ w = 1 ∨ w = 2 ∨ w = 3 ∨ w = 4) w with rfl | rfl | rfl | rfl | rfl
    · exact (W22_arr m ρ c 0).trans (((dat8 (V21 m ρ) c).arrAt_in 0 rfl _).trans (A_eq8 (V21 m ρ) c 0))
    · exact (W22_arr m ρ c 1).trans (((dat8 (V21 m ρ) c).arrAt_in 1 rfl _).trans (A_eq8 (V21 m ρ) c 1))
    · exact (W22_arr m ρ c 2).trans (((dat8 (V21 m ρ) c).arrAt_in 2 rfl _).trans (A_eq8 (V21 m ρ) c 2))
    · exact (W22_arr m ρ c 3).trans (((dat8 (V21 m ρ) c).arrAt_in 3 rfl _).trans (A_eq8 (V21 m ρ) c 3))
    · exact absurd rfl hb
  · exact W22_of_ne m ρ c b (fun w e => h ⟨w, e⟩)

/-- Region 9 writes back only its output array: any other buffer leaves the region as it entered. -/
theorem keep_region9 (c : Dev nD) (b : Ref sig .tc) (hb : b ≠ main_v95) :
    W24 m ρ c (Proc.devRef .tc b) = W23 m ρ c (Proc.devRef .tc b) := by
  by_cases h : ∃ w, Pipeline.arrRef spec9 w = b
  · obtain ⟨w, rfl⟩ := h
    rcases (by decide : ∀ w : Fin cfg9.W, w = 0 ∨ w = 1 ∨ w = 2 ∨ w = 3) w with rfl | rfl | rfl | rfl
    · exact (W24_arr m ρ c 0).trans (((dat9 (V23 m ρ) c).arrAt_in 0 rfl _).trans (A_eq9 (V23 m ρ) c 0))
    · exact (W24_arr m ρ c 1).trans (((dat9 (V23 m ρ) c).arrAt_in 1 rfl _).trans (A_eq9 (V23 m ρ) c 1))
    · exact (W24_arr m ρ c 2).trans (((dat9 (V23 m ρ) c).arrAt_in 2 rfl _).trans (A_eq9 (V23 m ρ) c 2))
    · exact absurd rfl hb
  · exact W24_of_ne m ρ c b (fun w e => h ⟨w, e⟩)

/-- Region 10 writes back only its output array: any other buffer leaves the region as it entered. -/
theorem keep_region10 (c : Dev nD) (b : Ref sig .tc) (hb : b ≠ main_v98) :
    W26 m ρ c (Proc.devRef .tc b) = W25 m ρ c (Proc.devRef .tc b) := by
  by_cases h : ∃ w, Pipeline.arrRef spec10 w = b
  · obtain ⟨w, rfl⟩ := h
    rcases (by decide : ∀ w : Fin cfg10.W, w = 0 ∨ w = 1 ∨ w = 2 ∨ w = 3) w with rfl | rfl | rfl | rfl
    · exact (W26_arr m ρ c 0).trans (((dat10 (V25 m ρ) c).arrAt_in 0 rfl _).trans (A_eq10 (V25 m ρ) c 0))
    · exact (W26_arr m ρ c 1).trans (((dat10 (V25 m ρ) c).arrAt_in 1 rfl _).trans (A_eq10 (V25 m ρ) c 1))
    · exact (W26_arr m ρ c 2).trans (((dat10 (V25 m ρ) c).arrAt_in 2 rfl _).trans (A_eq10 (V25 m ρ) c 2))
    · exact absurd rfl hb
  · exact W26_of_ne m ρ c b (fun w e => h ⟨w, e⟩)

end Cert.KernelIdeal.Chain

end
-- ==== Proof.Carried.lean ====
/-
  What the later segments leave alone.

  The nineteen argument arrays are written by no host operation and by no region. The edge scale, the edges' sources and
  the edges' targets are computed before the first region and written by nothing after it. So at every segment boundary
  from the first region's entry on, each of these buffers holds what it held at that entry, and an argument holds what
  was launched.
-/
import proofs.«138375_j82231443849542_2_alg».proof.Proof.KeepRegions

set_option maxRecDepth 16384

noncomputable section

namespace Cert.KernelIdeal.Chain

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The argument arrays. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- The argument arrays, the edge scale, the edges' sources and the edges' targets. -/
def carried : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_v35, main_v1, main_v3]

/-- A host line leaves a buffer alone when none of its operations writes it: the operations' result buffers are read
    off the literal line, and each differs from a buffer of the list `L` because it is not in `L`. -/
local macro "host_unwritten " ops:ident hb:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (ne_of_mem_of_not_mem $hb (by decide))))

/-! ## Before the first region: the arguments -/

theorem args_W1 (c : Dev nD) (b : Ref sig .tc) (hb : b ∈ argRefs) :
    W1 m ρ c (Proc.devRef .tc b) = W0 m ρ c (Proc.devRef .tc b) := by host_unwritten hostOps0 hb
theorem args_W2 (c : Dev nD) (b : Ref sig .tc) (hb : b ∈ argRefs) :
    W2 m ρ c (Proc.devRef .tc b) = W1 m ρ c (Proc.devRef .tc b) := by host_unwritten hostOps0_1 hb
theorem args_W3 (c : Dev nD) (b : Ref sig .tc) (hb : b ∈ argRefs) :
    W3 m ρ c (Proc.devRef .tc b) = W2 m ρ c (Proc.devRef .tc b) := by host_unwritten hostOps0_2 hb
theorem args_W4 (c : Dev nD) (b : Ref sig .tc) (hb : b ∈ argRefs) :
    W4 m ρ c (Proc.devRef .tc b) = W3 m ρ c (Proc.devRef .tc b) := by host_unwritten hostOps0_3 hb
theorem args_W5 (c : Dev nD) (b : Ref sig .tc) (hb : b ∈ argRefs) :
    W5 m ρ c (Proc.devRef .tc b) = W4 m ρ c (Proc.devRef .tc b) := by host_unwritten hostOps0_4 hb

/-- At the first region's entry every argument holds what was launched. -/
theorem args_entry (c : Dev nD) (b : Ref sig .tc) (hb : b ∈ argRefs) :
    W5 m ρ c (Proc.devRef .tc b) = m ((c : Thread nD τ).loc b) :=
  (args_W5 m ρ c b hb).trans ((args_W4 m ρ c b hb).trans ((args_W3 m ρ c b hb).trans ((args_W2 m ρ c b hb).trans
    ((args_W1 m ρ c b hb).trans rfl))))

/-! ## From the first region's entry on: one step per segment -/

theorem step_W6 (c : Dev nD) (b : Ref sig .tc) (hb : b ∈ carried) :
    W6 m ρ c (Proc.devRef .tc b) = W5 m ρ c (Proc.devRef .tc b) :=
  keep_region0 m ρ c b (ne_of_mem_of_not_mem hb (by decide))
theorem step_W7 (c : Dev nD) (b : Ref sig .tc) (hb : b ∈ carried) :
    W7 m ρ c (Proc.devRef .tc b) = W6 m ρ c (Proc.devRef .tc b) := by host_unwritten hostOps1 hb
theorem step_W8 (c : Dev nD) (b : Ref sig .tc) (hb : b ∈ carried) :
    W8 m ρ c (Proc.devRef .tc b) = W7 m ρ c (Proc.devRef .tc b) :=
  keep_region1 m ρ c b (ne_of_mem_of_not_mem hb (by decide))
theorem step_W9 (c : Dev nD) (b : Ref sig .tc) (hb : b ∈ carried) :
    W9 m ρ c (Proc.devRef .tc b) = W8 m ρ c (Proc.devRef .tc b) := by host_unwritten hostOps2 hb
theorem step_W10 (c : Dev nD) (b : Ref sig .tc) (hb : b ∈ carried) :
    W10 m ρ c (Proc.devRef .tc b) = W9 m ρ c (Proc.devRef .tc b) :=
  keep_region2 m ρ c b (ne_of_mem_of_not_mem hb (by decide))
theorem step_W11 (c : Dev nD) (b : Ref sig .tc) (hb : b ∈ carried) :
    W11 m ρ c (Proc.devRef .tc b) = W10 m ρ c (Proc.devRef .tc b) := by host_unwritten hostOps3 hb
theorem step_W12 (c : Dev nD) (b : Ref sig .tc) (hb : b ∈ carried) :
    W12 m ρ c (Proc.devRef .tc b) = W11 m ρ c (Proc.devRef .tc b) :=
  keep_region3 m ρ c b (ne_of_mem_of_not_mem hb (by decide))
theorem step_W13 (c : Dev nD) (b : Ref sig .tc) (hb : b ∈ carried) :
    W13 m ρ c (Proc.devRef .tc b) = W12 m ρ c (Proc.devRef .tc b) := by host_unwritten hostOps4 hb
theorem step_W14 (c : Dev nD) (b : Ref sig .tc) (hb : b ∈ carried) :
    W14 m ρ c (Proc.devRef .tc b) = W13 m ρ c (Proc.devRef .tc b) :=
  keep_region4 m ρ c b (ne_of_mem_of_not_mem hb (by decide))
theorem step_W15 (c : Dev nD) (b : Ref sig .tc) (hb : b ∈ carried) :
    W15 m ρ c (Proc.devRef .tc b) = W14 m ρ c (Proc.devRef .tc b) := by host_unwritten hostOps5 hb
theorem step_W16 (c : Dev nD) (b : Ref sig .tc) (hb : b ∈ carried) :
    W16 m ρ c (Proc.devRef .tc b) = W15 m ρ c (Proc.devRef .tc b) :=
  keep_region5 m ρ c b (ne_of_mem_of_not_mem hb (by decide))
theorem step_W17 (c : Dev nD) (b : Ref sig .tc) (hb : b ∈ carried) :
    W17 m ρ c (Proc.devRef .tc b) = W16 m ρ c (Proc.devRef .tc b) := by host_unwritten hostOps6 hb
theorem step_W18 (c : Dev nD) (b : Ref sig .tc) (hb : b ∈ carried) :
    W18 m ρ c (Proc.devRef .tc b) = W17 m ρ c (Proc.devRef .tc b) :=
  keep_region6 m ρ c b (ne_of_mem_of_not_mem hb (by decide))
theorem step_W19 (c : Dev nD) (b : Ref sig .tc) (hb : b ∈ carried) :
    W19 m ρ c (Proc.devRef .tc b) = W18 m ρ c (Proc.devRef .tc b) := by host_unwritten hostOps7 hb
theorem step_W20 (c : Dev nD) (b : Ref sig .tc) (hb : b ∈ carried) :
    W20 m ρ c (Proc.devRef .tc b) = W19 m ρ c (Proc.devRef .tc b) :=
  keep_region7 m ρ c b (ne_of_mem_of_not_mem hb (by decide))
theorem step_W21 (c : Dev nD) (b : Ref sig .tc) (hb : b ∈ carried) :
    W21 m ρ c (Proc.devRef .tc b) = W20 m ρ c (Proc.devRef .tc b) := by host_unwritten hostOps8 hb
theorem step_W22 (c : Dev nD) (b : Ref sig .tc) (hb : b ∈ carried) :
    W22 m ρ c (Proc.devRef .tc b) = W21 m ρ c (Proc.devRef .tc b) :=
  keep_region8 m ρ c b (ne_of_mem_of_not_mem hb (by decide))
theorem step_W23 (c : Dev nD) (b : Ref sig .tc) (hb : b ∈ carried) :
    W23 m ρ c (Proc.devRef .tc b) = W22 m ρ c (Proc.devRef .tc b) := by host_unwritten hostOps9 hb
theorem step_W24 (c : Dev nD) (b : Ref sig .tc) (hb : b ∈ carried) :
    W24 m ρ c (Proc.devRef .tc b) = W23 m ρ c (Proc.devRef .tc b) :=
  keep_region9 m ρ c b (ne_of_mem_of_not_mem hb (by decide))
theorem step_W25 (c : Dev nD) (b : Ref sig .tc) (hb : b ∈ carried) :
    W25 m ρ c (Proc.devRef .tc b) = W24 m ρ c (Proc.devRef .tc b) := by host_unwritten hostOps10 hb
theorem step_W26 (c : Dev nD) (b : Ref sig .tc) (hb : b ∈ carried) :
    W26 m ρ c (Proc.devRef .tc b) = W25 m ρ c (Proc.devRef .tc b) :=
  keep_region10 m ρ c b (ne_of_mem_of_not_mem hb (by decide))

/-! ## Every boundary against the first region's entry -/

theorem carried_W6 (c : Dev nD) (b : Ref sig .tc) (hb : b ∈ carried) :
    W6 m ρ c (Proc.devRef .tc b) = W5 m ρ c (Proc.devRef .tc b) :=
  step_W6 m ρ c b hb
theorem carried_W7 (c : Dev nD) (b : Ref sig .tc) (hb : b ∈ carried) :
    W7 m ρ c (Proc.devRef .tc b) = W5 m ρ c (Proc.devRef .tc b) :=
  (step_W7 m ρ c b hb).trans (carried_W6 m ρ c b hb)
theorem carried_W8 (c : Dev nD) (b : Ref sig .tc) (hb : b ∈ carried) :
    W8 m ρ c (Proc.devRef .tc b) = W5 m ρ c (Proc.devRef .tc b) :=
  (step_W8 m ρ c b hb).trans (carried_W7 m ρ c b hb)
theorem carried_W9 (c : Dev nD) (b : Ref sig .tc) (hb : b ∈ carried) :
    W9 m ρ c (Proc.devRef .tc b) = W5 m ρ c (Proc.devRef .tc b) :=
  (step_W9 m ρ c b hb).trans (carried_W8 m ρ c b hb)
theorem carried_W10 (c : Dev nD) (b : Ref sig .tc) (hb : b ∈ carried) :
    W10 m ρ c (Proc.devRef .tc b) = W5 m ρ c (Proc.devRef .tc b) :=
  (step_W10 m ρ c b hb).trans (carried_W9 m ρ c b hb)
theorem carried_W11 (c : Dev nD) (b : Ref sig .tc) (hb : b ∈ carried) :
    W11 m ρ c (Proc.devRef .tc b) = W5 m ρ c (Proc.devRef .tc b) :=
  (step_W11 m ρ c b hb).trans (carried_W10 m ρ c b hb)
theorem carried_W12 (c : Dev nD) (b : Ref sig .tc) (hb : b ∈ carried) :
    W12 m ρ c (Proc.devRef .tc b) = W5 m ρ c (Proc.devRef .tc b) :=
  (step_W12 m ρ c b hb).trans (carried_W11 m ρ c b hb)
theorem carried_W13 (c : Dev nD) (b : Ref sig .tc) (hb : b ∈ carried) :
    W13 m ρ c (Proc.devRef .tc b) = W5 m ρ c (Proc.devRef .tc b) :=
  (step_W13 m ρ c b hb).trans (carried_W12 m ρ c b hb)
theorem carried_W14 (c : Dev nD) (b : Ref sig .tc) (hb : b ∈ carried) :
    W14 m ρ c (Proc.devRef .tc b) = W5 m ρ c (Proc.devRef .tc b) :=
  (step_W14 m ρ c b hb).trans (carried_W13 m ρ c b hb)
theorem carried_W15 (c : Dev nD) (b : Ref sig .tc) (hb : b ∈ carried) :
    W15 m ρ c (Proc.devRef .tc b) = W5 m ρ c (Proc.devRef .tc b) :=
  (step_W15 m ρ c b hb).trans (carried_W14 m ρ c b hb)
theorem carried_W16 (c : Dev nD) (b : Ref sig .tc) (hb : b ∈ carried) :
    W16 m ρ c (Proc.devRef .tc b) = W5 m ρ c (Proc.devRef .tc b) :=
  (step_W16 m ρ c b hb).trans (carried_W15 m ρ c b hb)
theorem carried_W17 (c : Dev nD) (b : Ref sig .tc) (hb : b ∈ carried) :
    W17 m ρ c (Proc.devRef .tc b) = W5 m ρ c (Proc.devRef .tc b) :=
  (step_W17 m ρ c b hb).trans (carried_W16 m ρ c b hb)
theorem carried_W18 (c : Dev nD) (b : Ref sig .tc) (hb : b ∈ carried) :
    W18 m ρ c (Proc.devRef .tc b) = W5 m ρ c (Proc.devRef .tc b) :=
  (step_W18 m ρ c b hb).trans (carried_W17 m ρ c b hb)
theorem carried_W19 (c : Dev nD) (b : Ref sig .tc) (hb : b ∈ carried) :
    W19 m ρ c (Proc.devRef .tc b) = W5 m ρ c (Proc.devRef .tc b) :=
  (step_W19 m ρ c b hb).trans (carried_W18 m ρ c b hb)
theorem carried_W20 (c : Dev nD) (b : Ref sig .tc) (hb : b ∈ carried) :
    W20 m ρ c (Proc.devRef .tc b) = W5 m ρ c (Proc.devRef .tc b) :=
  (step_W20 m ρ c b hb).trans (carried_W19 m ρ c b hb)
theorem carried_W21 (c : Dev nD) (b : Ref sig .tc) (hb : b ∈ carried) :
    W21 m ρ c (Proc.devRef .tc b) = W5 m ρ c (Proc.devRef .tc b) :=
  (step_W21 m ρ c b hb).trans (carried_W20 m ρ c b hb)
theorem carried_W22 (c : Dev nD) (b : Ref sig .tc) (hb : b ∈ carried) :
    W22 m ρ c (Proc.devRef .tc b) = W5 m ρ c (Proc.devRef .tc b) :=
  (step_W22 m ρ c b hb).trans (carried_W21 m ρ c b hb)
theorem carried_W23 (c : Dev nD) (b : Ref sig .tc) (hb : b ∈ carried) :
    W23 m ρ c (Proc.devRef .tc b) = W5 m ρ c (Proc.devRef .tc b) :=
  (step_W23 m ρ c b hb).trans (carried_W22 m ρ c b hb)
theorem carried_W24 (c : Dev nD) (b : Ref sig .tc) (hb : b ∈ carried) :
    W24 m ρ c (Proc.devRef .tc b) = W5 m ρ c (Proc.devRef .tc b) :=
  (step_W24 m ρ c b hb).trans (carried_W23 m ρ c b hb)
theorem carried_W25 (c : Dev nD) (b : Ref sig .tc) (hb : b ∈ carried) :
    W25 m ρ c (Proc.devRef .tc b) = W5 m ρ c (Proc.devRef .tc b) :=
  (step_W25 m ρ c b hb).trans (carried_W24 m ρ c b hb)

/-- An argument at any boundary from the first region's entry on is the argument as launched. -/
theorem arg_of_carried {k : Dev nD → Valuation τ sig (Elt F)} (c : Dev nD) (b : Ref sig .tc) (hb : b ∈ argRefs)
    (hk : k c (Proc.devRef .tc b) = W5 m ρ c (Proc.devRef .tc b)) :
    k c (Proc.devRef .tc b) = m ((c : Thread nD τ).loc b) := hk.trans (args_entry m ρ c b hb)

end Cert.KernelIdeal.Chain

end
-- ==== Proof.GraphNet.lean ====
/-
  The arithmetic of a graph-convolution network, entry by entry, on the extended reals.

  A table is a rank-two array of extended reals. Three entry-wise laws make up the network:
  * `dense x w b`: the affine map, entry (p, q) = ∑ₖ x(p, k) · w(k, q) + b(0, q), the bias a one-row table;
  * `message s h`: every row e of h scaled by the one number s(e, 0);
  * `affineRelu a b g be`: the normalisation g(0,q) · ((a(p,q) + b(0,q)) · c) + be(0,q) with the fixed
    scale c, floored at zero.
  `denseRelu` is `dense` floored at zero. The scale c and the floor are kept as the single-precision words the
  programs spell them with, so that the same word on two sides is never evaluated.
  Each law is also stated at an index given by its two coordinates.
-/
import Idealize.ShloMosaic.PureOps.Ideal
import Idealize.ShloMosaic.Lib.ValueIdx

noncomputable section

namespace Cert.GraphNet

open Idealize.ShloMosaic Idealize.ShloMosaic.ValueIdx

/-- A rank-two table of extended reals with `a` rows and `b` columns. -/
abbrev Tab (a b : ℕ) : Type := (⟨2, ![a, b]⟩ : Shape).Idx → EReal

/-- The rectifier's floor: the single-precision word of zero. -/
abbrev floorWord : EReal := Ideal.ofBits .f32 0x00000000#32

/-- The normalisation's fixed scale: the single-precision word nearest 1/√(1 + 10⁻⁵). -/
abbrev scaleWord : EReal := Ideal.ofBits .f32 0x3F7FFFAC#32

/-- x · w + b: entry (p, q) is ∑ₖ x(p, k) · w(k, q) + b(0, q). -/
def dense {M K N : ℕ} (x : Tab M K) (w : Tab K N) (b : Tab 1 N) : Tab M N :=
  fun j => (∑ k : Fin K, x (ix2 (j 0) k) * w (ix2 k (j 1))) + b (ix2 (0 : Fin 1) (j 1))

/-- max(x · w + b, 0). -/
def denseRelu {M K N : ℕ} (x : Tab M K) (w : Tab K N) (b : Tab 1 N) : Tab M N :=
  fun j => max (dense x w b j) floorWord

/-- Row e of h scaled by s(e, 0). -/
def message {E C : ℕ} (s : Tab E 1) (h : Tab E C) : Tab E C :=
  fun j => s (ix2 (j 0) (0 : Fin 1)) * h j

/-- max(g(0,q) · ((a(p,q) + b(0,q)) · c) + be(0,q), 0). -/
def affineRelu {M N : ℕ} (a : Tab M N) (b g be : Tab 1 N) : Tab M N :=
  fun j => max (g (ix2 (0 : Fin 1) (j 1)) * ((a j + b (ix2 (0 : Fin 1) (j 1))) * scaleWord) + be (ix2 (0 : Fin 1) (j 1))) floorWord

theorem dense_ix2 {M K N : ℕ} (x : Tab M K) (w : Tab K N) (b : Tab 1 N) (p : Fin M) (q : Fin N) :
    dense x w b (ix2 p q) = (∑ k : Fin K, x (ix2 p k) * w (ix2 k q)) + b (ix2 (0 : Fin 1) q) := rfl

theorem denseRelu_ix2 {M K N : ℕ} (x : Tab M K) (w : Tab K N) (b : Tab 1 N) (p : Fin M) (q : Fin N) :
    denseRelu x w b (ix2 p q) = max ((∑ k : Fin K, x (ix2 p k) * w (ix2 k q)) + b (ix2 (0 : Fin 1) q)) floorWord := rfl

theorem message_ix2 {E C : ℕ} (s : Tab E 1) (h : Tab E C) (e : Fin E) (f : Fin C) :
    message s h (ix2 e f) = s (ix2 e (0 : Fin 1)) * h (ix2 e f) := rfl

theorem affineRelu_ix2 {M N : ℕ} (a : Tab M N) (b g be : Tab 1 N) (p : Fin M) (q : Fin N) :
    affineRelu a b g be (ix2 p q)
      = max (g (ix2 (0 : Fin 1) q) * ((a (ix2 p q) + b (ix2 (0 : Fin 1) q)) * scaleWord) + be (ix2 (0 : Fin 1) q)) floorWord := rfl

/-- A table is determined by its entries at coordinate pairs. -/
theorem tab_ext {a b : ℕ} {f g : Tab a b} (h : ∀ (p : Fin a) (q : Fin b), f (ix2 p q) = g (ix2 p q)) : f = g :=
  funext fun j => by rw [eq_ix2 j]; exact h _ _

end Cert.GraphNet

end
-- ==== Proof.KernelNet.lean ====
/-
  What the tiled program computes, as one function of its nineteen argument arrays.

  The edge list gives each edge a source and a target node. The degree of a node is the sum of |weight| over the edges
  leaving it; its inverse square root (zero for an isolated node) at both ends of an edge, times the edge's weight, is
  the edge's scale. One layer maps a node table h to
    affineRelu (Σ over edges into a node of scale(e) · (h · wᵀ)(source e)) b g be,
  the gather of rows and the sum over edges being the host's own operations, kept as they are spelled. Three layers and
  a two-layer perceptron give the result. The affine maps, the scaling of gathered rows and the normalisation are the
  entry-wise laws of `Cert.GraphNet`.
-/
import proofs.«138375_j82231443849542_2_alg».proof.KernelIdeal
import proofs.«138375_j82231443849542_2_alg».proof.Proof.Gen.KernelIdeal
import proofs.«138375_j82231443849542_2_alg».proof.Proof.GraphNet

noncomputable section

namespace Cert.KernelIdeal.Net

open Idealize.ShloMosaic Cert.KernelIdeal Cert.KernelIdeal.Facts₀ Cert.KernelIdeal.Facts Cert.GraphNet

/-- A single-precision array of the given shape, read at the extended reals. -/
abbrev FArr (S : Shape) : Type := FVec Ideal S .f32

/-- A 32-bit integer array of the given shape. -/
abbrev IArr (S : Shape) : Type := IVec S 32

/-- The source node of each edge: row 0 of the edge list. -/
def src (a1 : IArr S2x800000) : IArr S800000 :=
  shapeCast S800000 (extractStridedSlice S1x800000 ![0, 0] a1 slices_S2x800000_S1x800000_0_0) shapeCasts_S1x800000_S800000

/-- The target node of each edge: row 1 of the edge list. -/
def dst (a1 : IArr S2x800000) : IArr S800000 :=
  shapeCast S800000 (extractStridedSlice S1x800000 ![1, 0] a1 slices_S2x800000_S1x800000_1_0) shapeCasts_S1x800000_S800000

/-- A node index wrapped once (a negative index counts from the end), as a column of start indices. -/
def wrapCol (r : IArr S800000) : IArr S800000x1 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The edge weights as a vector. -/
def weight (a2 : FArr S800000x1) : FArr S800000 := shapeCast S800000 a2 shapeCasts_S800000x1_S800000

def zeroNodes : FArr S50000 := broadcastInDim S50000 ![] bcast_S_S50000 (constant (F := Ideal) S_ .f32 0x00000000#32)
def oneNodes : FArr S50000 := broadcastInDim S50000 ![] bcast_S_S50000 (constant (F := Ideal) S_ .f32 0x3F800000#32)

/-- The degree of each node: the sum of |weight| over the edges leaving it. -/
def deg (a1 : IArr S2x800000) (a2 : FArr S800000x1) : FArr S50000 :=
  Host.scatterAdd scatter_S50000_S800000x1_S800000_n_0_0_1 zeroNodes
    (broadcastInDim S800000x1 ![0] bcast_S800000_S800000x1_0 (src a1)) (Host.absf (weight a2))

/-- deg^(-1/2), zero where the degree is not positive. -/
def invSqrtDeg (a1 : IArr S2x800000) (a2 : FArr S800000x1) : FArr S50000 :=
  select (cmpf .ogt (deg a1 a2) zeroNodes)
    (Host.divf oneNodes (Host.sqrt (select (cmpf .ogt (deg a1 a2) zeroNodes) (deg a1 a2) oneNodes)))
    zeroNodes

/-- The edge's scale as a column: deg^(-1/2) at its source times deg^(-1/2) at its target, times its weight. -/
def edgeScale (a1 : IArr S2x800000) (a2 : FArr S800000x1) : FArr S800000x1 :=
  broadcastInDim S800000x1 ![0] bcast_S800000_S800000x1_0
    (mulf (mulf (Host.gather gather_S50000_S800000x1_S800000_n_0_n_n_0_1_1 (invSqrtDeg a1 a2) (wrapCol (src a1)))
                (Host.gather gather_S50000_S800000x1_S800000_n_0_n_n_0_1_1 (invSqrtDeg a1 a2) (wrapCol (dst a1))))
          (weight a2))

/-- The zero bias of a layer's affine map, as a one-row table. -/
def zeroRow : FArr S1x64 :=
  shapeCast S1x64 (broadcastInDim S64 ![] bcast_S_S64 (constant (F := Ideal) S_ .f32 0x00000000#32)) shapeCasts_S64_S1x64

/-- A length-64 vector as a one-row table. -/
def row64 (b : FArr S64) : FArr S1x64 := shapeCast S1x64 b shapeCasts_S64_S1x64

/-- The rows of a node table gathered at the edges' sources. -/
def atSources (a1 : IArr S2x800000) (t : FArr S50000x64) : FArr S800000x64 :=
  Host.gather gather_S50000x64_S800000x1_S800000x64_1_0_n_n_0_1_164 t (wrapCol (src a1))

/-- The rows of an edge table summed into the edges' targets. -/
def intoTargets (a1 : IArr S2x800000) (u : FArr S800000x64) : FArr S50000x64 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 (dst a1)) u

/-- One layer, from the node table `h` and the layer's transposed weight `wt`. -/
def layer {K : ℕ} (a1 : IArr S2x800000) (a2 : FArr S800000x1) (h : Tab 50000 K) (wt : Tab K 64)
    (b g be : FArr S64) : FArr S50000x64 :=
  affineRelu (intoTargets a1 (message (edgeScale a1 a2) (atSources a1 (dense h wt zeroRow)))) (row64 b) (row64 g) (row64 be)

/-- The whole network. -/
def out (a0 : FArr S50000x128) (a1 : IArr S2x800000) (a2 : FArr S800000x1)
    (a3 : FArr S64x128) (a4 a5 a6 : FArr S64) (a7 : FArr S64x64) (a8 a9 a10 : FArr S64)
    (a11 : FArr S64x64) (a12 a13 a14 : FArr S64) (a15 : FArr S32x64) (a16 : FArr S32)
    (a17 : FArr S2x32) (a18 : FArr S2) : FArr S50000x2 :=
  dense
    (denseRelu
      (layer a1 a2
        (layer a1 a2
          (layer a1 a2 a0 (transpose S128x64 [1, 0] a3 transposes_S64x128_S128x64_1_0) a4 a5 a6)
          (transpose S64x64 [1, 0] a7 transposes_S64x64_S64x64_1_0) a8 a9 a10)
        (transpose S64x64 [1, 0] a11 transposes_S64x64_S64x64_1_0) a12 a13 a14)
      (transpose S64x32 [1, 0] a15 transposes_S32x64_S64x32_1_0) (shapeCast S1x32 a16 shapeCasts_S32_S1x32))
    (transpose S32x2 [1, 0] a17 transposes_S2x32_S32x2_1_0) (shapeCast S1x2 a18 shapeCasts_S2_S1x2)

end Cert.KernelIdeal.Net

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.RegionDense0.lean ====
/-
  The first layer's affine map, read off the tiled program.

  The rows of the node table are cut into 25 blocks of 2000. At each block the program multiplies the block's rows by
  the whole 128 × 64 weight matrix (both operands first narrowed, which is the identity on the extended reals), starting
  from the zero accumulator, and adds the one-row bias to every row. A block's row p is the
  table's row 2000·t + p, the weight and bias blocks are the whole arrays, and the 25 blocks tile the 50000 rows, so the
  output array ends holding x · w + b entry by entry.
-/
import proofs.«138375_j82231443849542_2_alg».proof.Proof.Gen.KernelIdeal.Frame
import proofs.«138375_j82231443849542_2_alg».proof.Proof.GraphNet
import proofs.«138375_j82231443849542_2_alg».proof.Proof.LibMatmulRowsByCols
import proofs.«138375_j82231443849542_2_alg».proof.Proof.LibOneRowMatrix
import Idealize.ShloMosaic.Lib.Pipeline.Value
import Idealize.ShloMosaic.Lib.ValueIdx

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx
open Idealize.ShloMosaic.Pipeline (Dat)

variable (V : (c : Dev nD) → (b : Ref sig .tc) → Buf (Elt Ideal) ((c : Thread nD τ).loc b)) (c : Dev nD)

/-! ## The block's arithmetic -/

/-- The block product contracts one axis, of extent 128: the left operand is read at (row, k), the right at (k, column). -/
theorem dot0_lhs0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
theorem dot0_lhs1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem dot0_rhs0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem dot0_rhs1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- What the body stores, at row p and column q of the block: the row of the x block times the column of the weight
    block, plus the bias at q. -/
theorem pay0 (x0 : Vec Ideal S2000x128 .f32) (x1 : Vec Ideal S128x64 .f32) (x2 : Vec Ideal S1x64 .f32)
    (p : Fin 2000) (q : Fin 64) :
    k0_pay1 x0 x1 x2 (ix2 p q) = (∑ k : Fin 128, x0 (ix2 p k) * x1 (ix2 k q)) + x2 (ix2 (0 : Fin 1) q) := by
  unfold k0_pay1
  simp only [shapeCast_self]
  rw [addf_apply, OneRowMatrix.broadcast_row_apply,
    MatmulRowsByCols.matmul_zero_apply dot_S2000x128_S128x64_S2000x64_1_0_0_1_n_n rfl rfl dot0_lhs0 dot0_lhs1 dot0_rhs0 dot0_rhs1]
  rfl

/-! ## A block's entry as an entry of the whole arrays -/

/-- An entry of the stored block is the law's entry, once the x block's row is the table's row, the weight block's
    column the matrix's column, and the bias block's entry the bias's. -/
theorem point0 (X : Tab 50000 128) (W : Tab 128 64) (B : Tab 1 64)
    (x0 : Vec Ideal S2000x128 .f32) (x1 : Vec Ideal S128x64 .f32) (x2 : Vec Ideal S1x64 .f32)
    (y : S2000x64.Idx) (i : S50000x64.Idx)
    (h0 : ∀ k : Fin 128, x0 (ix2 (y 0) k) = X (ix2 (i 0) k))
    (h1 : ∀ k : Fin 128, x1 (ix2 k (y 1)) = W (ix2 k (i 1)))
    (h2 : x2 (ix2 (0 : Fin 1) (y 1)) = B (ix2 (0 : Fin 1) (i 1))) :
    k0_pay1 x0 x1 x2 y = dense X W B i := by
  rw [eq_ix2 y, eq_ix2 i]
  refine (pay0 x0 x1 x2 (y 0) (y 1)).trans (Eq.trans ?_ (dense_ix2 X W B (i 0) (i 1)).symm)
  rw [h2]
  congr 1
  exact Finset.sum_congr rfl fun k _ => by rw [h0 k, h1 k]

/-! ## The windows' blocks over the grid -/

theorem hz0 : (![0, 0] : Fin 2 → Nat) = fun _ => 0 := funext fun a => by fin_cases a <;> rfl

/-- The printed index maps, decided over the 25 points: the x window and the output window sit at row block t, the
    weight and bias windows at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the law of the arrays as the region finds them. -/
theorem flushed0_eq (t : Fin cfg0.N) :
    (dat0 V c).flushed 3 t
      = ((cfg0.win 3).blk t).view.read (Elt Ideal) (dense (V c main_arg0) (V c main_v36) (V c main_v38)) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x64) hz0,
    View.ld_unit_zero (S := S1x64) hz0]
  obtain ⟨e00, e01, e10, e11, e20, e21, e30, e31⟩ := idx_facts0 t
  funext y
  show k0_pay1 (iblk0 V c 0 t) (iblk0 V c 1 t) (iblk0 V c 2 t) y
    = dense (V c main_arg0) (V c main_v36) (V c main_v38) (((cfg0.win 3).blk t).view.emb y)
  refine point0 (V c main_arg0) (V c main_v36) (V c main_v38) _ _ _ y (((cfg0.win 3).blk t).view.emb y)
    (fun k => ?_) (fun k => ?_) ?_
  · show V c main_arg0 (((cfg0.win 0).blk t).view.emb (ix2 (y 0) k)) = _
    congr 1
    funext a
    apply Fin.ext
    match a with
    | ⟨0, _⟩ =>
      show win0_0.index t (0 : Fin 2) * 2000 + 1 * (y 0).val = win0_3.index t (0 : Fin 2) * 2000 + 1 * (y 0).val
      omega
    | ⟨1, _⟩ => show win0_0.index t (1 : Fin 2) * 128 + 1 * k.val = k.val; omega
  · show V c main_v36 (((cfg0.win 1).blk t).view.emb (ix2 k (y 1))) = _
    congr 1
    funext a
    apply Fin.ext
    match a with
    | ⟨0, _⟩ => show win0_1.index t (0 : Fin 2) * 128 + 1 * k.val = k.val; omega
    | ⟨1, _⟩ =>
      show win0_1.index t (1 : Fin 2) * 64 + 1 * (y 1).val = win0_3.index t (1 : Fin 2) * 64 + 1 * (y 1).val
      omega
  · show V c main_v38 (((cfg0.win 2).blk t).view.emb (ix2 (0 : Fin 1) (y 1))) = _
    congr 1
    funext a
    apply Fin.ext
    match a with
    | ⟨0, _⟩ => show win0_2.index t (0 : Fin 2) * 1 + 1 * 0 = 0; omega
    | ⟨1, _⟩ =>
      show win0_2.index t (1 : Fin 2) * 64 + 1 * (y 1).val = win0_3.index t (1 : Fin 2) * 64 + 1 * (y 1).val
      omega

/-! ## The blocks tile the array -/

/-- An index of the output array is in point t's block iff each coordinate is in the block's range on its axis. -/
theorem mem_blk0 (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v39).slice (win0_3.rect t)).set ↔ _
  rw [View.set_slice_whole, Rect.mem_set_unit]
  exact Iff.rfl

/-- Row r of the output array lies in the block of point r / 2000. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 25 := N_0
  have ht : (i 0).val / 2000 < cfg0.N := by rw [hN]; omega
  obtain ⟨-, -, -, -, -, -, e30, e31⟩ := idx_facts0 ⟨(i 0).val / 2000, ht⟩
  refine ⟨⟨(i 0).val / 2000, ht⟩, flush0_3 _, ?_⟩
  rw [mem_blk0]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, ht⟩ (1 : Fin 2) * 64 ≤ (i 1).val
      ∧ (i 1).val < win0_3.index ⟨(i 0).val / 2000, ht⟩ (1 : Fin 2) * 64 + 64
    rw [e31]
    omega

/-! ## The array after the region -/

/-- The output array ends holding x · w + b. -/
theorem final0 : (dat0 V c).arrAt 3 cfg0.N = dense (V c main_arg0) (V c main_v36) (V c main_v38) :=
  (dat0 V c).arrAt_eq_of_cover 3 _ (fun t _ => flushed0_eq V c t) cover0

end Cert.KernelIdeal.RegionValue

end
-- ==== Proof.LibColumnBroadcast.lean ====
/-
  Columns, read at an entry.

  An [a, 1] array broadcast to [a, b] reads, at (p, c), the column's entry at (p, 0): every entry of row p of the
  result is the one number the column holds for that row (the companion of the library's one-row form [1, b] → [a, b]).
  A vector [a] cast to a column [a, 1] reads, at (i, 0), the vector's entry at i (the companion of the library's row
  form [a] → [1, a]). Any extents and element type; imports only the library.
-/
import Idealize.ShloMosaic.Lib.Pipeline.Value
import Idealize.ShloMosaic.Lib.ValueIdx

namespace Idealize.ShloMosaic.ColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ColumnBroadcast
-- ==== Proof.RegionMessage1.lean ====
/-
  Row scaling of a table of gathered rows, block by block.

  The region walks an 800000 × 64 table in 160 blocks of 5000 rows. At each block it reads the matching 5000 rows of a
  one-column table of scales and of the table of rows, and writes every row times its scale: entry (p, q) of the
  block is the column's entry (p, 0) times the table's entry (p, q). Row r of the array lies in block r / 5000, the
  blocks tile the array, and so the array the region leaves is `message` of the two arrays it found: every row e
  scaled by the one number the column holds for e.
-/
import proofs.«138375_j82231443849542_2_alg».proof.Proof.Gen.KernelIdeal.Frame
import proofs.«138375_j82231443849542_2_alg».proof.Proof.GraphNet
import proofs.«138375_j82231443849542_2_alg».proof.Proof.LibColumnBroadcast

set_option maxRecDepth 16384

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx

variable (V : (c : Dev nD) → (b : Ref sig .tc) → Buf (Elt Ideal) ((c : Thread nD τ).loc b)) (c : Dev nD)

/-- The block's payload at (p, q): the column's entry for row p times the table's entry. -/
theorem pay1 (x0 : Vec Ideal S5000x1 .f32) (x1 : Vec Ideal S5000x64 .f32) (p : Fin 5000) (q : Fin 64) :
    k1_pay1 x0 x1 (ix2 p q) = x0 (ix2 p (0 : Fin 1)) * x1 (ix2 p q) := by
  unfold k1_pay1
  rw [shapeCast_self, shapeCast_self]
  show (broadcastTo S5000x64 x0 broadcasts_S5000x1_S5000x64 (ix2 p q)) * (x1 (ix2 p q)) = _
  rw [ColumnBroadcast.broadcastTo_a1_ab_apply]

/-- One entry of a block against one entry of the scaled table: when the column block holds the scale of the
    entry's row and the table block holds the entry, the payload is the scaled entry. -/
theorem point1 (s : Tab 800000 1) (h : Tab 800000 64) (x0 : Vec Ideal S5000x1 .f32) (x1 : Vec Ideal S5000x64 .f32)
    (y : S5000x64.Idx) (i : S800000x64.Idx)
    (h0 : x0 (ix2 (y 0) (0 : Fin 1)) = s (ix2 (i 0) (0 : Fin 1))) (h1 : x1 y = h i) :
    k1_pay1 x0 x1 y = message s h i := by
  have hy : y = ix2 (y 0) (y 1) := eq_ix2 y
  exact (congrArg (k1_pay1 x0 x1) hy).trans ((pay1 x0 x1 (y 0) (y 1)).trans
    (congrArg₂ (· * ·) h0 ((congrArg x1 hy.symm).trans h1)))

/-- The two zero offsets of a whole-buffer access, however they are spelt. -/
theorem origin1 : (![0, 0] : Fin 2 → Nat) = fun _ => 0 := funext fun a => by fin_cases a <;> rfl

/-- The block indices, decided over the grid: at point t all three windows sit at block row t, block column 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled table. -/
theorem flushed1_eq (t : Fin cfg1.N) :
    (dat1 V c).flushed 2 t = ((cfg1.win 2).blk t).view.read (Elt Ideal) (message (V c main_v35) (V c main_v46)) := by
  show (cfg1.win 2).cut (grid1.coords t) ((dat1 V c).after 2 t) = _
  rw [after1_2]
  unfold out1_2
  rw [View.canon_unit_zero origin1]
  simp only [View.ld_unit_zero (S := S5000x1) origin1, View.ld_unit_zero (S := S5000x64) origin1]
  obtain ⟨e0, e1, e2, e3, e4, e5⟩ := idx_facts1 t
  funext y
  refine point1 (V c main_v35) (V c main_v46) (iblk1 V c 0 t) (iblk1 V c 1 t) y (((cfg1.win 2).blk t).view.emb y) ?_ ?_
  · show V c main_v35 (((cfg1.win 0).blk t).view.emb (ix2 (y 0) (0 : Fin 1))) = V c main_v35 (ix2 ((((cfg1.win 2).blk t).view.emb y) 0) (0 : Fin 1))
    refine congrArg _ (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 1 + 1 * 0 = 0; omega
  · show V c main_v46 (((cfg1.win 1).blk t).view.emb y) = V c main_v46 (((cfg1.win 2).blk t).view.emb y)
    refine congrArg _ (funext fun a => Fin.ext ?_)
    match a with
    | ⟨0, _⟩ => show win1_1.index t (0 : Fin 2) * 5000 + 1 * (y 0).val = win1_2.index t (0 : Fin 2) * 5000 + 1 * (y 0).val; omega
    | ⟨1, _⟩ => show win1_1.index t (1 : Fin 2) * 64 + 1 * (y 1).val = win1_2.index t (1 : Fin 2) * 64 + 1 * (y 1).val; omega

/-- An index of the array is in point t's block iff each coordinate is in the block's range on its axis. -/
theorem mem_blk1 (t : Fin cfg1.N) (i : S800000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Row r of the table lies in the block of point r / 5000. -/
theorem cover1 (i : S800000x64.Idx) :
    ∃ t : Fin cfg1.N, (cfg1.win 2).flush t = true ∧ i ∈ ((cfg1.win 2).blk t).view.set := by
  have hi0 : (i 0).val < 800000 := (i 0).isLt
  have hi1 : (i 1).val < 64 := (i 1).isLt
  have hN : cfg1.N = 160 := N_1
  have ht : (i 0).val / 5000 < cfg1.N := by rw [hN]; omega
  obtain ⟨e0, e1, e2, e3, e4, e5⟩ := idx_facts1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]
    omega

/-- The array the region leaves: every row of the table it found, scaled by the column's number for that row. -/
theorem final1 : (dat1 V c).arrAt 2 cfg1.N = message (V c main_v35) (V c main_v46) :=
  (dat1 V c).arrAt_eq_of_cover 2 _ (fun t _ => flushed1_eq V c t) cover1

end Cert.KernelIdeal.RegionValue

end
-- ==== Proof.RegionAffine2.lean ====
/-
  The normalisation of a node table, block by block.

  The region walks a 50000 × 64 table in 25 blocks of 2000 rows. Three one-row tables (a bias b, a gain g, an
  offset be) stay in place while the blocks of the table a move. At each block it writes, at entry (p, q),
    max (g(0,q) · ((a(p,q) + b(0,q)) · c) + be(0,q), 0)
  with the fixed scale c: the bias is added first, the sum is scaled by c, the gain multiplies, the offset is added
  last, and the result is floored at zero. The scale and the floor are the same single-precision words on both sides
  and are never evaluated. Row r of the array lies in block r / 2000, the blocks tile the array, and so the array the
  region leaves is `affineRelu` of the four arrays it found.
-/
import proofs.«138375_j82231443849542_2_alg».proof.Proof.Gen.KernelIdeal.Frame
import proofs.«138375_j82231443849542_2_alg».proof.Proof.GraphNet
import proofs.«138375_j82231443849542_2_alg».proof.Proof.LibOneRowMatrix

set_option maxRecDepth 16384

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx

variable (V : (c : Dev nD) → (b : Ref sig .tc) → Buf (Elt Ideal) ((c : Thread nD τ).loc b)) (c : Dev nD)

/-- The block's payload at (p, q): the bias added first, the fixed scale, the gain, the offset added last, the floor. -/
theorem pay2 (x0 : Vec Ideal S2000x64 .f32) (x1 x2 x3 : Vec Ideal S1x64 .f32) (p : Fin 2000) (q : Fin 64) :
    k2_pay1 x0 x1 x2 x3 (ix2 p q)
      = max (x2 (ix2 (0 : Fin 1) q) * ((x0 (ix2 p q) + x1 (ix2 (0 : Fin 1) q)) * scaleWord) + x3 (ix2 (0 : Fin 1) q)) floorWord := by
  unfold k2_pay1
  simp only [shapeCast_self]
  show max (broadcastTo S2000x64 x2 broadcasts_S1x64_S2000x64 (ix2 p q) * ((x0 (ix2 p q) + broadcastTo S2000x64 x1 broadcasts_S1x64_S2000x64 (ix2 p q)) * scaleWord) + broadcastTo S2000x64 x3 broadcasts_S1x64_S2000x64 (ix2 p q)) floorWord = _
  rw [OneRowMatrix.broadcast_row_apply, OneRowMatrix.broadcast_row_apply, OneRowMatrix.broadcast_row_apply]

/-- One entry of a block against one entry of the normalised table: when the table block holds the entry and the
    three one-row blocks hold the entry's column of the bias, the gain and the offset, the payload is the
    normalised entry. -/
theorem point2 (a : Tab 50000 64) (b g be : Tab 1 64) (x0 : Vec Ideal S2000x64 .f32) (x1 x2 x3 : Vec Ideal S1x64 .f32)
    (y : S2000x64.Idx) (i : S50000x64.Idx)
    (h0 : x0 y = a i) (h1 : x1 (ix2 (0 : Fin 1) (y 1)) = b (ix2 (0 : Fin 1) (i 1)))
    (h2 : x2 (ix2 (0 : Fin 1) (y 1)) = g (ix2 (0 : Fin 1) (i 1)))
    (h3 : x3 (ix2 (0 : Fin 1) (y 1)) = be (ix2 (0 : Fin 1) (i 1))) :
    k2_pay1 x0 x1 x2 x3 y = affineRelu a b g be i := by
  have hy : y = ix2 (y 0) (y 1) := eq_ix2 y
  have h0' : x0 (ix2 (y 0) (y 1)) = a i := (congrArg x0 hy.symm).trans h0
  refine (congrArg (k2_pay1 x0 x1 x2 x3) hy).trans ((pay2 x0 x1 x2 x3 (y 0) (y 1)).trans ?_)
  exact congrArg₂ max (congrArg₂ (· + ·) (congrArg₂ (· * ·) h2 (congrArg (· * scaleWord) (congrArg₂ (· + ·) h0' h1))) h3) rfl

/-- The two zero offsets of a whole-buffer access, however they are spelt. -/
theorem origin2 : (![0, 0] : Fin 2 → Nat) = fun _ => 0 := funext fun a => by fin_cases a <;> rfl

/-- The block indices, decided over the grid: at point t the table's window and the output's sit at block row t,
    block column 0; the three one-row windows stay at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the normalised table. -/
theorem flushed2_eq (t : Fin cfg2.N) :
    (dat2 V c).flushed 4 t = ((cfg2.win 4).blk t).view.read (Elt Ideal)
      (affineRelu (V c main_v50) (V c main_v51) (V c main_v52) (V c main_v53)) := by
  show (cfg2.win 4).cut (grid2.coords t) ((dat2 V c).after 4 t) = _
  rw [after2_4]
  unfold out2_4
  rw [View.canon_unit_zero origin2]
  simp only [View.ld_unit_zero (S := S2000x64) origin2, View.ld_unit_zero (S := S1x64) origin2]
  obtain ⟨e0, e1, e2, e3, e4, e5, e6, e7, e8, e9⟩ := idx_facts2 t
  funext y
  refine point2 (V c main_v50) (V c main_v51) (V c main_v52) (V c main_v53)
    (iblk2 V c 0 t) (iblk2 V c 1 t) (iblk2 V c 2 t) (iblk2 V c 3 t) y (((cfg2.win 4).blk t).view.emb y) ?_ ?_ ?_ ?_
  · show V c main_v50 (((cfg2.win 0).blk t).view.emb y) = V c main_v50 (((cfg2.win 4).blk t).view.emb y)
    refine congrArg _ (funext fun a => Fin.ext ?_)
    match a with
    | ⟨0, _⟩ => show win2_0.index t (0 : Fin 2) * 2000 + 1 * (y 0).val = win2_4.index t (0 : Fin 2) * 2000 + 1 * (y 0).val; omega
    | ⟨1, _⟩ => show win2_0.index t (1 : Fin 2) * 64 + 1 * (y 1).val = win2_4.index t (1 : Fin 2) * 64 + 1 * (y 1).val; omega
  · show V c main_v51 (((cfg2.win 1).blk t).view.emb (ix2 (0 : Fin 1) (y 1))) = V c main_v51 (ix2 (0 : Fin 1) ((((cfg2.win 4).blk t).view.emb y) 1))
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * (y 1).val = win2_4.index t (1 : Fin 2) * 64 + 1 * (y 1).val; omega
  · show V c main_v52 (((cfg2.win 2).blk t).view.emb (ix2 (0 : Fin 1) (y 1))) = V c main_v52 (ix2 (0 : Fin 1) ((((cfg2.win 4).blk t).view.emb y) 1))
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * (y 1).val = win2_4.index t (1 : Fin 2) * 64 + 1 * (y 1).val; omega
  · show V c main_v53 (((cfg2.win 3).blk t).view.emb (ix2 (0 : Fin 1) (y 1))) = V c main_v53 (ix2 (0 : Fin 1) ((((cfg2.win 4).blk t).view.emb y) 1))
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * (y 1).val = win2_4.index t (1 : Fin 2) * 64 + 1 * (y 1).val; omega

/-- An index of the array is in point t's block iff each coordinate is in the block's range on its axis. -/
theorem mem_blk2 (t : Fin cfg2.N) (i : S50000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v54).slice (win2_4.rect t)).set ↔ _
  rw [View.set_slice_whole, Rect.mem_set_unit]
  exact Iff.rfl

/-- Row r of the table lies in the block of point r / 2000. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 25 := N_2
  have ht : (i 0).val / 2000 < cfg2.N := by rw [hN]; omega
  obtain ⟨e0, e1, e2, e3, e4, e5, e6, e7, e8, e9⟩ := idx_facts2 ⟨(i 0).val / 2000, ht⟩
  refine ⟨⟨(i 0).val / 2000, ht⟩, flush2_4 _, ?_⟩
  rw [mem_blk2]
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    rw [e8]
    show (i 0).val / 2000 * 2000 ≤ (i 0).val ∧ (i 0).val < (i 0).val / 2000 * 2000 + 2000
    omega
  | ⟨1, _⟩ =>
    show win2_4.index ⟨(i 0).val / 2000, ht⟩ (1 : Fin 2) * 64 ≤ (i 1).val ∧ (i 1).val < win2_4.index ⟨(i 0).val / 2000, ht⟩ (1 : Fin 2) * 64 + 64
    rw [e9]
    omega

/-- The array the region leaves: the normalisation of the table it found by the three one-row tables it found. -/
theorem final2 : (dat2 V c).arrAt 4 cfg2.N = affineRelu (V c main_v50) (V c main_v51) (V c main_v52) (V c main_v53) :=
  (dat2 V c).arrAt_eq_of_cover 4 _ (fun t _ => flushed2_eq V c t) cover2

end Cert.KernelIdeal.RegionValue

end
-- ==== Proof.RegionDense3.lean ====
/-
  The second layer's affine map, read off the tiled program.

  The rows of the node table are cut into 25 blocks of 2000. At each block the program multiplies the block's rows by
  the whole 64 × 64 weight matrix (both operands first narrowed, which is the identity on the extended reals), starting
  from the zero accumulator, and adds the one-row bias to every row. A block's row p is the
  table's row 2000·t + p, the weight and bias blocks are the whole arrays, and the 25 blocks tile the 50000 rows, so the
  output array ends holding x · w + b entry by entry.
-/
import proofs.«138375_j82231443849542_2_alg».proof.Proof.Gen.KernelIdeal.Frame
import proofs.«138375_j82231443849542_2_alg».proof.Proof.GraphNet
import proofs.«138375_j82231443849542_2_alg».proof.Proof.LibMatmulRowsByCols
import proofs.«138375_j82231443849542_2_alg».proof.Proof.LibOneRowMatrix
import Idealize.ShloMosaic.Lib.Pipeline.Value
import Idealize.ShloMosaic.Lib.ValueIdx

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx
open Idealize.ShloMosaic.Pipeline (Dat)

variable (V : (c : Dev nD) → (b : Ref sig .tc) → Buf (Elt Ideal) ((c : Thread nD τ).loc b)) (c : Dev nD)

/-! ## The block's arithmetic -/

/-- The block product contracts one axis, of extent 64: the left operand is read at (row, k), the right at (k, column). -/
theorem dot3_lhs0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem dot3_lhs1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem dot3_rhs0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem dot3_rhs1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- What the body stores, at row p and column q of the block: the row of the x block times the column of the weight
    block, plus the bias at q. -/
theorem pay3 (x0 : Vec Ideal S2000x64 .f32) (x1 : Vec Ideal S64x64 .f32) (x2 : Vec Ideal S1x64 .f32)
    (p : Fin 2000) (q : Fin 64) :
    k3_pay1 x0 x1 x2 (ix2 p q) = (∑ k : Fin 64, x0 (ix2 p k) * x1 (ix2 k q)) + x2 (ix2 (0 : Fin 1) q) := by
  unfold k3_pay1
  simp only [shapeCast_self]
  rw [addf_apply, OneRowMatrix.broadcast_row_apply,
    MatmulRowsByCols.matmul_zero_apply dot_S2000x64_S64x64_S2000x64_1_0_0_1_n_n rfl rfl dot3_lhs0 dot3_lhs1 dot3_rhs0 dot3_rhs1]
  rfl

/-! ## A block's entry as an entry of the whole arrays -/

/-- An entry of the stored block is the law's entry, once the x block's row is the table's row, the weight block's
    column the matrix's column, and the bias block's entry the bias's. -/
theorem point3 (X : Tab 50000 64) (W : Tab 64 64) (B : Tab 1 64)
    (x0 : Vec Ideal S2000x64 .f32) (x1 : Vec Ideal S64x64 .f32) (x2 : Vec Ideal S1x64 .f32)
    (y : S2000x64.Idx) (i : S50000x64.Idx)
    (h0 : ∀ k : Fin 64, x0 (ix2 (y 0) k) = X (ix2 (i 0) k))
    (h1 : ∀ k : Fin 64, x1 (ix2 k (y 1)) = W (ix2 k (i 1)))
    (h2 : x2 (ix2 (0 : Fin 1) (y 1)) = B (ix2 (0 : Fin 1) (i 1))) :
    k3_pay1 x0 x1 x2 y = dense X W B i := by
  rw [eq_ix2 y, eq_ix2 i]
  refine (pay3 x0 x1 x2 (y 0) (y 1)).trans (Eq.trans ?_ (dense_ix2 X W B (i 0) (i 1)).symm)
  rw [h2]
  congr 1
  exact Finset.sum_congr rfl fun k _ => by rw [h0 k, h1 k]

/-! ## The windows' blocks over the grid -/

theorem hz3 : (![0, 0] : Fin 2 → Nat) = fun _ => 0 := funext fun a => by fin_cases a <;> rfl

/-- The printed index maps, decided over the 25 points: the x window and the output window sit at row block t, the
    weight and bias windows at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the law of the arrays as the region finds them. -/
theorem flushed3_eq (t : Fin cfg3.N) :
    (dat3 V c).flushed 3 t
      = ((cfg3.win 3).blk t).view.read (Elt Ideal) (dense (V c main_v54) (V c main_v55) (V c main_v57)) := by
  show (cfg3.win 3).cut (grid3.coords t) ((dat3 V c).after 3 t) = _
  rw [after3_3]
  unfold out3_3
  rw [View.canon_unit_zero hz3]
  simp only [View.ld_unit_zero (S := S2000x64) hz3, View.ld_unit_zero (S := S64x64) hz3,
    View.ld_unit_zero (S := S1x64) hz3]
  obtain ⟨e00, e01, e10, e11, e20, e21, e30, e31⟩ := idx_facts3 t
  funext y
  show k3_pay1 (iblk3 V c 0 t) (iblk3 V c 1 t) (iblk3 V c 2 t) y
    = dense (V c main_v54) (V c main_v55) (V c main_v57) (((cfg3.win 3).blk t).view.emb y)
  refine point3 (V c main_v54) (V c main_v55) (V c main_v57) _ _ _ y (((cfg3.win 3).blk t).view.emb y)
    (fun k => ?_) (fun k => ?_) ?_
  · show V c main_v54 (((cfg3.win 0).blk t).view.emb (ix2 (y 0) k)) = _
    congr 1
    funext a
    apply Fin.ext
    match a with
    | ⟨0, _⟩ =>
      show win3_0.index t (0 : Fin 2) * 2000 + 1 * (y 0).val = win3_3.index t (0 : Fin 2) * 2000 + 1 * (y 0).val
      omega
    | ⟨1, _⟩ => show win3_0.index t (1 : Fin 2) * 64 + 1 * k.val = k.val; omega
  · show V c main_v55 (((cfg3.win 1).blk t).view.emb (ix2 k (y 1))) = _
    congr 1
    funext a
    apply Fin.ext
    match a with
    | ⟨0, _⟩ => show win3_1.index t (0 : Fin 2) * 64 + 1 * k.val = k.val; omega
    | ⟨1, _⟩ =>
      show win3_1.index t (1 : Fin 2) * 64 + 1 * (y 1).val = win3_3.index t (1 : Fin 2) * 64 + 1 * (y 1).val
      omega
  · show V c main_v57 (((cfg3.win 2).blk t).view.emb (ix2 (0 : Fin 1) (y 1))) = _
    congr 1
    funext a
    apply Fin.ext
    match a with
    | ⟨0, _⟩ => show win3_2.index t (0 : Fin 2) * 1 + 1 * 0 = 0; omega
    | ⟨1, _⟩ =>
      show win3_2.index t (1 : Fin 2) * 64 + 1 * (y 1).val = win3_3.index t (1 : Fin 2) * 64 + 1 * (y 1).val
      omega

/-! ## The blocks tile the array -/

/-- An index of the output array is in point t's block iff each coordinate is in the block's range on its axis. -/
theorem mem_blk3 (t : Fin cfg3.N) (i : S50000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v58).slice (win3_3.rect t)).set ↔ _
  rw [View.set_slice_whole, Rect.mem_set_unit]
  exact Iff.rfl

/-- Row r of the output array lies in the block of point r / 2000. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 25 := N_3
  have ht : (i 0).val / 2000 < cfg3.N := by rw [hN]; omega
  obtain ⟨-, -, -, -, -, -, e30, e31⟩ := idx_facts3 ⟨(i 0).val / 2000, ht⟩
  refine ⟨⟨(i 0).val / 2000, ht⟩, flush3_3 _, ?_⟩
  rw [mem_blk3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win3_3.index ⟨(i 0).val / 2000, ht⟩ (1 : Fin 2) * 64 ≤ (i 1).val
      ∧ (i 1).val < win3_3.index ⟨(i 0).val / 2000, ht⟩ (1 : Fin 2) * 64 + 64
    rw [e31]
    omega

/-! ## The array after the region -/

/-- The output array ends holding x · w + b. -/
theorem final3 : (dat3 V c).arrAt 3 cfg3.N = dense (V c main_v54) (V c main_v55) (V c main_v57) :=
  (dat3 V c).arrAt_eq_of_cover 3 _ (fun t _ => flushed3_eq V c t) cover3

end Cert.KernelIdeal.RegionValue

end
-- ==== Proof.RegionMessage4.lean ====
/-
  Row scaling of a table of gathered rows, block by block.

  The region walks an 800000 × 64 table in 160 blocks of 5000 rows. At each block it reads the matching 5000 rows of a
  one-column table of scales and of the table of rows, and writes every row times its scale: entry (p, q) of the
  block is the column's entry (p, 0) times the table's entry (p, q). Row r of the array lies in block r / 5000, the
  blocks tile the array, and so the array the region leaves is `message` of the two arrays it found: every row e
  scaled by the one number the column holds for e.
-/
import proofs.«138375_j82231443849542_2_alg».proof.Proof.Gen.KernelIdeal.Frame
import proofs.«138375_j82231443849542_2_alg».proof.Proof.GraphNet
import proofs.«138375_j82231443849542_2_alg».proof.Proof.LibColumnBroadcast

set_option maxRecDepth 16384

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx

variable (V : (c : Dev nD) → (b : Ref sig .tc) → Buf (Elt Ideal) ((c : Thread nD τ).loc b)) (c : Dev nD)

/-- The block's payload at (p, q): the column's entry for row p times the table's entry. -/
theorem pay4 (x0 : Vec Ideal S5000x1 .f32) (x1 : Vec Ideal S5000x64 .f32) (p : Fin 5000) (q : Fin 64) :
    k4_pay1 x0 x1 (ix2 p q) = x0 (ix2 p (0 : Fin 1)) * x1 (ix2 p q) := by
  unfold k4_pay1
  rw [shapeCast_self, shapeCast_self]
  show (broadcastTo S5000x64 x0 broadcasts_S5000x1_S5000x64 (ix2 p q)) * (x1 (ix2 p q)) = _
  rw [ColumnBroadcast.broadcastTo_a1_ab_apply]

/-- One entry of a block against one entry of the scaled table: when the column block holds the scale of the
    entry's row and the table block holds the entry, the payload is the scaled entry. -/
theorem point4 (s : Tab 800000 1) (h : Tab 800000 64) (x0 : Vec Ideal S5000x1 .f32) (x1 : Vec Ideal S5000x64 .f32)
    (y : S5000x64.Idx) (i : S800000x64.Idx)
    (h0 : x0 (ix2 (y 0) (0 : Fin 1)) = s (ix2 (i 0) (0 : Fin 1))) (h1 : x1 y = h i) :
    k4_pay1 x0 x1 y = message s h i := by
  have hy : y = ix2 (y 0) (y 1) := eq_ix2 y
  exact (congrArg (k4_pay1 x0 x1) hy).trans ((pay4 x0 x1 (y 0) (y 1)).trans
    (congrArg₂ (· * ·) h0 ((congrArg x1 hy.symm).trans h1)))

/-- The two zero offsets of a whole-buffer access, however they are spelt. -/
theorem origin4 : (![0, 0] : Fin 2 → Nat) = fun _ => 0 := funext fun a => by fin_cases a <;> rfl

/-- The block indices, decided over the grid: at point t all three windows sit at block row t, block column 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the scaled table. -/
theorem flushed4_eq (t : Fin cfg4.N) :
    (dat4 V c).flushed 2 t = ((cfg4.win 2).blk t).view.read (Elt Ideal) (message (V c main_v35) (V c main_v65)) := by
  show (cfg4.win 2).cut (grid4.coords t) ((dat4 V c).after 2 t) = _
  rw [after4_2]
  unfold out4_2
  rw [View.canon_unit_zero origin4]
  simp only [View.ld_unit_zero (S := S5000x1) origin4, View.ld_unit_zero (S := S5000x64) origin4]
  obtain ⟨e0, e1, e2, e3, e4, e5⟩ := idx_facts4 t
  funext y
  refine point4 (V c main_v35) (V c main_v65) (iblk4 V c 0 t) (iblk4 V c 1 t) y (((cfg4.win 2).blk t).view.emb y) ?_ ?_
  · show V c main_v35 (((cfg4.win 0).blk t).view.emb (ix2 (y 0) (0 : Fin 1))) = V c main_v35 (ix2 ((((cfg4.win 2).blk t).view.emb y) 0) (0 : Fin 1))
    refine congrArg _ (funext fun a => Fin.ext ?_)
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 1 + 1 * 0 = 0; omega
  · show V c main_v65 (((cfg4.win 1).blk t).view.emb y) = V c main_v65 (((cfg4.win 2).blk t).view.emb y)
    refine congrArg _ (funext fun a => Fin.ext ?_)
    match a with
    | ⟨0, _⟩ => show win4_1.index t (0 : Fin 2) * 5000 + 1 * (y 0).val = win4_2.index t (0 : Fin 2) * 5000 + 1 * (y 0).val; omega
    | ⟨1, _⟩ => show win4_1.index t (1 : Fin 2) * 64 + 1 * (y 1).val = win4_2.index t (1 : Fin 2) * 64 + 1 * (y 1).val; omega

/-- An index of the array is in point t's block iff each coordinate is in the block's range on its axis. -/
theorem mem_blk4 (t : Fin cfg4.N) (i : S800000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v66).slice (win4_2.rect t)).set ↔ _
  rw [View.set_slice_whole, Rect.mem_set_unit]
  exact Iff.rfl

/-- Row r of the table lies in the block of point r / 5000. -/
theorem cover4 (i : S800000x64.Idx) :
    ∃ t : Fin cfg4.N, (cfg4.win 2).flush t = true ∧ i ∈ ((cfg4.win 2).blk t).view.set := by
  have hi0 : (i 0).val < 800000 := (i 0).isLt
  have hi1 : (i 1).val < 64 := (i 1).isLt
  have hN : cfg4.N = 160 := N_4
  have ht : (i 0).val / 5000 < cfg4.N := by rw [hN]; omega
  obtain ⟨e0, e1, e2, e3, e4, e5⟩ := idx_facts4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win4_2.index ⟨(i 0).val / 5000, ht⟩ (1 : Fin 2) * 64 ≤ (i 1).val ∧ (i 1).val < win4_2.index ⟨(i 0).val / 5000, ht⟩ (1 : Fin 2) * 64 + 64
    rw [e5]
    omega

/-- The array the region leaves: every row of the table it found, scaled by the column's number for that row. -/
theorem final4 : (dat4 V c).arrAt 2 cfg4.N = message (V c main_v35) (V c main_v65) :=
  (dat4 V c).arrAt_eq_of_cover 2 _ (fun t _ => flushed4_eq V c t) cover4

end Cert.KernelIdeal.RegionValue

end
-- ==== Proof.RegionAffine5.lean ====
/-
  The normalisation of a node table, block by block.

  The region walks a 50000 × 64 table in 25 blocks of 2000 rows. Three one-row tables (a bias b, a gain g, an
  offset be) stay in place while the blocks of the table a move. At each block it writes, at entry (p, q),
    max (g(0,q) · ((a(p,q) + b(0,q)) · c) + be(0,q), 0)
  with the fixed scale c: the bias is added first, the sum is scaled by c, the gain multiplies, the offset is added
  last, and the result is floored at zero. The scale and the floor are the same single-precision words on both sides
  and are never evaluated. Row r of the array lies in block r / 2000, the blocks tile the array, and so the array the
  region leaves is `affineRelu` of the four arrays it found.
-/
import proofs.«138375_j82231443849542_2_alg».proof.Proof.Gen.KernelIdeal.Frame
import proofs.«138375_j82231443849542_2_alg».proof.Proof.GraphNet
import proofs.«138375_j82231443849542_2_alg».proof.Proof.LibOneRowMatrix

set_option maxRecDepth 16384

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx

variable (V : (c : Dev nD) → (b : Ref sig .tc) → Buf (Elt Ideal) ((c : Thread nD τ).loc b)) (c : Dev nD)

/-- The block's payload at (p, q): the bias added first, the fixed scale, the gain, the offset added last, the floor. -/
theorem pay5 (x0 : Vec Ideal S2000x64 .f32) (x1 x2 x3 : Vec Ideal S1x64 .f32) (p : Fin 2000) (q : Fin 64) :
    k5_pay1 x0 x1 x2 x3 (ix2 p q)
      = max (x2 (ix2 (0 : Fin 1) q) * ((x0 (ix2 p q) + x1 (ix2 (0 : Fin 1) q)) * scaleWord) + x3 (ix2 (0 : Fin 1) q)) floorWord := by
  unfold k5_pay1
  simp only [shapeCast_self]
  show max (broadcastTo S2000x64 x2 broadcasts_S1x64_S2000x64 (ix2 p q) * ((x0 (ix2 p q) + broadcastTo S2000x64 x1 broadcasts_S1x64_S2000x64 (ix2 p q)) * scaleWord) + broadcastTo S2000x64 x3 broadcasts_S1x64_S2000x64 (ix2 p q)) floorWord = _
  rw [OneRowMatrix.broadcast_row_apply, OneRowMatrix.broadcast_row_apply, OneRowMatrix.broadcast_row_apply]

/-- One entry of a block against one entry of the normalised table: when the table block holds the entry and the
    three one-row blocks hold the entry's column of the bias, the gain and the offset, the payload is the
    normalised entry. -/
theorem point5 (a : Tab 50000 64) (b g be : Tab 1 64) (x0 : Vec Ideal S2000x64 .f32) (x1 x2 x3 : Vec Ideal S1x64 .f32)
    (y : S2000x64.Idx) (i : S50000x64.Idx)
    (h0 : x0 y = a i) (h1 : x1 (ix2 (0 : Fin 1) (y 1)) = b (ix2 (0 : Fin 1) (i 1)))
    (h2 : x2 (ix2 (0 : Fin 1) (y 1)) = g (ix2 (0 : Fin 1) (i 1)))
    (h3 : x3 (ix2 (0 : Fin 1) (y 1)) = be (ix2 (0 : Fin 1) (i 1))) :
    k5_pay1 x0 x1 x2 x3 y = affineRelu a b g be i := by
  have hy : y = ix2 (y 0) (y 1) := eq_ix2 y
  have h0' : x0 (ix2 (y 0) (y 1)) = a i := (congrArg x0 hy.symm).trans h0
  refine (congrArg (k5_pay1 x0 x1 x2 x3) hy).trans ((pay5 x0 x1 x2 x3 (y 0) (y 1)).trans ?_)
  exact congrArg₂ max (congrArg₂ (· + ·) (congrArg₂ (· * ·) h2 (congrArg (· * scaleWord) (congrArg₂ (· + ·) h0' h1))) h3) rfl

/-- The two zero offsets of a whole-buffer access, however they are spelt. -/
theorem origin5 : (![0, 0] : Fin 2 → Nat) = fun _ => 0 := funext fun a => by fin_cases a <;> rfl

/-- The block indices, decided over the grid: at point t the table's window and the output's sit at block row t,
    block column 0; the three one-row windows stay at block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point t writes back is block t of the normalised table. -/
theorem flushed5_eq (t : Fin cfg5.N) :
    (dat5 V c).flushed 4 t = ((cfg5.win 4).blk t).view.read (Elt Ideal)
      (affineRelu (V c main_v69) (V c main_v70) (V c main_v71) (V c main_v72)) := by
  show (cfg5.win 4).cut (grid5.coords t) ((dat5 V c).after 4 t) = _
  rw [after5_4]
  unfold out5_4
  rw [View.canon_unit_zero origin5]
  simp only [View.ld_unit_zero (S := S2000x64) origin5, View.ld_unit_zero (S := S1x64) origin5]
  obtain ⟨e0, e1, e2, e3, e4, e5, e6, e7, e8, e9⟩ := idx_facts5 t
  funext y
  refine point5 (V c main_v69) (V c main_v70) (V c main_v71) (V c main_v72)
    (iblk5 V c 0 t) (iblk5 V c 1 t) (iblk5 V c 2 t) (iblk5 V c 3 t) y (((cfg5.win 4).blk t).view.emb y) ?_ ?_ ?_ ?_
  · show V c main_v69 (((cfg5.win 0).blk t).view.emb y) = V c main_v69 (((cfg5.win 4).blk t).view.emb y)
    refine congrArg _ (funext fun a => Fin.ext ?_)
    match a with
    | ⟨0, _⟩ => show win5_0.index t (0 : Fin 2) * 2000 + 1 * (y 0).val = win5_4.index t (0 : Fin 2) * 2000 + 1 * (y 0).val; omega
    | ⟨1, _⟩ => show win5_0.index t (1 : Fin 2) * 64 + 1 * (y 1).val = win5_4.index t (1 : Fin 2) * 64 + 1 * (y 1).val; omega
  · show V c main_v70 (((cfg5.win 1).blk t).view.emb (ix2 (0 : Fin 1) (y 1))) = V c main_v70 (ix2 (0 : Fin 1) ((((cfg5.win 4).blk t).view.emb y) 1))
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * (y 1).val = win5_4.index t (1 : Fin 2) * 64 + 1 * (y 1).val; omega
  · show V c main_v71 (((cfg5.win 2).blk t).view.emb (ix2 (0 : Fin 1) (y 1))) = V c main_v71 (ix2 (0 : Fin 1) ((((cfg5.win 4).blk t).view.emb y) 1))
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * (y 1).val = win5_4.index t (1 : Fin 2) * 64 + 1 * (y 1).val; omega
  · show V c main_v72 (((cfg5.win 3).blk t).view.emb (ix2 (0 : Fin 1) (y 1))) = V c main_v72 (ix2 (0 : Fin 1) ((((cfg5.win 4).blk t).view.emb y) 1))
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * (y 1).val = win5_4.index t (1 : Fin 2) * 64 + 1 * (y 1).val; omega

/-- An index of the array is in point t's block iff each coordinate is in the block's range on its axis. -/
theorem mem_blk5 (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v73).slice (win5_4.rect t)).set ↔ _
  rw [View.set_slice_whole, Rect.mem_set_unit]
  exact Iff.rfl

/-- Row r of the table lies in the block of point r / 2000. -/
theorem cover5 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 25 := N_5
  have ht : (i 0).val / 2000 < cfg5.N := by rw [hN]; omega
  obtain ⟨e0, e1, e2, e3, e4, e5, e6, e7, e8, e9⟩ := idx_facts5 ⟨(i 0).val / 2000, ht⟩
  refine ⟨⟨(i 0).val / 2000, ht⟩, flush5_4 _, ?_⟩
  rw [mem_blk5]
  intro a
  match a with
  | ⟨0, _⟩ =>
    show win5_4.index ⟨(i 0).val / 2000, ht⟩ (0 : Fin 2) * 2000 ≤ (i 0).val ∧ (i 0).val < win5_4.index ⟨(i 0).val / 2000, ht⟩ (0 : Fin 2) * 2000 + 2000
    rw [e8]
    show (i 0).val / 2000 * 2000 ≤ (i 0).val ∧ (i 0).val < (i 0).val / 2000 * 2000 + 2000
    omega
  | ⟨1, _⟩ =>
    show win5_4.index ⟨(i 0).val / 2000, ht⟩ (1 : Fin 2) * 64 ≤ (i 1).val ∧ (i 1).val < win5_4.index ⟨(i 0).val / 2000, ht⟩ (1 : Fin 2) * 64 + 64
    rw [e9]
    omega

/-- The array the region leaves: the normalisation of the table it found by the three one-row tables it found. -/
theorem final5 : (dat5 V c).arrAt 4 cfg5.N = affineRelu (V c main_v69) (V c main_v70) (V c main_v71) (V c main_v72) :=
  (dat5 V c).arrAt_eq_of_cover 4 _ (fun t _ => flushed5_eq V c t) cover5

end Cert.KernelIdeal.RegionValue

end
-- ==== Proof.RegionDense6.lean ====
/-
  The third layer's affine map, read off the tiled program.

  The rows of the node table are cut into 25 blocks of 2000. At each block the program multiplies the block's rows by
  the whole 64 × 64 weight matrix (both operands first narrowed, which is the identity on the extended reals), starting
  from the zero accumulator, and adds the one-row bias to every row. A block's row p is the
  table's row 2000·t + p, the weight and bias blocks are the whole arrays, and the 25 blocks tile the 50000 rows, so the
  output array ends holding x · w + b entry by entry.
-/
import proofs.«138375_j82231443849542_2_alg».proof.Proof.Gen.KernelIdeal.Frame
import proofs.«138375_j82231443849542_2_alg».proof.Proof.GraphNet
import proofs.«138375_j82231443849542_2_alg».proof.Proof.LibMatmulRowsByCols
import proofs.«138375_j82231443849542_2_alg».proof.Proof.LibOneRowMatrix
import Idealize.ShloMosaic.Lib.Pipeline.Value
import Idealize.ShloMosaic.Lib.ValueIdx

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx
open Idealize.ShloMosaic.Pipeline (Dat)

variable (V : (c : Dev nD) → (b : Ref sig .tc) → Buf (Elt Ideal) ((c : Thread nD τ).loc b)) (c : Dev nD)

/-! ## The block's arithmetic -/

/-- The block product contracts one axis, of extent 64: the left operand is read at (row, k), the right at (k, column). -/
theorem dot6_lhs0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem dot6_lhs1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem dot6_rhs0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem dot6_rhs1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- What the body stores, at row p and column q of the block: the row of the x block times the column of the weight
    block, plus the bias at q. -/
theorem pay6 (x0 : Vec Ideal S2000x64 .f32) (x1 : Vec Ideal S64x64 .f32) (x2 : Vec Ideal S1x64 .f32)
    (p : Fin 2000) (q : Fin 64) :
    k6_pay1 x0 x1 x2 (ix2 p q) = (∑ k : Fin 64, x0 (ix2 p k) * x1 (ix2 k q)) + x2 (ix2 (0 : Fin 1) q) := by
  unfold k6_pay1
  simp only [shapeCast_self]
  rw [addf_apply, OneRowMatrix.broadcast_row_apply,
    MatmulRowsByCols.matmul_zero_apply dot_S2000x64_S64x64_S2000x64_1_0_0_1_n_n rfl rfl dot6_lhs0 dot6_lhs1 dot6_rhs0 dot6_rhs1]
  rfl

/-! ## A block's entry as an entry of the whole arrays -/

/-- An entry of the stored block is the law's entry, once the x block's row is the table's row, the weight block's
    column the matrix's column, and the bias block's entry the bias's. -/
theorem point6 (X : Tab 50000 64) (W : Tab 64 64) (B : Tab 1 64)
    (x0 : Vec Ideal S2000x64 .f32) (x1 : Vec Ideal S64x64 .f32) (x2 : Vec Ideal S1x64 .f32)
    (y : S2000x64.Idx) (i : S50000x64.Idx)
    (h0 : ∀ k : Fin 64, x0 (ix2 (y 0) k) = X (ix2 (i 0) k))
    (h1 : ∀ k : Fin 64, x1 (ix2 k (y 1)) = W (ix2 k (i 1)))
    (h2 : x2 (ix2 (0 : Fin 1) (y 1)) = B (ix2 (0 : Fin 1) (i 1))) :
    k6_pay1 x0 x1 x2 y = dense X W B i := by
  rw [eq_ix2 y, eq_ix2 i]
  refine (pay6 x0 x1 x2 (y 0) (y 1)).trans (Eq.trans ?_ (dense_ix2 X W B (i 0) (i 1)).symm)
  rw [h2]
  congr 1
  exact Finset.sum_congr rfl fun k _ => by rw [h0 k, h1 k]

/-! ## The windows' blocks over the grid -/

theorem hz6 : (![0, 0] : Fin 2 → Nat) = fun _ => 0 := funext fun a => by fin_cases a <;> rfl

/-- The printed index maps, decided over the 25 points: the x window and the output window sit at row block t, the
    weight and bias windows at block (0, 0). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of the law of the arrays as the region finds them. -/
theorem flushed6_eq (t : Fin cfg6.N) :
    (dat6 V c).flushed 3 t
      = ((cfg6.win 3).blk t).view.read (Elt Ideal) (dense (V c main_v73) (V c main_v74) (V c main_v76)) := by
  show (cfg6.win 3).cut (grid6.coords t) ((dat6 V c).after 3 t) = _
  rw [after6_3]
  unfold out6_3
  rw [View.canon_unit_zero hz6]
  simp only [View.ld_unit_zero (S := S2000x64) hz6, View.ld_unit_zero (S := S64x64) hz6,
    View.ld_unit_zero (S := S1x64) hz6]
  obtain ⟨e00, e01, e10, e11, e20, e21, e30, e31⟩ := idx_facts6 t
  funext y
  show k6_pay1 (iblk6 V c 0 t) (iblk6 V c 1 t) (iblk6 V c 2 t) y
    = dense (V c main_v73) (V c main_v74) (V c main_v76) (((cfg6.win 3).blk t).view.emb y)
  refine point6 (V c main_v73) (V c main_v74) (V c main_v76) _ _ _ y (((cfg6.win 3).blk t).view.emb y)
    (fun k => ?_) (fun k => ?_) ?_
  · show V c main_v73 (((cfg6.win 0).blk t).view.emb (ix2 (y 0) k)) = _
    congr 1
    funext a
    apply Fin.ext
    match a with
    | ⟨0, _⟩ =>
      show win6_0.index t (0 : Fin 2) * 2000 + 1 * (y 0).val = win6_3.index t (0 : Fin 2) * 2000 + 1 * (y 0).val
      omega
    | ⟨1, _⟩ => show win6_0.index t (1 : Fin 2) * 64 + 1 * k.val = k.val; omega
  · show V c main_v74 (((cfg6.win 1).blk t).view.emb (ix2 k (y 1))) = _
    congr 1
    funext a
    apply Fin.ext
    match a with
    | ⟨0, _⟩ => show win6_1.index t (0 : Fin 2) * 64 + 1 * k.val = k.val; omega
    | ⟨1, _⟩ =>
      show win6_1.index t (1 : Fin 2) * 64 + 1 * (y 1).val = win6_3.index t (1 : Fin 2) * 64 + 1 * (y 1).val
      omega
  · show V c main_v76 (((cfg6.win 2).blk t).view.emb (ix2 (0 : Fin 1) (y 1))) = _
    congr 1
    funext a
    apply Fin.ext
    match a with
    | ⟨0, _⟩ => show win6_2.index t (0 : Fin 2) * 1 + 1 * 0 = 0; omega
    | ⟨1, _⟩ =>
      show win6_2.index t (1 : Fin 2) * 64 + 1 * (y 1).val = win6_3.index t (1 : Fin 2) * 64 + 1 * (y 1).val
      omega

/-! ## The blocks tile the array -/

/-- An index of the output array is in point t's block iff each coordinate is in the block's range on its axis. -/
theorem mem_blk6 (t : Fin cfg6.N) (i : S50000x64.Idx) :
    i ∈ ((cfg6.win 3).blk t).view.set ↔ ∀ a : Fin 2, win6_3.index t a * S2000x64.size a ≤ (i a).val
      ∧ (i a).val < win6_3.index t a * S2000x64.size a + S2000x64.size a := by
  show i ∈ ((View.whole main_v77).slice (win6_3.rect t)).set ↔ _
  rw [View.set_slice_whole, Rect.mem_set_unit]
  exact Iff.rfl

/-- Row r of the output array lies in the block of point r / 2000. -/
theorem cover6 (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 25 := N_6
  have ht : (i 0).val / 2000 < cfg6.N := by rw [hN]; omega
  obtain ⟨-, -, -, -, -, -, e30, e31⟩ := idx_facts6 ⟨(i 0).val / 2000, ht⟩
  refine ⟨⟨(i 0).val / 2000, ht⟩, flush6_3 _, ?_⟩
  rw [mem_blk6]
  intro a
  match a with
  | ⟨0, _⟩ =>
    show win6_3.index ⟨(i 0).val / 2000, ht⟩ (0 : Fin 2) * 2000 ≤ (i 0).val
      ∧ (i 0).val < win6_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win6_3.index ⟨(i 0).val / 2000, ht⟩ (1 : Fin 2) * 64 ≤ (i 1).val
      ∧ (i 1).val < win6_3.index ⟨(i 0).val / 2000, ht⟩ (1 : Fin 2) * 64 + 64
    rw [e31]
    omega

/-! ## The array after the region -/

/-- The output array ends holding x · w + b. -/
theorem final6 : (dat6 V c).arrAt 3 cfg6.N = dense (V c main_v73) (V c main_v74) (V c main_v76) :=
  (dat6 V c).arrAt_eq_of_cover 3 _ (fun t _ => flushed6_eq V c t) cover6

end Cert.KernelIdeal.RegionValue

end
-- ==== Proof.RegionMessage7.lean ====
/-
  Row scaling of a table of gathered rows, block by block.

  The region walks an 800000 × 64 table in 160 blocks of 5000 rows. At each block it reads the matching 5000 rows of a
  one-column table of scales and of the table of rows, and writes every row times its scale: entry (p, q) of the
  block is the column's entry (p, 0) times the table's entry (p, q). Row r of the array lies in block r / 5000, the
  blocks tile the array, and so the array the region leaves is `message` of the two arrays it found: every row e
  scaled by the one number the column holds for e.
-/
import proofs.«138375_j82231443849542_2_alg».proof.Proof.Gen.KernelIdeal.Frame
import proofs.«138375_j82231443849542_2_alg».proof.Proof.GraphNet
import proofs.«138375_j82231443849542_2_alg».proof.Proof.LibColumnBroadcast

set_option maxRecDepth 16384

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx

variable (V : (c : Dev nD) → (b : Ref sig .tc) → Buf (Elt Ideal) ((c : Thread nD τ).loc b)) (c : Dev nD)

/-- The block's payload at (p, q): the column's entry for row p times the table's entry. -/
theorem pay7 (x0 : Vec Ideal S5000x1 .f32) (x1 : Vec Ideal S5000x64 .f32) (p : Fin 5000) (q : Fin 64) :
    k7_pay1 x0 x1 (ix2 p q) = x0 (ix2 p (0 : Fin 1)) * x1 (ix2 p q) := by
  unfold k7_pay1
  rw [shapeCast_self, shapeCast_self]
  show (broadcastTo S5000x64 x0 broadcasts_S5000x1_S5000x64 (ix2 p q)) * (x1 (ix2 p q)) = _
  rw [ColumnBroadcast.broadcastTo_a1_ab_apply]

/-- One entry of a block against one entry of the scaled table: when the column block holds the scale of the
    entry's row and the table block holds the entry, the payload is the scaled entry. -/
theorem point7 (s : Tab 800000 1) (h : Tab 800000 64) (x0 : Vec Ideal S5000x1 .f32) (x1 : Vec Ideal S5000x64 .f32)
    (y : S5000x64.Idx) (i : S800000x64.Idx)
    (h0 : x0 (ix2 (y 0) (0 : Fin 1)) = s (ix2 (i 0) (0 : Fin 1))) (h1 : x1 y = h i) :
    k7_pay1 x0 x1 y = message s h i := by
  have hy : y = ix2 (y 0) (y 1) := eq_ix2 y
  exact (congrArg (k7_pay1 x0 x1) hy).trans ((pay7 x0 x1 (y 0) (y 1)).trans
    (congrArg₂ (· * ·) h0 ((congrArg x1 hy.symm).trans h1)))

/-- The two zero offsets of a whole-buffer access, however they are spelt. -/
theorem origin7 : (![0, 0] : Fin 2 → Nat) = fun _ => 0 := funext fun a => by fin_cases a <;> rfl

/-- The block indices, decided over the grid: at point t all three windows sit at block row t, block column 0. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of the scaled table. -/
theorem flushed7_eq (t : Fin cfg7.N) :
    (dat7 V c).flushed 2 t = ((cfg7.win 2).blk t).view.read (Elt Ideal) (message (V c main_v35) (V c main_v84)) := by
  show (cfg7.win 2).cut (grid7.coords t) ((dat7 V c).after 2 t) = _
  rw [after7_2]
  unfold out7_2
  rw [View.canon_unit_zero origin7]
  simp only [View.ld_unit_zero (S := S5000x1) origin7, View.ld_unit_zero (S := S5000x64) origin7]
  obtain ⟨e0, e1, e2, e3, e4, e5⟩ := idx_facts7 t
  funext y
  refine point7 (V c main_v35) (V c main_v84) (iblk7 V c 0 t) (iblk7 V c 1 t) y (((cfg7.win 2).blk t).view.emb y) ?_ ?_
  · show V c main_v35 (((cfg7.win 0).blk t).view.emb (ix2 (y 0) (0 : Fin 1))) = V c main_v35 (ix2 ((((cfg7.win 2).blk t).view.emb y) 0) (0 : Fin 1))
    refine congrArg _ (funext fun a => Fin.ext ?_)
    match a with
    | ⟨0, _⟩ => show win7_0.index t (0 : Fin 2) * 5000 + 1 * (y 0).val = win7_2.index t (0 : Fin 2) * 5000 + 1 * (y 0).val; omega
    | ⟨1, _⟩ => show win7_0.index t (1 : Fin 2) * 1 + 1 * 0 = 0; omega
  · show V c main_v84 (((cfg7.win 1).blk t).view.emb y) = V c main_v84 (((cfg7.win 2).blk t).view.emb y)
    refine congrArg _ (funext fun a => Fin.ext ?_)
    match a with
    | ⟨0, _⟩ => show win7_1.index t (0 : Fin 2) * 5000 + 1 * (y 0).val = win7_2.index t (0 : Fin 2) * 5000 + 1 * (y 0).val; omega
    | ⟨1, _⟩ => show win7_1.index t (1 : Fin 2) * 64 + 1 * (y 1).val = win7_2.index t (1 : Fin 2) * 64 + 1 * (y 1).val; omega

/-- An index of the array is in point t's block iff each coordinate is in the block's range on its axis. -/
theorem mem_blk7 (t : Fin cfg7.N) (i : S800000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v85).slice (win7_2.rect t)).set ↔ _
  rw [View.set_slice_whole, Rect.mem_set_unit]
  exact Iff.rfl

/-- Row r of the table lies in the block of point r / 5000. -/
theorem cover7 (i : S800000x64.Idx) :
    ∃ t : Fin cfg7.N, (cfg7.win 2).flush t = true ∧ i ∈ ((cfg7.win 2).blk t).view.set := by
  have hi0 : (i 0).val < 800000 := (i 0).isLt
  have hi1 : (i 1).val < 64 := (i 1).isLt
  have hN : cfg7.N = 160 := N_7
  have ht : (i 0).val / 5000 < cfg7.N := by rw [hN]; omega
  obtain ⟨e0, e1, e2, e3, e4, e5⟩ := idx_facts7 ⟨(i 0).val / 5000, ht⟩
  refine ⟨⟨(i 0).val / 5000, ht⟩, flush7_2 _, ?_⟩
  rw [mem_blk7]
  intro a
  match a with
  | ⟨0, _⟩ =>
    show win7_2.index ⟨(i 0).val / 5000, ht⟩ (0 : Fin 2) * 5000 ≤ (i 0).val ∧ (i 0).val < win7_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win7_2.index ⟨(i 0).val / 5000, ht⟩ (1 : Fin 2) * 64 ≤ (i 1).val ∧ (i 1).val < win7_2.index ⟨(i 0).val / 5000, ht⟩ (1 : Fin 2) * 64 + 64
    rw [e5]
    omega

/-- The array the region leaves: every row of the table it found, scaled by the column's number for that row. -/
theorem final7 : (dat7 V c).arrAt 2 cfg7.N = message (V c main_v35) (V c main_v84) :=
  (dat7 V c).arrAt_eq_of_cover 2 _ (fun t _ => flushed7_eq V c t) cover7

end Cert.KernelIdeal.RegionValue

end
-- ==== Proof.RegionAffine8.lean ====
/-
  The normalisation of a node table, block by block.

  The region walks a 50000 × 64 table in 25 blocks of 2000 rows. Three one-row tables (a bias b, a gain g, an
  offset be) stay in place while the blocks of the table a move. At each block it writes, at entry (p, q),
    max (g(0,q) · ((a(p,q) + b(0,q)) · c) + be(0,q), 0)
  with the fixed scale c: the bias is added first, the sum is scaled by c, the gain multiplies, the offset is added
  last, and the result is floored at zero. The scale and the floor are the same single-precision words on both sides
  and are never evaluated. Row r of the array lies in block r / 2000, the blocks tile the array, and so the array the
  region leaves is `affineRelu` of the four arrays it found.
-/
import proofs.«138375_j82231443849542_2_alg».proof.Proof.Gen.KernelIdeal.Frame
import proofs.«138375_j82231443849542_2_alg».proof.Proof.GraphNet
import proofs.«138375_j82231443849542_2_alg».proof.Proof.LibOneRowMatrix

set_option maxRecDepth 16384

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx

variable (V : (c : Dev nD) → (b : Ref sig .tc) → Buf (Elt Ideal) ((c : Thread nD τ).loc b)) (c : Dev nD)

/-- The block's payload at (p, q): the bias added first, the fixed scale, the gain, the offset added last, the floor. -/
theorem pay8 (x0 : Vec Ideal S2000x64 .f32) (x1 x2 x3 : Vec Ideal S1x64 .f32) (p : Fin 2000) (q : Fin 64) :
    k8_pay1 x0 x1 x2 x3 (ix2 p q)
      = max (x2 (ix2 (0 : Fin 1) q) * ((x0 (ix2 p q) + x1 (ix2 (0 : Fin 1) q)) * scaleWord) + x3 (ix2 (0 : Fin 1) q)) floorWord := by
  unfold k8_pay1
  simp only [shapeCast_self]
  show max (broadcastTo S2000x64 x2 broadcasts_S1x64_S2000x64 (ix2 p q) * ((x0 (ix2 p q) + broadcastTo S2000x64 x1 broadcasts_S1x64_S2000x64 (ix2 p q)) * scaleWord) + broadcastTo S2000x64 x3 broadcasts_S1x64_S2000x64 (ix2 p q)) floorWord = _
  rw [OneRowMatrix.broadcast_row_apply, OneRowMatrix.broadcast_row_apply, OneRowMatrix.broadcast_row_apply]

/-- One entry of a block against one entry of the normalised table: when the table block holds the entry and the
    three one-row blocks hold the entry's column of the bias, the gain and the offset, the payload is the
    normalised entry. -/
theorem point8 (a : Tab 50000 64) (b g be : Tab 1 64) (x0 : Vec Ideal S2000x64 .f32) (x1 x2 x3 : Vec Ideal S1x64 .f32)
    (y : S2000x64.Idx) (i : S50000x64.Idx)
    (h0 : x0 y = a i) (h1 : x1 (ix2 (0 : Fin 1) (y 1)) = b (ix2 (0 : Fin 1) (i 1)))
    (h2 : x2 (ix2 (0 : Fin 1) (y 1)) = g (ix2 (0 : Fin 1) (i 1)))
    (h3 : x3 (ix2 (0 : Fin 1) (y 1)) = be (ix2 (0 : Fin 1) (i 1))) :
    k8_pay1 x0 x1 x2 x3 y = affineRelu a b g be i := by
  have hy : y = ix2 (y 0) (y 1) := eq_ix2 y
  have h0' : x0 (ix2 (y 0) (y 1)) = a i := (congrArg x0 hy.symm).trans h0
  refine (congrArg (k8_pay1 x0 x1 x2 x3) hy).trans ((pay8 x0 x1 x2 x3 (y 0) (y 1)).trans ?_)
  exact congrArg₂ max (congrArg₂ (· + ·) (congrArg₂ (· * ·) h2 (congrArg (· * scaleWord) (congrArg₂ (· + ·) h0' h1))) h3) rfl

/-- The two zero offsets of a whole-buffer access, however they are spelt. -/
theorem origin8 : (![0, 0] : Fin 2 → Nat) = fun _ => 0 := funext fun a => by fin_cases a <;> rfl

/-- The block indices, decided over the grid: at point t the table's window and the output's sit at block row t,
    block column 0; the three one-row windows stay at block (0, 0). -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- What point t writes back is block t of the normalised table. -/
theorem flushed8_eq (t : Fin cfg8.N) :
    (dat8 V c).flushed 4 t = ((cfg8.win 4).blk t).view.read (Elt Ideal)
      (affineRelu (V c main_v88) (V c main_v89) (V c main_v90) (V c main_v91)) := by
  show (cfg8.win 4).cut (grid8.coords t) ((dat8 V c).after 4 t) = _
  rw [after8_4]
  unfold out8_4
  rw [View.canon_unit_zero origin8]
  simp only [View.ld_unit_zero (S := S2000x64) origin8, View.ld_unit_zero (S := S1x64) origin8]
  obtain ⟨e0, e1, e2, e3, e4, e5, e6, e7, e8, e9⟩ := idx_facts8 t
  funext y
  refine point8 (V c main_v88) (V c main_v89) (V c main_v90) (V c main_v91)
    (iblk8 V c 0 t) (iblk8 V c 1 t) (iblk8 V c 2 t) (iblk8 V c 3 t) y (((cfg8.win 4).blk t).view.emb y) ?_ ?_ ?_ ?_
  · show V c main_v88 (((cfg8.win 0).blk t).view.emb y) = V c main_v88 (((cfg8.win 4).blk t).view.emb y)
    refine congrArg _ (funext fun a => Fin.ext ?_)
    match a with
    | ⟨0, _⟩ => show win8_0.index t (0 : Fin 2) * 2000 + 1 * (y 0).val = win8_4.index t (0 : Fin 2) * 2000 + 1 * (y 0).val; omega
    | ⟨1, _⟩ => show win8_0.index t (1 : Fin 2) * 64 + 1 * (y 1).val = win8_4.index t (1 : Fin 2) * 64 + 1 * (y 1).val; omega
  · show V c main_v89 (((cfg8.win 1).blk t).view.emb (ix2 (0 : Fin 1) (y 1))) = V c main_v89 (ix2 (0 : Fin 1) ((((cfg8.win 4).blk t).view.emb y) 1))
    refine congrArg _ (funext fun a => Fin.ext ?_)
    match a with
    | ⟨0, _⟩ => show win8_1.index t (0 : Fin 2) * 1 + 1 * 0 = 0; omega
    | ⟨1, _⟩ => show win8_1.index t (1 : Fin 2) * 64 + 1 * (y 1).val = win8_4.index t (1 : Fin 2) * 64 + 1 * (y 1).val; omega
  · show V c main_v90 (((cfg8.win 2).blk t).view.emb (ix2 (0 : Fin 1) (y 1))) = V c main_v90 (ix2 (0 : Fin 1) ((((cfg8.win 4).blk t).view.emb y) 1))
    refine congrArg _ (funext fun a => Fin.ext ?_)
    match a with
    | ⟨0, _⟩ => show win8_2.index t (0 : Fin 2) * 1 + 1 * 0 = 0; omega
    | ⟨1, _⟩ => show win8_2.index t (1 : Fin 2) * 64 + 1 * (y 1).val = win8_4.index t (1 : Fin 2) * 64 + 1 * (y 1).val; omega
  · show V c main_v91 (((cfg8.win 3).blk t).view.emb (ix2 (0 : Fin 1) (y 1))) = V c main_v91 (ix2 (0 : Fin 1) ((((cfg8.win 4).blk t).view.emb y) 1))
    refine congrArg _ (funext fun a => Fin.ext ?_)
    match a with
    | ⟨0, _⟩ => show win8_3.index t (0 : Fin 2) * 1 + 1 * 0 = 0; omega
    | ⟨1, _⟩ => show win8_3.index t (1 : Fin 2) * 64 + 1 * (y 1).val = win8_4.index t (1 : Fin 2) * 64 + 1 * (y 1).val; omega

/-- An index of the array is in point t's block iff each coordinate is in the block's range on its axis. -/
theorem mem_blk8 (t : Fin cfg8.N) (i : S50000x64.Idx) :
    i ∈ ((cfg8.win 4).blk t).view.set ↔ ∀ a : Fin 2, win8_4.index t a * S2000x64.size a ≤ (i a).val ∧ (i a).val < win8_4.index t a * S2000x64.size a + S2000x64.size a := by
  show i ∈ ((View.whole main_v92).slice (win8_4.rect t)).set ↔ _
  rw [View.set_slice_whole, Rect.mem_set_unit]
  exact Iff.rfl

/-- Row r of the table lies in the block of point r / 2000. -/
theorem cover8 (i : S50000x64.Idx) :
    ∃ t : Fin cfg8.N, (cfg8.win 4).flush t = true ∧ i ∈ ((cfg8.win 4).blk t).view.set := by
  have hi0 : (i 0).val < 50000 := (i 0).isLt
  have hi1 : (i 1).val < 64 := (i 1).isLt
  have hN : cfg8.N = 25 := N_8
  have ht : (i 0).val / 2000 < cfg8.N := by rw [hN]; omega
  obtain ⟨e0, e1, e2, e3, e4, e5, e6, e7, e8, e9⟩ := idx_facts8 ⟨(i 0).val / 2000, ht⟩
  refine ⟨⟨(i 0).val / 2000, ht⟩, flush8_4 _, ?_⟩
  rw [mem_blk8]
  intro a
  match a with
  | ⟨0, _⟩ =>
    show win8_4.index ⟨(i 0).val / 2000, ht⟩ (0 : Fin 2) * 2000 ≤ (i 0).val ∧ (i 0).val < win8_4.index ⟨(i 0).val / 2000, ht⟩ (0 : Fin 2) * 2000 + 2000
    rw [e8]
    show (i 0).val / 2000 * 2000 ≤ (i 0).val ∧ (i 0).val < (i 0).val / 2000 * 2000 + 2000
    omega
  | ⟨1, _⟩ =>
    show win8_4.index ⟨(i 0).val / 2000, ht⟩ (1 : Fin 2) * 64 ≤ (i 1).val ∧ (i 1).val < win8_4.index ⟨(i 0).val / 2000, ht⟩ (1 : Fin 2) * 64 + 64
    rw [e9]
    omega

/-- The array the region leaves: the normalisation of the table it found by the three one-row tables it found. -/
theorem final8 : (dat8 V c).arrAt 4 cfg8.N = affineRelu (V c main_v88) (V c main_v89) (V c main_v90) (V c main_v91) :=
  (dat8 V c).arrAt_eq_of_cover 4 _ (fun t _ => flushed8_eq V c t) cover8

end Cert.KernelIdeal.RegionValue

end
-- ==== Proof.RegionDense9.lean ====
/-
  The perceptron's hidden layer, an affine map floored at zero, read off the tiled program.

  The rows of the node table are cut into 25 blocks of 2000. At each block the program multiplies the block's rows by
  the whole 64 × 32 weight matrix (both operands first narrowed, which is the identity on the extended reals), starting
  from the zero accumulator, and adds the one-row bias to every row, then floors every entry at the zero word. A block's row p is the
  table's row 2000·t + p, the weight and bias blocks are the whole arrays, and the 25 blocks tile the 50000 rows, so the
  output array ends holding max(x · w + b, 0) entry by entry.
-/
import proofs.«138375_j82231443849542_2_alg».proof.Proof.Gen.KernelIdeal.Frame
import proofs.«138375_j82231443849542_2_alg».proof.Proof.GraphNet
import proofs.«138375_j82231443849542_2_alg».proof.Proof.LibMatmulRowsByCols
import proofs.«138375_j82231443849542_2_alg».proof.Proof.LibOneRowMatrix
import Idealize.ShloMosaic.Lib.Pipeline.Value
import Idealize.ShloMosaic.Lib.ValueIdx

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx
open Idealize.ShloMosaic.Pipeline (Dat)

variable (V : (c : Dev nD) → (b : Ref sig .tc) → Buf (Elt Ideal) ((c : Thread nD τ).loc b)) (c : Dev nD)

/-! ## The block's arithmetic -/

/-- The block product contracts one axis, of extent 64: the left operand is read at (row, k), the right at (k, column). -/
theorem dot9_lhs0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide),
    dif_pos (show (0 : Fin S2000x64.rank) ∈ dot_S2000x64_S64x32_S2000x32_1_0_0_1_n_n.lhsNonContracting by decide)]
  rfl
theorem dot9_lhs1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem dot9_rhs0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem dot9_rhs1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide),
    dif_pos (show (1 : Fin S64x32.rank) ∈ dot_S2000x64_S64x32_S2000x32_1_0_0_1_n_n.rhsNonContracting by decide)]
  rfl

/-- What the body stores, at row p and column q of the block: the row of the x block times the column of the weight
    block, plus the bias at q, floored at the zero word. -/
theorem pay9 (x0 : Vec Ideal S2000x64 .f32) (x1 : Vec Ideal S64x32 .f32) (x2 : Vec Ideal S1x32 .f32)
    (p : Fin 2000) (q : Fin 32) :
    k9_pay1 x0 x1 x2 (ix2 p q) = max ((∑ k : Fin 64, x0 (ix2 p k) * x1 (ix2 k q)) + x2 (ix2 (0 : Fin 1) q)) floorWord := by
  unfold k9_pay1
  simp only [shapeCast_self]
  rw [maximumf_apply, addf_apply, OneRowMatrix.broadcast_row_apply,
    MatmulRowsByCols.matmul_zero_apply dot_S2000x64_S64x32_S2000x32_1_0_0_1_n_n rfl rfl dot9_lhs0 dot9_lhs1 dot9_rhs0 dot9_rhs1]
  rfl

/-! ## A block's entry as an entry of the whole arrays -/

/-- An entry of the stored block is the law's entry, once the x block's row is the table's row, the weight block's
    column the matrix's column, and the bias block's entry the bias's. -/
theorem point9 (X : Tab 50000 64) (W : Tab 64 32) (B : Tab 1 32)
    (x0 : Vec Ideal S2000x64 .f32) (x1 : Vec Ideal S64x32 .f32) (x2 : Vec Ideal S1x32 .f32)
    (y : S2000x32.Idx) (i : S50000x32.Idx)
    (h0 : ∀ k : Fin 64, x0 (ix2 (y 0) k) = X (ix2 (i 0) k))
    (h1 : ∀ k : Fin 64, x1 (ix2 k (y 1)) = W (ix2 k (i 1)))
    (h2 : x2 (ix2 (0 : Fin 1) (y 1)) = B (ix2 (0 : Fin 1) (i 1))) :
    k9_pay1 x0 x1 x2 y = denseRelu X W B i := by
  rw [eq_ix2 y, eq_ix2 i]
  refine (pay9 x0 x1 x2 (y 0) (y 1)).trans (Eq.trans ?_ (denseRelu_ix2 X W B (i 0) (i 1)).symm)
  rw [h2]
  congr 2
  exact Finset.sum_congr rfl fun k _ => by rw [h0 k, h1 k]

/-! ## The windows' blocks over the grid -/

theorem hz9 : (![0, 0] : Fin 2 → Nat) = fun _ => 0 := funext fun a => by fin_cases a <;> rfl

/-- The printed index maps, decided over the 25 points: the x window and the output window sit at row block t, the
    weight and bias windows at block (0, 0). -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What point t writes back is block t of the law of the arrays as the region finds them. -/
theorem flushed9_eq (t : Fin cfg9.N) :
    (dat9 V c).flushed 3 t
      = ((cfg9.win 3).blk t).view.read (Elt Ideal) (denseRelu (V c main_v92) (V c main_v93) (V c main_v94)) := by
  show (cfg9.win 3).cut (grid9.coords t) ((dat9 V c).after 3 t) = _
  rw [after9_3]
  unfold out9_3
  rw [View.canon_unit_zero hz9]
  simp only [View.ld_unit_zero (S := S2000x64) hz9, View.ld_unit_zero (S := S64x32) hz9,
    View.ld_unit_zero (S := S1x32) hz9]
  obtain ⟨e00, e01, e10, e11, e20, e21, e30, e31⟩ := idx_facts9 t
  funext y
  show k9_pay1 (iblk9 V c 0 t) (iblk9 V c 1 t) (iblk9 V c 2 t) y
    = denseRelu (V c main_v92) (V c main_v93) (V c main_v94) (((cfg9.win 3).blk t).view.emb y)
  refine point9 (V c main_v92) (V c main_v93) (V c main_v94) _ _ _ y (((cfg9.win 3).blk t).view.emb y)
    (fun k => ?_) (fun k => ?_) ?_
  · show V c main_v92 (((cfg9.win 0).blk t).view.emb (ix2 (y 0) k)) = _
    congr 1
    funext a
    apply Fin.ext
    match a with
    | ⟨0, _⟩ =>
      show win9_0.index t (0 : Fin 2) * 2000 + 1 * (y 0).val = win9_3.index t (0 : Fin 2) * 2000 + 1 * (y 0).val
      omega
    | ⟨1, _⟩ => show win9_0.index t (1 : Fin 2) * 64 + 1 * k.val = k.val; omega
  · show V c main_v93 (((cfg9.win 1).blk t).view.emb (ix2 k (y 1))) = _
    congr 1
    funext a
    apply Fin.ext
    match a with
    | ⟨0, _⟩ => show win9_1.index t (0 : Fin 2) * 64 + 1 * k.val = k.val; omega
    | ⟨1, _⟩ =>
      show win9_1.index t (1 : Fin 2) * 32 + 1 * (y 1).val = win9_3.index t (1 : Fin 2) * 32 + 1 * (y 1).val
      omega
  · show V c main_v94 (((cfg9.win 2).blk t).view.emb (ix2 (0 : Fin 1) (y 1))) = _
    congr 1
    funext a
    apply Fin.ext
    match a with
    | ⟨0, _⟩ => show win9_2.index t (0 : Fin 2) * 1 + 1 * 0 = 0; omega
    | ⟨1, _⟩ =>
      show win9_2.index t (1 : Fin 2) * 32 + 1 * (y 1).val = win9_3.index t (1 : Fin 2) * 32 + 1 * (y 1).val
      omega

/-! ## The blocks tile the array -/

/-- An index of the output array is in point t's block iff each coordinate is in the block's range on its axis. -/
theorem mem_blk9 (t : Fin cfg9.N) (i : S50000x32.Idx) :
    i ∈ ((cfg9.win 3).blk t).view.set ↔ ∀ a : Fin 2, win9_3.index t a * S2000x32.size a ≤ (i a).val
      ∧ (i a).val < win9_3.index t a * S2000x32.size a + S2000x32.size a := by
  show i ∈ ((View.whole main_v95).slice (win9_3.rect t)).set ↔ _
  rw [View.set_slice_whole, Rect.mem_set_unit]
  exact Iff.rfl

/-- Row r of the output array lies in the block of point r / 2000. -/
theorem cover9 (i : S50000x32.Idx) :
    ∃ t : Fin cfg9.N, (cfg9.win 3).flush t = true ∧ i ∈ ((cfg9.win 3).blk t).view.set := by
  have hi0 : (i 0).val < 50000 := (i 0).isLt
  have hi1 : (i 1).val < 32 := (i 1).isLt
  have hN : cfg9.N = 25 := N_9
  have ht : (i 0).val / 2000 < cfg9.N := by rw [hN]; omega
  obtain ⟨-, -, -, -, -, -, e30, e31⟩ := idx_facts9 ⟨(i 0).val / 2000, ht⟩
  refine ⟨⟨(i 0).val / 2000, ht⟩, flush9_3 _, ?_⟩
  rw [mem_blk9]
  intro a
  match a with
  | ⟨0, _⟩ =>
    show win9_3.index ⟨(i 0).val / 2000, ht⟩ (0 : Fin 2) * 2000 ≤ (i 0).val
      ∧ (i 0).val < win9_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win9_3.index ⟨(i 0).val / 2000, ht⟩ (1 : Fin 2) * 32 ≤ (i 1).val
      ∧ (i 1).val < win9_3.index ⟨(i 0).val / 2000, ht⟩ (1 : Fin 2) * 32 + 32
    rw [e31]
    omega

/-! ## The array after the region -/

/-- The output array ends holding max(x · w + b, 0). -/
theorem final9 : (dat9 V c).arrAt 3 cfg9.N = denseRelu (V c main_v92) (V c main_v93) (V c main_v94) :=
  (dat9 V c).arrAt_eq_of_cover 3 _ (fun t _ => flushed9_eq V c t) cover9

end Cert.KernelIdeal.RegionValue

end
-- ==== Proof.RegionDense10.lean ====
/-
  The perceptron's output layer, an affine map, read off the tiled program.

  The rows of the node table are cut into 25 blocks of 2000. At each block the program multiplies the block's rows by
  the whole 32 × 2 weight matrix (both operands first narrowed, which is the identity on the extended reals), starting
  from the zero accumulator, and adds the one-row bias to every row. A block's row p is the
  table's row 2000·t + p, the weight and bias blocks are the whole arrays, and the 25 blocks tile the 50000 rows, so the
  output array ends holding x · w + b entry by entry.
-/
import proofs.«138375_j82231443849542_2_alg».proof.Proof.Gen.KernelIdeal.Frame
import proofs.«138375_j82231443849542_2_alg».proof.Proof.GraphNet
import proofs.«138375_j82231443849542_2_alg».proof.Proof.LibMatmulRowsByCols
import proofs.«138375_j82231443849542_2_alg».proof.Proof.LibOneRowMatrix
import Idealize.ShloMosaic.Lib.Pipeline.Value
import Idealize.ShloMosaic.Lib.ValueIdx

noncomputable section

namespace Cert.KernelIdeal.RegionValue

open Idealize.ShloMosaic Idealize.ShloMosaic.TcCoe Idealize.SL.Sem Cert.KernelIdeal Cert.KernelIdeal.Gen Cert.GraphNet
open Idealize.ShloMosaic.ValueIdx
open Idealize.ShloMosaic.Pipeline (Dat)

variable (V : (c : Dev nD) → (b : Ref sig .tc) → Buf (Elt Ideal) ((c : Thread nD τ).loc b)) (c : Dev nD)

/-! ## The block's arithmetic -/

/-- The block product contracts one axis, of extent 32: the left operand is read at (row, k), the right at (k, column). -/
theorem dot10_lhs0 (i : S2000x2.Idx) (q : dot_S2000x32_S32x2_S2000x2_1_0_0_1_n_n.contr.Idx) :
    (dot_S2000x32_S32x2_S2000x2_1_0_0_1_n_n.lhsIdx i q 0).val = (i 0).val := by
  unfold DotDims.lhsIdx
  rw [dif_neg (show ¬(0 : Fin S2000x32.rank) ∈ dot_S2000x32_S32x2_S2000x2_1_0_0_1_n_n.lhsBatch by decide),
    dif_pos (show (0 : Fin S2000x32.rank) ∈ dot_S2000x32_S32x2_S2000x2_1_0_0_1_n_n.lhsNonContracting by decide)]
  rfl
theorem dot10_lhs1 (i : S2000x2.Idx) (q : dot_S2000x32_S32x2_S2000x2_1_0_0_1_n_n.contr.Idx) :
    (dot_S2000x32_S32x2_S2000x2_1_0_0_1_n_n.lhsIdx i q 1).val = (q ⟨0, by decide⟩).val :=
  dot_S2000x32_S32x2_S2000x2_1_0_0_1_n_n.lhsIdx_val_of_single rfl i q
theorem dot10_rhs0 (i : S2000x2.Idx) (q : dot_S2000x32_S32x2_S2000x2_1_0_0_1_n_n.contr.Idx) :
    (dot_S2000x32_S32x2_S2000x2_1_0_0_1_n_n.rhsIdx i q 0).val = (q ⟨0, by decide⟩).val :=
  dot_S2000x32_S32x2_S2000x2_1_0_0_1_n_n.rhsIdx_val_of_single rfl i q
theorem dot10_rhs1 (i : S2000x2.Idx) (q : dot_S2000x32_S32x2_S2000x2_1_0_0_1_n_n.contr.Idx) :
    (dot_S2000x32_S32x2_S2000x2_1_0_0_1_n_n.rhsIdx i q 1).val = (i 1).val := by
  unfold DotDims.rhsIdx
  rw [dif_neg (show ¬(1 : Fin S32x2.rank) ∈ dot_S2000x32_S32x2_S2000x2_1_0_0_1_n_n.rhsBatch by decide),
    dif_pos (show (1 : Fin S32x2.rank) ∈ dot_S2000x32_S32x2_S2000x2_1_0_0_1_n_n.rhsNonContracting by decide)]
  rfl

/-- What the body stores, at row p and column q of the block: the row of the x block times the column of the weight
    block, plus the bias at q. -/
theorem pay10 (x0 : Vec Ideal S2000x32 .f32) (x1 : Vec Ideal S32x2 .f32) (x2 : Vec Ideal S1x2 .f32)
    (p : Fin 2000) (q : Fin 2) :
    k10_pay1 x0 x1 x2 (ix2 p q) = (∑ k : Fin 32, x0 (ix2 p k) * x1 (ix2 k q)) + x2 (ix2 (0 : Fin 1) q) := by
  unfold k10_pay1
  simp only [shapeCast_self]
  rw [addf_apply, OneRowMatrix.broadcast_row_apply,
    MatmulRowsByCols.matmul_zero_apply dot_S2000x32_S32x2_S2000x2_1_0_0_1_n_n rfl rfl dot10_lhs0 dot10_lhs1 dot10_rhs0 dot10_rhs1]
  rfl

/-! ## A block's entry as an entry of the whole arrays -/

/-- An entry of the stored block is the law's entry, once the x block's row is the table's row, the weight block's
    column the matrix's column, and the bias block's entry the bias's. -/
theorem point10 (X : Tab 50000 32) (W : Tab 32 2) (B : Tab 1 2)
    (x0 : Vec Ideal S2000x32 .f32) (x1 : Vec Ideal S32x2 .f32) (x2 : Vec Ideal S1x2 .f32)
    (y : S2000x2.Idx) (i : S50000x2.Idx)
    (h0 : ∀ k : Fin 32, x0 (ix2 (y 0) k) = X (ix2 (i 0) k))
    (h1 : ∀ k : Fin 32, x1 (ix2 k (y 1)) = W (ix2 k (i 1)))
    (h2 : x2 (ix2 (0 : Fin 1) (y 1)) = B (ix2 (0 : Fin 1) (i 1))) :
    k10_pay1 x0 x1 x2 y = dense X W B i := by
  rw [eq_ix2 y, eq_ix2 i]
  refine (pay10 x0 x1 x2 (y 0) (y 1)).trans (Eq.trans ?_ (dense_ix2 X W B (i 0) (i 1)).symm)
  rw [h2]
  congr 1
  exact Finset.sum_congr rfl fun k _ => by rw [h0 k, h1 k]

/-! ## The windows' blocks over the grid -/

theorem hz10 : (![0, 0] : Fin 2 → Nat) = fun _ => 0 := funext fun a => by fin_cases a <;> rfl

/-- The printed index maps, decided over the 25 points: the x window and the output window sit at row block t, the
    weight and bias windows at block (0, 0). -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- What point t writes back is block t of the law of the arrays as the region finds them. -/
theorem flushed10_eq (t : Fin cfg10.N) :
    (dat10 V c).flushed 3 t
      = ((cfg10.win 3).blk t).view.read (Elt Ideal) (dense (V c main_v95) (V c main_v96) (V c main_v97)) := by
  show (cfg10.win 3).cut (grid10.coords t) ((dat10 V c).after 3 t) = _
  rw [after10_3]
  unfold out10_3
  rw [View.canon_unit_zero hz10]
  simp only [View.ld_unit_zero (S := S2000x32) hz10, View.ld_unit_zero (S := S32x2) hz10,
    View.ld_unit_zero (S := S1x2) hz10]
  obtain ⟨e00, e01, e10, e11, e20, e21, e30, e31⟩ := idx_facts10 t
  funext y
  show k10_pay1 (iblk10 V c 0 t) (iblk10 V c 1 t) (iblk10 V c 2 t) y
    = dense (V c main_v95) (V c main_v96) (V c main_v97) (((cfg10.win 3).blk t).view.emb y)
  refine point10 (V c main_v95) (V c main_v96) (V c main_v97) _ _ _ y (((cfg10.win 3).blk t).view.emb y)
    (fun k => ?_) (fun k => ?_) ?_
  · show V c main_v95 (((cfg10.win 0).blk t).view.emb (ix2 (y 0) k)) = _
    congr 1
    funext a
    apply Fin.ext
    match a with
    | ⟨0, _⟩ =>
      show win10_0.index t (0 : Fin 2) * 2000 + 1 * (y 0).val = win10_3.index t (0 : Fin 2) * 2000 + 1 * (y 0).val
      omega
    | ⟨1, _⟩ => show win10_0.index t (1 : Fin 2) * 32 + 1 * k.val = k.val; omega
  · show V c main_v96 (((cfg10.win 1).blk t).view.emb (ix2 k (y 1))) = _
    congr 1
    funext a
    apply Fin.ext
    match a with
    | ⟨0, _⟩ => show win10_1.index t (0 : Fin 2) * 32 + 1 * k.val = k.val; omega
    | ⟨1, _⟩ =>
      show win10_1.index t (1 : Fin 2) * 2 + 1 * (y 1).val = win10_3.index t (1 : Fin 2) * 2 + 1 * (y 1).val
      omega
  · show V c main_v97 (((cfg10.win 2).blk t).view.emb (ix2 (0 : Fin 1) (y 1))) = _
    congr 1
    funext a
    apply Fin.ext
    match a with
    | ⟨0, _⟩ => show win10_2.index t (0 : Fin 2) * 1 + 1 * 0 = 0; omega
    | ⟨1, _⟩ =>
      show win10_2.index t (1 : Fin 2) * 2 + 1 * (y 1).val = win10_3.index t (1 : Fin 2) * 2 + 1 * (y 1).val
      omega

/-! ## The blocks tile the array -/

/-- An index of the output array is in point t's block iff each coordinate is in the block's range on its axis. -/
theorem mem_blk10 (t : Fin cfg10.N) (i : S50000x2.Idx) :
    i ∈ ((cfg10.win 3).blk t).view.set ↔ ∀ a : Fin 2, win10_3.index t a * S2000x2.size a ≤ (i a).val
      ∧ (i a).val < win10_3.index t a * S2000x2.size a + S2000x2.size a := by
  show i ∈ ((View.whole main_v98).slice (win10_3.rect t)).set ↔ _
  rw [View.set_slice_whole, Rect.mem_set_unit]
  exact Iff.rfl

/-- Row r of the output array lies in the block of point r / 2000. -/
theorem cover10 (i : S50000x2.Idx) :
    ∃ t : Fin cfg10.N, (cfg10.win 3).flush t = true ∧ i ∈ ((cfg10.win 3).blk t).view.set := by
  have hi0 : (i 0).val < 50000 := (i 0).isLt
  have hi1 : (i 1).val < 2 := (i 1).isLt
  have hN : cfg10.N = 25 := N_10
  have ht : (i 0).val / 2000 < cfg10.N := by rw [hN]; omega
  obtain ⟨-, -, -, -, -, -, e30, e31⟩ := idx_facts10 ⟨(i 0).val / 2000, ht⟩
  refine ⟨⟨(i 0).val / 2000, ht⟩, flush10_3 _, ?_⟩
  rw [mem_blk10]
  intro a
  match a with
  | ⟨0, _⟩ =>
    show win10_3.index ⟨(i 0).val / 2000, ht⟩ (0 : Fin 2) * 2000 ≤ (i 0).val
      ∧ (i 0).val < win10_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win10_3.index ⟨(i 0).val / 2000, ht⟩ (1 : Fin 2) * 2 ≤ (i 1).val
      ∧ (i 1).val < win10_3.index ⟨(i 0).val / 2000, ht⟩ (1 : Fin 2) * 2 + 2
    rw [e31]
    omega

/-! ## The array after the region -/

/-- The output array ends holding x · w + b. -/
theorem final10 : (dat10 V c).arrAt 3 cfg10.N = dense (V c main_v95) (V c main_v96) (V c main_v97) :=
  (dat10 V c).arrAt_eq_of_cover 3 _ (fun t _ => flushed10_eq V c t) cover10

end Cert.KernelIdeal.RegionValue

end
-- ==== Proof.LibTypedRefs.lean ====
/-
  The typed references of an outlined host function.

  A long line of host operations is best read segment by segment (the library's `StableHlo.after_append`), each segment
  from ANY contents it starts from (a variable), which keeps every term small: a buffer the segment does not write
  keeps its contents, and the segment's result is its operations applied to the contents of the buffers it reads. A
  segment that is an outlined function's body needs one thing more:

  * The operations of an outlined function (`TRef.unary`, `TRef.binary`, …) read a buffer's contents at the type of the
    tensor value it holds (`ofBuf`) and write results back at the buffer's own type (`toBuf`). The two types are equal
    by an equation that holds by computation on a literal reference, so both are transports along it: reading what was
    written is the identity (`ofBuf_toBuf`), writing what was read is the identity (`toBuf_ofBuf`), and a write holds
    the value, a read the contents (`toBuf_heq`, `ofBuf_heq`: heterogeneous equations, the two sides' types being equal
    only by computation). With these a fold through an outlined function's operations loses its transports by
    REWRITING: restate each buffer read from outside as a write of its value (`h' : U b = x.toBuf v := h`, one transport,
    which unfolds at once), let `simp only [h', …, ofBuf_toBuf]` cancel every read against a write, and close the one
    write left at the result by `exact eq_of_heq (toBuf_heq _ _)`. Stated at the extended reals, the instance the
    value claims are read at. Imports only the library.
-/
import Idealize.ShloMosaic.Lib.StableHlo.Run
import Idealize.ShloMosaic.PureOps.Ideal

namespace Idealize.ShloMosaic.TypedRefs

open Idealize.ShloMosaic Idealize.ShloMosaic.StableHlo

variable {sig : RefSig}

/-- Reading at the value's type what was just written is the identity. -/
theorem ofBuf_toBuf {T : BufTy} (x : TRef sig T) (v : T.Contents (Elt Ideal)) : x.ofBuf (x.toBuf v) = v := by
  obtain ⟨r, h, h2, h3⟩ := x
  subst h
  rfl

/-- Writing back what was just read is the identity. -/
theorem toBuf_ofBuf {T : BufTy} (x : TRef sig T) (v : x.ref.ty.Contents (Elt Ideal)) : x.toBuf (x.ofBuf v) = v := by
  obtain ⟨r, h, h2, h3⟩ := x
  subst h
  rfl

/-- What is written is the value. -/
theorem toBuf_heq {T : BufTy} (x : TRef sig T) (v : T.Contents (Elt Ideal)) : HEq (x.toBuf v) v := by
  obtain ⟨r, h, h2, h3⟩ := x
  subst h
  rfl

/-- What is read is the contents. -/
theorem ofBuf_heq {T : BufTy} (x : TRef sig T) (v : x.ref.ty.Contents (Elt Ideal)) : HEq (x.ofBuf v) v := by
  obtain ⟨r, h, h2, h3⟩ := x
  subst h
  rfl

end Idealize.ShloMosaic.TypedRefs
-- ==== Proof.Chain.lean ====
/-
  The fold of the program's segments, read at the buffers that matter.

  From the first region's entry on, each segment is read once: a host line at the buffers it computes, as the host's
  operations of what the line found; a region at its output array, as the entry-wise law of its kernel (the three
  kinds of region module) of what the region found. Threading these through the three layers and the perceptron, the
  last region's output array is the network function of the launched arguments.
-/
import proofs.«138375_j82231443849542_2_alg».proof.Proof.Carried
import proofs.«138375_j82231443849542_2_alg».proof.Proof.KernelNet
import proofs.«138375_j82231443849542_2_alg».proof.Proof.RegionDense0
import proofs.«138375_j82231443849542_2_alg».proof.Proof.RegionMessage1
import proofs.«138375_j82231443849542_2_alg».proof.Proof.RegionAffine2
import proofs.«138375_j82231443849542_2_alg».proof.Proof.RegionDense3
import proofs.«138375_j82231443849542_2_alg».proof.Proof.RegionMessage4
import proofs.«138375_j82231443849542_2_alg».proof.Proof.RegionAffine5
import proofs.«138375_j82231443849542_2_alg».proof.Proof.RegionDense6
import proofs.«138375_j82231443849542_2_alg».proof.Proof.RegionMessage7
import proofs.«138375_j82231443849542_2_alg».proof.Proof.RegionAffine8
import proofs.«138375_j82231443849542_2_alg».proof.Proof.RegionDense9
import proofs.«138375_j82231443849542_2_alg».proof.Proof.RegionDense10
import proofs.«138375_j82231443849542_2_alg».proof.Proof.LibTypedRefs
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.GraphNet

variable (m : (ℓ : Loc nD τ sig) → Buf (Elt Ideal) ℓ) (ρ : Dev nD → PrngReg) (c : Dev nD)

/-- Core `c`'s launched contents of a buffer. -/
abbrev argAt (b : Ref sig .tc) : Buf (Elt Ideal) ((c : Thread nD τ).loc b) := m ((c : Thread nD τ).loc b)

/-- The node table after the first, second and third layer. -/
def node1 : Net.FArr S50000x64 := Net.layer (argAt m c main_arg1) (argAt m c main_arg2) (argAt m c main_arg0) (transpose S128x64 [1, 0] (argAt m c main_arg3) transposes_S64x128_S128x64_1_0) (argAt m c main_arg4) (argAt m c main_arg5) (argAt m c main_arg6)
def node2 : Net.FArr S50000x64 := Net.layer (argAt m c main_arg1) (argAt m c main_arg2) (node1 m c) (transpose S64x64 [1, 0] (argAt m c main_arg7) transposes_S64x64_S64x64_1_0) (argAt m c main_arg8) (argAt m c main_arg9) (argAt m c main_arg10)
def node3 : Net.FArr S50000x64 := Net.layer (argAt m c main_arg1) (argAt m c main_arg2) (node2 m c) (transpose S64x64 [1, 0] (argAt m c main_arg11) transposes_S64x64_S64x64_1_0) (argAt m c main_arg12) (argAt m c main_arg13) (argAt m c main_arg14)

/-! ## Before the first region: the edge arrays, the first weight transposed, the zero bias

The five host lines before the first region are read one after the other: the degree and where it is positive, the
degree made safe for the square root, the inverse square root, its guarded form, and last the edge scale. -/

theorem w1_src : W1 m ρ c (Proc.devRef .tc main_v1) = Net.src (argAt m c main_arg1) := by
  show StableHlo.after hostOps0 (W0 m ρ c) _ = _
  after_results <;> rfl
theorem w1_dst : W1 m ρ c (Proc.devRef .tc main_v3) = Net.dst (argAt m c main_arg1) := by
  show StableHlo.after hostOps0 (W0 m ρ c) _ = _
  after_results <;> rfl
theorem w1_deg : W1 m ρ c (Proc.devRef .tc main_v8) = Net.deg (argAt m c main_arg1) (argAt m c main_arg2) := by
  show StableHlo.after hostOps0 (W0 m ρ c) _ = _
  after_results <;> rfl
theorem w1_pos : W1 m ρ c (Proc.devRef .tc main_v10) = cmpf .ogt (Net.deg (argAt m c main_arg1) (argAt m c main_arg2)) Net.zeroNodes := by
  show StableHlo.after hostOps0 (W0 m ρ c) _ = _
  after_results <;> rfl
theorem w1_one : W1 m ρ c (Proc.devRef .tc main_cst_1) = constant (F := Ideal) S_ .f32 0x3F800000#32 := by
  show StableHlo.after hostOps0 (W0 m ρ c) _ = _
  after_results <;> rfl

theorem w2_src : W2 m ρ c (Proc.devRef .tc main_v1) = Net.src (argAt m c main_arg1) := by
  show StableHlo.after hostOps0_1 (W1 m ρ c) _ = _
  generalize hV : W1 m ρ c = V
  after_results
  subst hV
  exact w1_src m ρ c
theorem w2_dst : W2 m ρ c (Proc.devRef .tc main_v3) = Net.dst (argAt m c main_arg1) := by
  show StableHlo.after hostOps0_1 (W1 m ρ c) _ = _
  generalize hV : W1 m ρ c = V
  after_results
  subst hV
  exact w1_dst m ρ c
theorem w2_deg : W2 m ρ c (Proc.devRef .tc main_v8) = Net.deg (argAt m c main_arg1) (argAt m c main_arg2) := by
  show StableHlo.after hostOps0_1 (W1 m ρ c) _ = _
  generalize hV : W1 m ρ c = V
  after_results
  subst hV
  exact w1_deg m ρ c
/-- The degree, or one where it is not positive. -/
theorem w2_safe : W2 m ρ c (Proc.devRef .tc main_v11)
    = select (cmpf .ogt (Net.deg (argAt m c main_arg1) (argAt m c main_arg2)) Net.zeroNodes) (Net.deg (argAt m c main_arg1) (argAt m c main_arg2)) Net.oneNodes := by
  show StableHlo.after hostOps0_1 (W1 m ρ c) _ = _
  generalize hV : W1 m ρ c = V
  after_results
  subst hV
  have h10 : W1 m ρ c (Proc.devRef .tc main_v10) = (StableHlo.TRef.of main_v10 : StableHlo.TRef sig ⟨S50000, .i1⟩).toBuf (cmpf .ogt (Net.deg (argAt m c main_arg1) (argAt m c main_arg2)) Net.zeroNodes) := w1_pos m ρ c
  have h8 : W1 m ρ c (Proc.devRef .tc main_v8) = (StableHlo.TRef.of main_v8 : StableHlo.TRef sig ⟨S50000, .f32⟩).toBuf (Net.deg (argAt m c main_arg1) (argAt m c main_arg2)) := w1_deg m ρ c
  have h1 : W1 m ρ c (Proc.devRef .tc main_cst_1) = (StableHlo.TRef.of main_cst_1 : StableHlo.TRef sig ⟨S_, .f32⟩).toBuf (constant (F := Ideal) S_ .f32 0x3F800000#32) := w1_one m ρ c
  simp only [h10, h8, h1, TypedRefs.ofBuf_toBuf, id]
  exact eq_of_heq (TypedRefs.toBuf_heq _ _)

theorem w3_src : W3 m ρ c (Proc.devRef .tc main_v1) = Net.src (argAt m c main_arg1) := by
  show StableHlo.after hostOps0_2 (W2 m ρ c) _ = _
  generalize hV : W2 m ρ c = V
  after_results
  subst hV
  exact w2_src m ρ c
theorem w3_dst : W3 m ρ c (Proc.devRef .tc main_v3) = Net.dst (argAt m c main_arg1) := by
  show StableHlo.after hostOps0_2 (W2 m ρ c) _ = _
  generalize hV : W2 m ρ c = V
  after_results
  subst hV
  exact w2_dst m ρ c
theorem w3_pos : W3 m ρ c (Proc.devRef .tc main_v13) = cmpf .ogt (Net.deg (argAt m c main_arg1) (argAt m c main_arg2)) Net.zeroNodes := by
  show StableHlo.after hostOps0_2 (W2 m ρ c) _ = _
  generalize hV : W2 m ρ c = V
  after_results
  subst hV
  rw [w2_deg m ρ c] <;> rfl
theorem w3_inv : W3 m ρ c (Proc.devRef .tc main_v16)
    = Host.divf Net.oneNodes (Host.sqrt (select (cmpf .ogt (Net.deg (argAt m c main_arg1) (argAt m c main_arg2)) Net.zeroNodes) (Net.deg (argAt m c main_arg1) (argAt m c main_arg2)) Net.oneNodes)) := by
  show StableHlo.after hostOps0_2 (W2 m ρ c) _ = _
  generalize hV : W2 m ρ c = V
  after_results
  subst hV
  rw [w2_safe m ρ c] <;> rfl
theorem w3_zero : W3 m ρ c (Proc.devRef .tc main_cst_4) = constant (F := Ideal) S_ .f32 0x00000000#32 := by
  show StableHlo.after hostOps0_2 (W2 m ρ c) _ = _
  generalize hV : W2 m ρ c = V
  after_results

theorem w4_src : W4 m ρ c (Proc.devRef .tc main_v1) = Net.src (argAt m c main_arg1) := by
  show StableHlo.after hostOps0_3 (W3 m ρ c) _ = _
  generalize hV : W3 m ρ c = V
  after_results
  subst hV
  exact w3_src m ρ c
theorem w4_dst : W4 m ρ c (Proc.devRef .tc main_v3) = Net.dst (argAt m c main_arg1) := by
  show StableHlo.after hostOps0_3 (W3 m ρ c) _ = _
  generalize hV : W3 m ρ c = V
  after_results
  subst hV
  exact w3_dst m ρ c
/-- deg^(-1/2), zero where the degree is not positive. -/
theorem w4_inv : W4 m ρ c (Proc.devRef .tc main_v17) = Net.invSqrtDeg (argAt m c main_arg1) (argAt m c main_arg2) := by
  show StableHlo.after hostOps0_3 (W3 m ρ c) _ = _
  generalize hV : W3 m ρ c = V
  after_results
  subst hV
  have h13 : W3 m ρ c (Proc.devRef .tc main_v13) = (StableHlo.TRef.of main_v13 : StableHlo.TRef sig ⟨S50000, .i1⟩).toBuf (cmpf .ogt (Net.deg (argAt m c main_arg1) (argAt m c main_arg2)) Net.zeroNodes) := w3_pos m ρ c
  have h16 : W3 m ρ c (Proc.devRef .tc main_v16) = (StableHlo.TRef.of main_v16 : StableHlo.TRef sig ⟨S50000, .f32⟩).toBuf (Host.divf Net.oneNodes (Host.sqrt (select (cmpf .ogt (Net.deg (argAt m c main_arg1) (argAt m c main_arg2)) Net.zeroNodes) (Net.deg (argAt m c main_arg1) (argAt m c main_arg2)) Net.oneNodes))) := w3_inv m ρ c
  have h4 : W3 m ρ c (Proc.devRef .tc main_cst_4) = (StableHlo.TRef.of main_cst_4 : StableHlo.TRef sig ⟨S_, .f32⟩).toBuf (constant (F := Ideal) S_ .f32 0x00000000#32) := w3_zero m ρ c
  simp only [h13, h16, h4, TypedRefs.ofBuf_toBuf, id]
  exact eq_of_heq (TypedRefs.toBuf_heq _ _)

theorem entry_src : W5 m ρ c (Proc.devRef .tc main_v1) = Net.src (argAt m c main_arg1) := by
  show StableHlo.after hostOps0_4 (W4 m ρ c) _ = _
  generalize hV : W4 m ρ c = V
  after_results
  subst hV
  exact w4_src m ρ c
theorem entry_dst : W5 m ρ c (Proc.devRef .tc main_v3) = Net.dst (argAt m c main_arg1) := by
  show StableHlo.after hostOps0_4 (W4 m ρ c) _ = _
  generalize hV : W4 m ρ c = V
  after_results
  subst hV
  exact w4_dst m ρ c
theorem entry_scale : W5 m ρ c (Proc.devRef .tc main_v35) = Net.edgeScale (argAt m c main_arg1) (argAt m c main_arg2) := by
  show StableHlo.after hostOps0_4 (W4 m ρ c) _ = _
  generalize hV : W4 m ρ c = V
  after_results_simp
  subst hV
  rw [w4_inv m ρ c, w4_src m ρ c, w4_dst m ρ c, ((args_W4 m ρ c main_arg2 (by decide)).trans ((args_W3 m ρ c main_arg2 (by decide)).trans ((args_W2 m ρ c main_arg2 (by decide)).trans ((args_W1 m ρ c main_arg2 (by decide)).trans rfl))))]
  unfold Net.edgeScale Net.wrapCol Net.weight
  rfl
theorem entry_weight : W5 m ρ c (Proc.devRef .tc main_v36) = transpose S128x64 [1, 0] (argAt m c main_arg3) transposes_S64x128_S128x64_1_0 := by
  show StableHlo.after hostOps0_4 (W4 m ρ c) _ = _
  generalize hV : W4 m ρ c = V
  after_results
  subst hV
  rw [((args_W4 m ρ c main_arg3 (by decide)).trans ((args_W3 m ρ c main_arg3 (by decide)).trans ((args_W2 m ρ c main_arg3 (by decide)).trans ((args_W1 m ρ c main_arg3 (by decide)).trans rfl))))]
theorem entry_zero : W5 m ρ c (Proc.devRef .tc main_v38) = Net.zeroRow := by
  show StableHlo.after hostOps0_4 (W4 m ρ c) _ = _
  generalize hV : W4 m ρ c = V
  after_results
  subst hV
  rfl

/-! ## Layer 1 -/

/-- The layer's affine map of the node table (zero bias). -/
theorem projected1 : W6 m ρ c (Proc.devRef .tc main_v39) = dense (argAt m c main_arg0) (transpose S128x64 [1, 0] (argAt m c main_arg3) transposes_S64x128_S128x64_1_0) Net.zeroRow := by
  rw [W6_arr m ρ c 3, RegionValue.final0 (V5 m ρ) c]
  show dense (W5 m ρ c (Proc.devRef .tc main_arg0)) (W5 m ρ c (Proc.devRef .tc main_v36)) (W5 m ρ c (Proc.devRef .tc main_v38)) = _
  rw [args_entry m ρ c main_arg0 (by decide), entry_weight m ρ c, entry_zero m ρ c]
/-- Its rows gathered at the edges' sources. -/
theorem gathered1 : W7 m ρ c (Proc.devRef .tc main_v46) = Net.atSources (argAt m c main_arg1) (dense (argAt m c main_arg0) (transpose S128x64 [1, 0] (argAt m c main_arg3) transposes_S64x128_S128x64_1_0) Net.zeroRow) := by
  show StableHlo.after hostOps1 (W6 m ρ c) _ = _
  after_results
  rw [projected1 m ρ c, (carried_W6 m ρ c main_v1 (by decide)).trans (entry_src m ρ c)] <;> rfl
/-- Each gathered row scaled by its edge's scale. -/
theorem scaled1 : W8 m ρ c (Proc.devRef .tc main_v47)
    = message (Net.edgeScale (argAt m c main_arg1) (argAt m c main_arg2)) (Net.atSources (argAt m c main_arg1) (dense (argAt m c main_arg0) (transpose S128x64 [1, 0] (argAt m c main_arg3) transposes_S64x128_S128x64_1_0) Net.zeroRow)) := by
  rw [W8_arr m ρ c 2, RegionValue.final1 (V7 m ρ) c]
  show message (W7 m ρ c (Proc.devRef .tc main_v35)) (W7 m ρ c (Proc.devRef .tc main_v46)) = _
  rw [(carried_W7 m ρ c main_v35 (by decide)).trans (entry_scale m ρ c), gathered1 m ρ c]
/-- The scaled rows summed into the edges' targets; the three rows of the normalisation. -/
theorem summed1 : W9 m ρ c (Proc.devRef .tc main_v50)
    = Net.intoTargets (argAt m c main_arg1) (message (Net.edgeScale (argAt m c main_arg1) (argAt m c main_arg2)) (Net.atSources (argAt m c main_arg1) (dense (argAt m c main_arg0) (transpose S128x64 [1, 0] (argAt m c main_arg3) transposes_S64x128_S128x64_1_0) Net.zeroRow))) := by
  show StableHlo.after hostOps2 (W8 m ρ c) _ = _
  after_results
  rw [scaled1 m ρ c, (carried_W8 m ρ c main_v3 (by decide)).trans (entry_dst m ρ c)] <;> rfl
theorem bias1 : W9 m ρ c (Proc.devRef .tc main_v51) = Net.row64 (argAt m c main_arg4) := by
  show StableHlo.after hostOps2 (W8 m ρ c) _ = _
  after_results
  rw [((carried_W8 m ρ c main_arg4 (by decide)).trans (args_entry m ρ c main_arg4 (by decide)))] <;> rfl
theorem gain1 : W9 m ρ c (Proc.devRef .tc main_v52) = Net.row64 (argAt m c main_arg5) := by
  show StableHlo.after hostOps2 (W8 m ρ c) _ = _
  after_results
  rw [((carried_W8 m ρ c main_arg5 (by decide)).trans (args_entry m ρ c main_arg5 (by decide)))] <;> rfl
theorem offset1 : W9 m ρ c (Proc.devRef .tc main_v53) = Net.row64 (argAt m c main_arg6) := by
  show StableHlo.after hostOps2 (W8 m ρ c) _ = _
  after_results
  rw [((carried_W8 m ρ c main_arg6 (by decide)).trans (args_entry m ρ c main_arg6 (by decide)))] <;> rfl
/-- The layer's output: the normalisation of the sum. -/
theorem normalised1 : W10 m ρ c (Proc.devRef .tc main_v54) = node1 m c := by
  rw [W10_arr m ρ c 4, RegionValue.final2 (V9 m ρ) c]
  show affineRelu (W9 m ρ c (Proc.devRef .tc main_v50)) (W9 m ρ c (Proc.devRef .tc main_v51)) (W9 m ρ c (Proc.devRef .tc main_v52)) (W9 m ρ c (Proc.devRef .tc main_v53)) = _
  rw [summed1 m ρ c, bias1 m ρ c, gain1 m ρ c, offset1 m ρ c] <;> rfl

/-! ## Layer 2 -/

theorem weight2 : W11 m ρ c (Proc.devRef .tc main_v55) = transpose S64x64 [1, 0] (argAt m c main_arg7) transposes_S64x64_S64x64_1_0 := by
  show StableHlo.after hostOps3 (W10 m ρ c) _ = _
  after_results
  rw [((carried_W10 m ρ c main_arg7 (by decide)).trans (args_entry m ρ c main_arg7 (by decide)))]
theorem zero2 : W11 m ρ c (Proc.devRef .tc main_v57) = Net.zeroRow := by
  show StableHlo.after hostOps3 (W10 m ρ c) _ = _
  after_results <;> rfl
theorem table2 : W11 m ρ c (Proc.devRef .tc main_v54) = node1 m c := by
  show StableHlo.after hostOps3 (W10 m ρ c) _ = _
  after_results
  exact normalised1 m ρ c
/-- The layer's affine map of the node table (zero bias). -/
theorem projected2 : W12 m ρ c (Proc.devRef .tc main_v58) = dense (node1 m c) (transpose S64x64 [1, 0] (argAt m c main_arg7) transposes_S64x64_S64x64_1_0) Net.zeroRow := by
  rw [W12_arr m ρ c 3, RegionValue.final3 (V11 m ρ) c]
  show dense (W11 m ρ c (Proc.devRef .tc main_v54)) (W11 m ρ c (Proc.devRef .tc main_v55)) (W11 m ρ c (Proc.devRef .tc main_v57)) = _
  rw [table2 m ρ c, weight2 m ρ c, zero2 m ρ c]
/-- Its rows gathered at the edges' sources. -/
theorem gathered2 : W13 m ρ c (Proc.devRef .tc main_v65) = Net.atSources (argAt m c main_arg1) (dense (node1 m c) (transpose S64x64 [1, 0] (argAt m c main_arg7) transposes_S64x64_S64x64_1_0) Net.zeroRow) := by
  show StableHlo.after hostOps4 (W12 m ρ c) _ = _
  after_results
  rw [projected2 m ρ c, (carried_W12 m ρ c main_v1 (by decide)).trans (entry_src m ρ c)] <;> rfl
/-- Each gathered row scaled by its edge's scale. -/
theorem scaled2 : W14 m ρ c (Proc.devRef .tc main_v66)
    = message (Net.edgeScale (argAt m c main_arg1) (argAt m c main_arg2)) (Net.atSources (argAt m c main_arg1) (dense (node1 m c) (transpose S64x64 [1, 0] (argAt m c main_arg7) transposes_S64x64_S64x64_1_0) Net.zeroRow)) := by
  rw [W14_arr m ρ c 2, RegionValue.final4 (V13 m ρ) c]
  show message (W13 m ρ c (Proc.devRef .tc main_v35)) (W13 m ρ c (Proc.devRef .tc main_v65)) = _
  rw [(carried_W13 m ρ c main_v35 (by decide)).trans (entry_scale m ρ c), gathered2 m ρ c]
/-- The scaled rows summed into the edges' targets; the three rows of the normalisation. -/
theorem summed2 : W15 m ρ c (Proc.devRef .tc main_v69)
    = Net.intoTargets (argAt m c main_arg1) (message (Net.edgeScale (argAt m c main_arg1) (argAt m c main_arg2)) (Net.atSources (argAt m c main_arg1) (dense (node1 m c) (transpose S64x64 [1, 0] (argAt m c main_arg7) transposes_S64x64_S64x64_1_0) Net.zeroRow))) := by
  show StableHlo.after hostOps5 (W14 m ρ c) _ = _
  after_results
  rw [scaled2 m ρ c, (carried_W14 m ρ c main_v3 (by decide)).trans (entry_dst m ρ c)] <;> rfl
theorem bias2 : W15 m ρ c (Proc.devRef .tc main_v70) = Net.row64 (argAt m c main_arg8) := by
  show StableHlo.after hostOps5 (W14 m ρ c) _ = _
  after_results
  rw [((carried_W14 m ρ c main_arg8 (by decide)).trans (args_entry m ρ c main_arg8 (by decide)))] <;> rfl
theorem gain2 : W15 m ρ c (Proc.devRef .tc main_v71) = Net.row64 (argAt m c main_arg9) := by
  show StableHlo.after hostOps5 (W14 m ρ c) _ = _
  after_results
  rw [((carried_W14 m ρ c main_arg9 (by decide)).trans (args_entry m ρ c main_arg9 (by decide)))] <;> rfl
theorem offset2 : W15 m ρ c (Proc.devRef .tc main_v72) = Net.row64 (argAt m c main_arg10) := by
  show StableHlo.after hostOps5 (W14 m ρ c) _ = _
  after_results
  rw [((carried_W14 m ρ c main_arg10 (by decide)).trans (args_entry m ρ c main_arg10 (by decide)))] <;> rfl
/-- The layer's output: the normalisation of the sum. -/
theorem normalised2 : W16 m ρ c (Proc.devRef .tc main_v73) = node2 m c := by
  rw [W16_arr m ρ c 4, RegionValue.final5 (V15 m ρ) c]
  show affineRelu (W15 m ρ c (Proc.devRef .tc main_v69)) (W15 m ρ c (Proc.devRef .tc main_v70)) (W15 m ρ c (Proc.devRef .tc main_v71)) (W15 m ρ c (Proc.devRef .tc main_v72)) = _
  rw [summed2 m ρ c, bias2 m ρ c, gain2 m ρ c, offset2 m ρ c] <;> rfl

/-! ## Layer 3 -/

theorem weight3 : W17 m ρ c (Proc.devRef .tc main_v74) = transpose S64x64 [1, 0] (argAt m c main_arg11) transposes_S64x64_S64x64_1_0 := by
  show StableHlo.after hostOps6 (W16 m ρ c) _ = _
  after_results
  rw [((carried_W16 m ρ c main_arg11 (by decide)).trans (args_entry m ρ c main_arg11 (by decide)))]
theorem zero3 : W17 m ρ c (Proc.devRef .tc main_v76) = Net.zeroRow := by
  show StableHlo.after hostOps6 (W16 m ρ c) _ = _
  after_results <;> rfl
theorem table3 : W17 m ρ c (Proc.devRef .tc main_v73) = node2 m c := by
  show StableHlo.after hostOps6 (W16 m ρ c) _ = _
  after_results
  exact normalised2 m ρ c
/-- The layer's affine map of the node table (zero bias). -/
theorem projected3 : W18 m ρ c (Proc.devRef .tc main_v77) = dense (node2 m c) (transpose S64x64 [1, 0] (argAt m c main_arg11) transposes_S64x64_S64x64_1_0) Net.zeroRow := by
  rw [W18_arr m ρ c 3, RegionValue.final6 (V17 m ρ) c]
  show dense (W17 m ρ c (Proc.devRef .tc main_v73)) (W17 m ρ c (Proc.devRef .tc main_v74)) (W17 m ρ c (Proc.devRef .tc main_v76)) = _
  rw [table3 m ρ c, weight3 m ρ c, zero3 m ρ c]
/-- Its rows gathered at the edges' sources. -/
theorem gathered3 : W19 m ρ c (Proc.devRef .tc main_v84) = Net.atSources (argAt m c main_arg1) (dense (node2 m c) (transpose S64x64 [1, 0] (argAt m c main_arg11) transposes_S64x64_S64x64_1_0) Net.zeroRow) := by
  show StableHlo.after hostOps7 (W18 m ρ c) _ = _
  after_results
  rw [projected3 m ρ c, (carried_W18 m ρ c main_v1 (by decide)).trans (entry_src m ρ c)] <;> rfl
/-- Each gathered row scaled by its edge's scale. -/
theorem scaled3 : W20 m ρ c (Proc.devRef .tc main_v85)
    = message (Net.edgeScale (argAt m c main_arg1) (argAt m c main_arg2)) (Net.atSources (argAt m c main_arg1) (dense (node2 m c) (transpose S64x64 [1, 0] (argAt m c main_arg11) transposes_S64x64_S64x64_1_0) Net.zeroRow)) := by
  rw [W20_arr m ρ c 2, RegionValue.final7 (V19 m ρ) c]
  show message (W19 m ρ c (Proc.devRef .tc main_v35)) (W19 m ρ c (Proc.devRef .tc main_v84)) = _
  rw [(carried_W19 m ρ c main_v35 (by decide)).trans (entry_scale m ρ c), gathered3 m ρ c]
/-- The scaled rows summed into the edges' targets; the three rows of the normalisation. -/
theorem summed3 : W21 m ρ c (Proc.devRef .tc main_v88)
    = Net.intoTargets (argAt m c main_arg1) (message (Net.edgeScale (argAt m c main_arg1) (argAt m c main_arg2)) (Net.atSources (argAt m c main_arg1) (dense (node2 m c) (transpose S64x64 [1, 0] (argAt m c main_arg11) transposes_S64x64_S64x64_1_0) Net.zeroRow))) := by
  show StableHlo.after hostOps8 (W20 m ρ c) _ = _
  after_results
  rw [scaled3 m ρ c, (carried_W20 m ρ c main_v3 (by decide)).trans (entry_dst m ρ c)] <;> rfl
theorem bias3 : W21 m ρ c (Proc.devRef .tc main_v89) = Net.row64 (argAt m c main_arg12) := by
  show StableHlo.after hostOps8 (W20 m ρ c) _ = _
  after_results
  rw [((carried_W20 m ρ c main_arg12 (by decide)).trans (args_entry m ρ c main_arg12 (by decide)))] <;> rfl
theorem gain3 : W21 m ρ c (Proc.devRef .tc main_v90) = Net.row64 (argAt m c main_arg13) := by
  show StableHlo.after hostOps8 (W20 m ρ c) _ = _
  after_results
  rw [((carried_W20 m ρ c main_arg13 (by decide)).trans (args_entry m ρ c main_arg13 (by decide)))] <;> rfl
theorem offset3 : W21 m ρ c (Proc.devRef .tc main_v91) = Net.row64 (argAt m c main_arg14) := by
  show StableHlo.after hostOps8 (W20 m ρ c) _ = _
  after_results
  rw [((carried_W20 m ρ c main_arg14 (by decide)).trans (args_entry m ρ c main_arg14 (by decide)))] <;> rfl
/-- The layer's output: the normalisation of the sum. -/
theorem normalised3 : W22 m ρ c (Proc.devRef .tc main_v92) = node3 m c := by
  rw [W22_arr m ρ c 4, RegionValue.final8 (V21 m ρ) c]
  show affineRelu (W21 m ρ c (Proc.devRef .tc main_v88)) (W21 m ρ c (Proc.devRef .tc main_v89)) (W21 m ρ c (Proc.devRef .tc main_v90)) (W21 m ρ c (Proc.devRef .tc main_v91)) = _
  rw [summed3 m ρ c, bias3 m ρ c, gain3 m ρ c, offset3 m ρ c] <;> rfl

/-! ## The perceptron -/

theorem weightP1 : W23 m ρ c (Proc.devRef .tc main_v93) = transpose S64x32 [1, 0] (argAt m c main_arg15) transposes_S32x64_S64x32_1_0 := by
  show StableHlo.after hostOps9 (W22 m ρ c) _ = _
  after_results
  rw [((carried_W22 m ρ c main_arg15 (by decide)).trans (args_entry m ρ c main_arg15 (by decide)))]
theorem biasP1 : W23 m ρ c (Proc.devRef .tc main_v94) = shapeCast S1x32 (argAt m c main_arg16) shapeCasts_S32_S1x32 := by
  show StableHlo.after hostOps9 (W22 m ρ c) _ = _
  after_results
  rw [((carried_W22 m ρ c main_arg16 (by decide)).trans (args_entry m ρ c main_arg16 (by decide)))]
  rfl
theorem tableP1 : W23 m ρ c (Proc.devRef .tc main_v92) = node3 m c := by
  show StableHlo.after hostOps9 (W22 m ρ c) _ = _
  after_results
  exact normalised3 m ρ c
theorem hidden : W24 m ρ c (Proc.devRef .tc main_v95)
    = denseRelu (node3 m c) (transpose S64x32 [1, 0] (argAt m c main_arg15) transposes_S32x64_S64x32_1_0) (shapeCast S1x32 (argAt m c main_arg16) shapeCasts_S32_S1x32) := by
  rw [W24_arr m ρ c 3, RegionValue.final9 (V23 m ρ) c]
  show denseRelu (W23 m ρ c (Proc.devRef .tc main_v92)) (W23 m ρ c (Proc.devRef .tc main_v93)) (W23 m ρ c (Proc.devRef .tc main_v94)) = _
  rw [tableP1 m ρ c, weightP1 m ρ c, biasP1 m ρ c]
theorem weightP2 : W25 m ρ c (Proc.devRef .tc main_v96) = transpose S32x2 [1, 0] (argAt m c main_arg17) transposes_S2x32_S32x2_1_0 := by
  show StableHlo.after hostOps10 (W24 m ρ c) _ = _
  after_results
  rw [((carried_W24 m ρ c main_arg17 (by decide)).trans (args_entry m ρ c main_arg17 (by decide)))]
theorem biasP2 : W25 m ρ c (Proc.devRef .tc main_v97) = shapeCast S1x2 (argAt m c main_arg18) shapeCasts_S2_S1x2 := by
  show StableHlo.after hostOps10 (W24 m ρ c) _ = _
  after_results
  rw [((carried_W24 m ρ c main_arg18 (by decide)).trans (args_entry m ρ c main_arg18 (by decide)))]
  rfl
theorem tableP2 : W25 m ρ c (Proc.devRef .tc main_v95)
    = denseRelu (node3 m c) (transpose S64x32 [1, 0] (argAt m c main_arg15) transposes_S32x64_S64x32_1_0) (shapeCast S1x32 (argAt m c main_arg16) shapeCasts_S32_S1x32) := by
  show StableHlo.after hostOps10 (W24 m ρ c) _ = _
  after_results
  exact hidden m ρ c

/-- THE RESULT: the last region's output array is the network function of the launched arguments. -/
theorem result_value : W26 m ρ c (Proc.devRef .tc main_v98)
    = Net.out (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) := by
  rw [W26_arr m ρ c 3, RegionValue.final10 (V25 m ρ) c]
  show dense (W25 m ρ c (Proc.devRef .tc main_v95)) (W25 m ρ c (Proc.devRef .tc main_v96)) (W25 m ρ c (Proc.devRef .tc main_v97)) = _
  rw [tableP2 m ρ c, weightP2 m ρ c, biasP2 m ρ c] <;> rfl

end Cert.KernelIdeal.Chain

end
-- ==== Proof.LibDotRowsByCols.lean ====
/-
  A host matrix product read at an entry.

  On the extended reals jnp's `dot_general` of an `[M, K]` left operand and a `[K, N]` right operand (the contraction on
  the left's second axis and the right's first, no batch axis) is at entry `(p, q)` the plain sum `∑ₖ l(p, k) · r(k, q)`:
  no rounding, no order of accumulation. The dimension record is kept abstract; what is asked of it is that it contracts
  one axis of extent `K` and reads its operands at `(p, k)` and `(k, q)`, four facts a concrete record gives by
  unfolding. (The host-side companion of the same statement for a `tpu.matmul` into a zero accumulator.) Imports only the
  library.
-/
import Idealize.ShloMosaic.PureOps.Ideal.Laws
import Idealize.ShloMosaic.Lib.ValueIdx

namespace Idealize.ShloMosaic.DotRowsByCols

open Idealize.ShloMosaic Idealize.ShloMosaic.ValueIdx

/-- `Host.dotGeneral D prec l r` at `(p, q)` is `∑ k, l (p, k) * r (k, q)`. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  refine (Ideal.dotGeneral_apply D prec .single l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.DotRowsByCols
-- ==== Proof.ReferenceBridgeTables.lean ====
/-
  The reference's array expressions as the entry-wise laws of a graph-convolution network.

  The reference spells every step of a layer as whole-array operations: a column of edge norms is broadcast across
  the feature axis and multiplied into the gathered rows, then the column of edge weights is broadcast and multiplied
  in; a bias vector is viewed as one row, broadcast down the node axis and added; a product of rows by columns is
  followed by such a bias. Read at an entry (p, q) each of these is one of the laws `message`, `affineRelu`, `dense`,
  `denseRelu`:
  * (n(e) · h(e, f)) · w(e, 0) = (n(e) · w(e, 0)) · h(e, f): multiplication on the extended reals is commutative and
    associative, with no finiteness asked;
  * ∑ₖ x(p, k) · w(k, q) = ∑ₖ x(p, k) · w(k, q) + 0 for a bias row of zeros;
  * a vector viewed as one row by a reshape or by a broadcast along a new leading axis has the same entries.
  Extents are arbitrary; the gathers and the sums over edges do not occur here (the tables they produce are variables).
-/
import proofs.«138375_j82231443849542_2_alg».proof.Proof.GraphNet
import proofs.«138375_j82231443849542_2_alg».proof.Proof.LibDotRowsByCols
import proofs.«138375_j82231443849542_2_alg».proof.Proof.LibOneRowMatrix
import Idealize.ShloMosaic.Lib.Pipeline.Value

noncomputable section

namespace Cert.Bridge

open Idealize.ShloMosaic Idealize.ShloMosaic.ValueIdx Cert.GraphNet

/-! ### Broadcasts read at an entry -/

/-- A vector placed as a column `[a] → [a, 1]` reads, at `(p, u)`, the vector at `p`. -/
theorem column_apply {α : Type} {a : ℕ} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) :=
  broadcastInDim_apply _ h v (ix2 p u) (ix1 p) (fun ax => match ax with
    | ⟨0, _⟩ => by
      show p.val = if a = 1 then 0 else p.val
      split
      · have := p.isLt; omega
      · rfl)

/-- A column spread across the second axis `[a, 1] → [a, b]` reads, at `(p, q)`, the column at `(p, 0)`. -/
theorem across_apply {α : Type} {a b : ℕ} (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun ax => match ax with
    | ⟨0, _⟩ => by
      show p.val = if a = 1 then 0 else p.val
      split
      · have := p.isLt; omega
      · rfl
    | ⟨1, _⟩ => by show 0 = if (1 : Nat) = 1 then 0 else q.val; rw [if_pos rfl])

/-- A vector placed as a row `[n] → [1, n]` reads, at `(u, q)`, the vector at `q`. -/
theorem row_apply {α : Type} {n : ℕ} (h : (⟨1, ![n]⟩ : Shape).BroadcastsInDim ⟨2, ![1, n]⟩ ![1])
    (v : (⟨1, ![n]⟩ : Shape).Idx → α) (u : Fin 1) (q : Fin n) :
    broadcastInDim ⟨2, ![1, n]⟩ ![1] h v (ix2 u q) = v (ix1 q) :=
  broadcastInDim_apply _ h v (ix2 u q) (ix1 q) (fun ax => match ax with
    | ⟨0, _⟩ => by
      show q.val = if n = 1 then 0 else q.val
      split
      · have := q.isLt; omega
      · rfl)

/-- A row spread down the first axis `[1, n] → [m, n]` reads, at `(p, q)`, the row at `(0, q)`. -/
theorem down_apply {α : Type} {m n : ℕ} (h : (⟨2, ![1, n]⟩ : Shape).BroadcastsInDim ⟨2, ![m, n]⟩ ![0, 1])
    (v : (⟨2, ![1, n]⟩ : Shape).Idx → α) (p : Fin m) (q : Fin n) :
    broadcastInDim ⟨2, ![m, n]⟩ ![0, 1] h v (ix2 p q) = v (ix2 (0 : Fin 1) q) :=
  broadcastInDim_apply _ h v (ix2 p q) (ix2 (0 : Fin 1) q) (fun ax => match ax with
    | ⟨0, _⟩ => by show 0 = if (1 : Nat) = 1 then 0 else p.val; rw [if_pos rfl]
    | ⟨1, _⟩ => by
      show q.val = if n = 1 then 0 else q.val
      split
      · have := q.isLt; omega
      · rfl)

/-- A scalar spread over a whole array reads the scalar everywhere. -/
theorem fill_apply {α : Type} {t : Shape} (h : (⟨0, ![]⟩ : Shape).BroadcastsInDim t ![])
    (v : (⟨0, ![]⟩ : Shape).Idx → α) (j : t.Idx) :
    broadcastInDim t ![] h v j = v ix0 :=
  broadcastInDim_apply _ h v j ix0 (fun ax => ax.elim0)

/-- A column `[a, 1]` viewed as a vector reads, at `p`, the column at `(p, 0)`. -/
theorem vector_of_column {α : Type} {a : ℕ} (h : (⟨2, ![a, 1]⟩ : Shape).ShapeCasts ⟨1, ![a]⟩)
    (v : (⟨2, ![a, 1]⟩ : Shape).Idx → α) (p : Fin a) :
    shapeCast ⟨1, ![a]⟩ v h (ix1 p) = v (ix2 p (0 : Fin 1)) :=
  shapeCast_apply v h (ix1 p) (ix2 p (0 : Fin 1)) (by
    rw [Shape.rowMajor_val_two, Shape.rowMajor_val_one]
    show p.val * 1 + 0 = p.val
    omega)

/-! ### The message table -/

/-- Rows scaled by the norm column and then by the weight column are the rows scaled by the column of products. -/
theorem message_table {E C : ℕ} (n : FVec Ideal ⟨1, ![E]⟩ .f32) (w : FVec Ideal ⟨2, ![E, 1]⟩ .f32)
    (G : FVec Ideal ⟨2, ![E, C]⟩ .f32)
    (hcol : (⟨1, ![E]⟩ : Shape).BroadcastsInDim ⟨2, ![E, 1]⟩ ![0])
    (hacross : (⟨2, ![E, 1]⟩ : Shape).BroadcastsInDim ⟨2, ![E, C]⟩ ![0, 1])
    (hvec : (⟨2, ![E, 1]⟩ : Shape).ShapeCasts ⟨1, ![E]⟩) :
    mulf (mulf (broadcastInDim ⟨2, ![E, C]⟩ ![0, 1] hacross (broadcastInDim ⟨2, ![E, 1]⟩ ![0] hcol n)) G)
        (broadcastInDim ⟨2, ![E, C]⟩ ![0, 1] hacross w)
      = message (broadcastInDim ⟨2, ![E, 1]⟩ ![0] hcol (mulf n (shapeCast ⟨1, ![E]⟩ w hvec))) G := by
  refine tab_ext fun p q => ?_
  rw [message_ix2, mulf_apply, mulf_apply, across_apply, across_apply, column_apply, column_apply, mulf_apply,
    vector_of_column]
  exact mul_right_comm _ _ _

/-! ### The normalisation -/

/-- Bias, fixed scale, gain, shift and floor, spelled with broadcasts, are `affineRelu` of the one-row tables. -/
theorem affine_table {M N : ℕ} (A : FVec Ideal ⟨2, ![M, N]⟩ .f32) (b g be : FVec Ideal ⟨1, ![N]⟩ .f32)
    (hrow : (⟨1, ![N]⟩ : Shape).BroadcastsInDim ⟨2, ![1, N]⟩ ![1])
    (hdown : (⟨2, ![1, N]⟩ : Shape).BroadcastsInDim ⟨2, ![M, N]⟩ ![0, 1])
    (hfill : (⟨0, ![]⟩ : Shape).BroadcastsInDim ⟨2, ![M, N]⟩ ![])
    (hcast : (⟨1, ![N]⟩ : Shape).ShapeCasts ⟨2, ![1, N]⟩) :
    maximumf
        (addf
          (mulf (broadcastInDim ⟨2, ![M, N]⟩ ![0, 1] hdown (broadcastInDim ⟨2, ![1, N]⟩ ![1] hrow g))
            (mulf (addf A (broadcastInDim ⟨2, ![M, N]⟩ ![0, 1] hdown (broadcastInDim ⟨2, ![1, N]⟩ ![1] hrow b)))
              (broadcastInDim ⟨2, ![M, N]⟩ ![] hfill (constant ⟨0, ![]⟩ .f32 0x3F7FFFAC#32))))
          (broadcastInDim ⟨2, ![M, N]⟩ ![0, 1] hdown (broadcastInDim ⟨2, ![1, N]⟩ ![1] hrow be)))
        (broadcastInDim ⟨2, ![M, N]⟩ ![] hfill (constant ⟨0, ![]⟩ .f32 0x00000000#32))
      = affineRelu A (shapeCast ⟨2, ![1, N]⟩ b hcast) (shapeCast ⟨2, ![1, N]⟩ g hcast)
          (shapeCast ⟨2, ![1, N]⟩ be hcast) := by
  refine tab_ext fun p q => ?_
  rw [affineRelu_ix2, maximumf_apply, addf_apply, mulf_apply, mulf_apply, addf_apply, down_apply, down_apply,
    down_apply, row_apply, row_apply, row_apply, fill_apply, fill_apply, constant_apply, constant_apply,
    OneRowMatrix.row_of_vector, OneRowMatrix.row_of_vector, OneRowMatrix.row_of_vector]

/-! ### Products of rows by columns, with and without a bias -/

section Dense

variable {M K N : ℕ} (D : DotDims ⟨2, ![M, K]⟩ ⟨2, ![K, N]⟩ ⟨2, ![M, N]⟩)
  (hr : D.contr.rank = 1) (hs : D.contr.size ⟨0, by omega⟩ = K)
  (hl0 : ∀ (j : (⟨2, ![M, N]⟩ : Shape).Idx) (q : D.contr.Idx), (D.lhsIdx j q 0).val = (j 0).val)
  (hl1 : ∀ (j : (⟨2, ![M, N]⟩ : Shape).Idx) (q : D.contr.Idx), (D.lhsIdx j q 1).val = (q ⟨0, by omega⟩).val)
  (hr0 : ∀ (j : (⟨2, ![M, N]⟩ : Shape).Idx) (q : D.contr.Idx), (D.rhsIdx j q 0).val = (q ⟨0, by omega⟩).val)
  (hr1 : ∀ (j : (⟨2, ![M, N]⟩ : Shape).Idx) (q : D.contr.Idx), (D.rhsIdx j q 1).val = (j 1).val)

include hr hs hl0 hl1 hr0 hr1

/-- A bare product of rows by columns is the affine map with a bias row of zeros. -/
theorem dense_zero_table (x : FVec Ideal ⟨2, ![M, K]⟩ .f32) (w : FVec Ideal ⟨2, ![K, N]⟩ .f32) (z : Tab 1 N)
    (hz : ∀ q : Fin N, z (ix2 (0 : Fin 1) q) = 0) :
    Host.dotGeneral D none x w = dense x w z := by
  refine tab_ext fun p q => ?_
  rw [dense_ix2, DotRowsByCols.dotGeneral_apply D hr hs hl0 hl1 hr0 hr1, hz, add_zero]

/-- A product of rows by columns plus a broadcast bias vector is the affine map with that bias as its row. -/
theorem dense_table (x : FVec Ideal ⟨2, ![M, K]⟩ .f32) (w : FVec Ideal ⟨2, ![K, N]⟩ .f32) (b : FVec Ideal ⟨1, ![N]⟩ .f32)
    (hrow : (⟨1, ![N]⟩ : Shape).BroadcastsInDim ⟨2, ![1, N]⟩ ![1])
    (hdown : (⟨2, ![1, N]⟩ : Shape).BroadcastsInDim ⟨2, ![M, N]⟩ ![0, 1])
    (hcast : (⟨1, ![N]⟩ : Shape).ShapeCasts ⟨2, ![1, N]⟩) :
    addf (Host.dotGeneral D none x w)
        (broadcastInDim ⟨2, ![M, N]⟩ ![0, 1] hdown (broadcastInDim ⟨2, ![1, N]⟩ ![1] hrow b))
      = dense x w (shapeCast ⟨2, ![1, N]⟩ b hcast) := by
  refine tab_ext fun p q => ?_
  rw [dense_ix2, addf_apply, DotRowsByCols.dotGeneral_apply D hr hs hl0 hl1 hr0 hr1, down_apply, row_apply,
    OneRowMatrix.row_of_vector]

/-- The same, floored at zero. -/
theorem denseRelu_table (x : FVec Ideal ⟨2, ![M, K]⟩ .f32) (w : FVec Ideal ⟨2, ![K, N]⟩ .f32) (b : FVec Ideal ⟨1, ![N]⟩ .f32)
    (hrow : (⟨1, ![N]⟩ : Shape).BroadcastsInDim ⟨2, ![1, N]⟩ ![1])
    (hdown : (⟨2, ![1, N]⟩ : Shape).BroadcastsInDim ⟨2, ![M, N]⟩ ![0, 1])
    (hfill : (⟨0, ![]⟩ : Shape).BroadcastsInDim ⟨2, ![M, N]⟩ ![])
    (hcast : (⟨1, ![N]⟩ : Shape).ShapeCasts ⟨2, ![1, N]⟩) :
    maximumf
        (addf (Host.dotGeneral D none x w)
          (broadcastInDim ⟨2, ![M, N]⟩ ![0, 1] hdown (broadcastInDim ⟨2, ![1, N]⟩ ![1] hrow b)))
        (broadcastInDim ⟨2, ![M, N]⟩ ![] hfill (constant ⟨0, ![]⟩ .f32 0x00000000#32))
      = denseRelu x w (shapeCast ⟨2, ![1, N]⟩ b hcast) := by
  refine tab_ext fun p q => ?_
  rw [denseRelu_ix2, maximumf_apply, addf_apply, DotRowsByCols.dotGeneral_apply D hr hs hl0 hl1 hr0 hr1, down_apply,
    row_apply, fill_apply, constant_apply, OneRowMatrix.row_of_vector]

end Dense

end Cert.Bridge

end
-- ==== Proof.ReferenceBridgeScale.lean ====
/-
  The edge scale on the reference side.

  The reference computes, in each of its three layers anew, the source and target of every edge, the degree of every
  node, its inverse square root and the product of the two ends' values (the edge's norm), by the same operations on
  the same two arguments. Each of these stages is, operation for operation, the stage of the same name in
  `Cert.KernelIdeal.Net`: the statements below only unfold names, so that the three copies become one term and the
  gathers and the sum over edges stay closed.
-/
import proofs.«138375_j82231443849542_2_alg».proof.Proof.KernelNet
import proofs.«138375_j82231443849542_2_alg».proof.Proof.Gen.ReferenceIdeal.Read

noncomputable section

namespace Cert.Bridge

open Idealize.ShloMosaic Cert.KernelIdeal Cert.KernelIdeal.Facts₀ Cert.KernelIdeal.Facts Cert.ReferenceIdeal.Read

/-! ### Layer 1 -/

theorem src_1 (a1 : Net.IArr S2x800000) : val_main_v3 (F := Ideal) a1 = Net.src a1 := by
  simp only [val_main_v3, val_main_v2, Net.src] <;> rfl

theorem dst_1 (a1 : Net.IArr S2x800000) : val_main_v5 (F := Ideal) a1 = Net.dst a1 := by
  simp only [val_main_v5, val_main_v4, Net.dst] <;> rfl

theorem weight_1 (a2 : Net.FArr S800000x1) : val_main_v6 (F := Ideal) a2 = Net.weight a2 := by
  simp only [val_main_v6, Net.weight] <;> rfl

theorem deg_1 (a1 : Net.IArr S2x800000) (a2 : Net.FArr S800000x1) :
    val_main_v10 (F := Ideal) a1 a2 = Net.deg a1 a2 := by
  simp only [val_main_v10, val_main_v9, val_main_v8, val_main_v7, val_main_cst, src_1, weight_1, Net.deg, Net.zeroNodes] <;> rfl

theorem invSqrtDeg_1 (a1 : Net.IArr S2x800000) (a2 : Net.FArr S800000x1) :
    val_main_v19 (F := Ideal) a1 a2 = Net.invSqrtDeg a1 a2 := by
  simp only [val_main_v19, val_main_v18, val_main_v17, val_main_v16, val_main_v15, val_main_v14, val_main_v13, val_main_v12, val_main_v11, val_main_cst_0,
    val_main_cst_1, val_main_cst_2, val_main_cst_3, val_main_cst_4, val_main_call0_v0, val_main_call0_v1, val_main_call1_v0, val_main_call1_v1, id,
    deg_1, Net.invSqrtDeg, Net.zeroNodes, Net.oneNodes] <;> rfl

theorem wrapSrc_1 (a1 : Net.IArr S2x800000) : val_main_v25 (F := Ideal) a1 = Net.wrapCol (Net.src a1) := by
  simp only [val_main_v25, val_main_v24, val_main_v23, val_main_v22, val_main_v21, val_main_v20, val_main_c, val_main_c_5, src_1, Net.wrapCol] <;> rfl

theorem wrapDst_1 (a1 : Net.IArr S2x800000) : val_main_v32 (F := Ideal) a1 = Net.wrapCol (Net.dst a1) := by
  simp only [val_main_v32, val_main_v31, val_main_v30, val_main_v29, val_main_v28, val_main_v27, val_main_c_6, val_main_c_7, dst_1, Net.wrapCol] <;> rfl

theorem wrapSrcRows_1 (a1 : Net.IArr S2x800000) : val_main_v41 (F := Ideal) a1 = Net.wrapCol (Net.src a1) := by
  simp only [val_main_v41, val_main_v40, val_main_v39, val_main_v38, val_main_v37, val_main_v36, val_main_c_8, val_main_c_9, src_1, Net.wrapCol] <;> rfl

theorem targets_1 (a1 : Net.IArr S2x800000) :
    val_main_v48 (F := Ideal) a1 = broadcastInDim S800000x1 ![0] bcast_S800000_S800000x1_0 (Net.dst a1) := by
  simp only [val_main_v48, dst_1] <;> rfl

/-- The column of (norm · weight) the reference's layer 1 multiplies in, in two steps, is the edge scale. -/
theorem edgeScale_1 (a1 : Net.IArr S2x800000) (a2 : Net.FArr S800000x1) :
    Net.edgeScale a1 a2
      = broadcastInDim S800000x1 ![0] bcast_S800000_S800000x1_0 (mulf (val_main_v34 (F := Ideal) a1 a2) (Net.weight a2)) := by
  simp only [val_main_v34, val_main_v33, val_main_v26, invSqrtDeg_1, wrapSrc_1, wrapDst_1, Net.edgeScale] <;> rfl

/-! ### Layer 2 -/

theorem src_2 (a1 : Net.IArr S2x800000) : val_main_v65 (F := Ideal) a1 = Net.src a1 := by
  simp only [val_main_v65, val_main_v64, Net.src] <;> rfl

theorem dst_2 (a1 : Net.IArr S2x800000) : val_main_v67 (F := Ideal) a1 = Net.dst a1 := by
  simp only [val_main_v67, val_main_v66, Net.dst] <;> rfl

theorem weight_2 (a2 : Net.FArr S800000x1) : val_main_v68 (F := Ideal) a2 = Net.weight a2 := by
  simp only [val_main_v68, Net.weight] <;> rfl

theorem deg_2 (a1 : Net.IArr S2x800000) (a2 : Net.FArr S800000x1) :
    val_main_v72 (F := Ideal) a1 a2 = Net.deg a1 a2 := by
  simp only [val_main_v72, val_main_v71, val_main_v70, val_main_v69, val_main_cst_12, src_2, weight_2, Net.deg, Net.zeroNodes] <;> rfl

theorem invSqrtDeg_2 (a1 : Net.IArr S2x800000) (a2 : Net.FArr S800000x1) :
    val_main_v81 (F := Ideal) a1 a2 = Net.invSqrtDeg a1 a2 := by
  simp only [val_main_v81, val_main_v80, val_main_v79, val_main_v78, val_main_v77, val_main_v76, val_main_v75, val_main_v74, val_main_v73, val_main_cst_13,
    val_main_cst_14, val_main_cst_15, val_main_cst_16, val_main_cst_17, val_main_call3_v0, val_main_call3_v1, val_main_call4_v0, val_main_call4_v1, id,
    deg_2, Net.invSqrtDeg, Net.zeroNodes, Net.oneNodes] <;> rfl

theorem wrapSrc_2 (a1 : Net.IArr S2x800000) : val_main_v87 (F := Ideal) a1 = Net.wrapCol (Net.src a1) := by
  simp only [val_main_v87, val_main_v86, val_main_v85, val_main_v84, val_main_v83, val_main_v82, val_main_c_18, val_main_c_19, src_2, Net.wrapCol] <;> rfl

theorem wrapDst_2 (a1 : Net.IArr S2x800000) : val_main_v94 (F := Ideal) a1 = Net.wrapCol (Net.dst a1) := by
  simp only [val_main_v94, val_main_v93, val_main_v92, val_main_v91, val_main_v90, val_main_v89, val_main_c_20, val_main_c_21, dst_2, Net.wrapCol] <;> rfl

theorem wrapSrcRows_2 (a1 : Net.IArr S2x800000) : val_main_v103 (F := Ideal) a1 = Net.wrapCol (Net.src a1) := by
  simp only [val_main_v103, val_main_v102, val_main_v101, val_main_v100, val_main_v99, val_main_v98, val_main_c_22, val_main_c_23, src_2, Net.wrapCol] <;> rfl

theorem targets_2 (a1 : Net.IArr S2x800000) :
    val_main_v110 (F := Ideal) a1 = broadcastInDim S800000x1 ![0] bcast_S800000_S800000x1_0 (Net.dst a1) := by
  simp only [val_main_v110, dst_2] <;> rfl

/-- The column of (norm · weight) the reference's layer 2 multiplies in, in two steps, is the edge scale. -/
theorem edgeScale_2 (a1 : Net.IArr S2x800000) (a2 : Net.FArr S800000x1) :
    Net.edgeScale a1 a2
      = broadcastInDim S800000x1 ![0] bcast_S800000_S800000x1_0 (mulf (val_main_v96 (F := Ideal) a1 a2) (Net.weight a2)) := by
  simp only [val_main_v96, val_main_v95, val_main_v88, invSqrtDeg_2, wrapSrc_2, wrapDst_2, Net.edgeScale] <;> rfl

/-! ### Layer 3 -/

theorem src_3 (a1 : Net.IArr S2x800000) : val_main_v127 (F := Ideal) a1 = Net.src a1 := by
  simp only [val_main_v127, val_main_v126, Net.src] <;> rfl

theorem dst_3 (a1 : Net.IArr S2x800000) : val_main_v129 (F := Ideal) a1 = Net.dst a1 := by
  simp only [val_main_v129, val_main_v128, Net.dst] <;> rfl

theorem weight_3 (a2 : Net.FArr S800000x1) : val_main_v130 (F := Ideal) a2 = Net.weight a2 := by
  simp only [val_main_v130, Net.weight] <;> rfl

theorem deg_3 (a1 : Net.IArr S2x800000) (a2 : Net.FArr S800000x1) :
    val_main_v134 (F := Ideal) a1 a2 = Net.deg a1 a2 := by
  simp only [val_main_v134, val_main_v133, val_main_v132, val_main_v131, val_main_cst_26, src_3, weight_3, Net.deg, Net.zeroNodes] <;> rfl

theorem invSqrtDeg_3 (a1 : Net.IArr S2x800000) (a2 : Net.FArr S800000x1) :
    val_main_v143 (F := Ideal) a1 a2 = Net.invSqrtDeg a1 a2 := by
  simp only [val_main_v143, val_main_v142, val_main_v141, val_main_v140, val_main_v139, val_main_v138, val_main_v137, val_main_v136, val_main_v135, val_main_cst_27,
    val_main_cst_28, val_main_cst_29, val_main_cst_30, val_main_cst_31, val_main_call6_v0, val_main_call6_v1, val_main_call7_v0, val_main_call7_v1, id,
    deg_3, Net.invSqrtDeg, Net.zeroNodes, Net.oneNodes] <;> rfl

theorem wrapSrc_3 (a1 : Net.IArr S2x800000) : val_main_v149 (F := Ideal) a1 = Net.wrapCol (Net.src a1) := by
  simp only [val_main_v149, val_main_v148, val_main_v147, val_main_v146, val_main_v145, val_main_v144, val_main_c_32, val_main_c_33, src_3, Net.wrapCol] <;> rfl

theorem wrapDst_3 (a1 : Net.IArr S2x800000) : val_main_v156 (F := Ideal) a1 = Net.wrapCol (Net.dst a1) := by
  simp only [val_main_v156, val_main_v155, val_main_v154, val_main_v153, val_main_v152, val_main_v151, val_main_c_34, val_main_c_35, dst_3, Net.wrapCol] <;> rfl

theorem wrapSrcRows_3 (a1 : Net.IArr S2x800000) : val_main_v165 (F := Ideal) a1 = Net.wrapCol (Net.src a1) := by
  simp only [val_main_v165, val_main_v164, val_main_v163, val_main_v162, val_main_v161, val_main_v160, val_main_c_36, val_main_c_37, src_3, Net.wrapCol] <;> rfl

theorem targets_3 (a1 : Net.IArr S2x800000) :
    val_main_v172 (F := Ideal) a1 = broadcastInDim S800000x1 ![0] bcast_S800000_S800000x1_0 (Net.dst a1) := by
  simp only [val_main_v172, dst_3] <;> rfl

/-- The column of (norm · weight) the reference's layer 3 multiplies in, in two steps, is the edge scale. -/
theorem edgeScale_3 (a1 : Net.IArr S2x800000) (a2 : Net.FArr S800000x1) :
    Net.edgeScale a1 a2
      = broadcastInDim S800000x1 ![0] bcast_S800000_S800000x1_0 (mulf (val_main_v158 (F := Ideal) a1 a2) (Net.weight a2)) := by
  simp only [val_main_v158, val_main_v157, val_main_v150, invSqrtDeg_3, wrapSrc_3, wrapDst_3, Net.edgeScale] <;> rfl

end Cert.Bridge

end
-- ==== Proof.ReferenceBridgeLayer.lean ====
/-
  One layer of the reference is one layer of the network.

  After the product of the node table by the layer's weight, a layer of the reference gathers the rows at the edges'
  sources, multiplies each by the edge's norm and then by its weight, sums the rows into the edges' targets, and applies
  the normalisation. Entry by entry the two multiplications are one multiplication by the edge scale, and the
  normalisation is `affineRelu`; the gather and the sum over edges are the same host operations on both sides and are
  carried as they stand. The product itself is the affine map with a zero bias row.
-/
import proofs.«138375_j82231443849542_2_alg».proof.Proof.ReferenceBridgeTables
import proofs.«138375_j82231443849542_2_alg».proof.Proof.ReferenceBridgeScale

noncomputable section

namespace Cert.Bridge

open Idealize.ShloMosaic Idealize.ShloMosaic.ValueIdx Cert.KernelIdeal Cert.KernelIdeal.Facts₀ Cert.KernelIdeal.Facts
  Cert.GraphNet Cert.ReferenceIdeal.Read

/-- The zero bias row holds zero everywhere. -/
theorem zeroRow_apply (q : Fin 64) : Net.zeroRow (ix2 (0 : Fin 1) q) = 0 := by
  unfold Net.zeroRow
  rw [OneRowMatrix.row_of_vector, fill_apply, constant_apply, Ideal.ofBits_zero_f32]

/-- The first layer's product of the input table by the transposed weight is the affine map with the zero bias. -/
theorem dense_in (x : Net.FArr S50000x128) (w : Net.FArr S64x128) :
    Host.dotGeneral (F := Ideal) Cert.ReferenceIdeal.dot_S50000x128_S128x64_S50000x64_1_0_0_1_n_n none x
        (transpose S128x64 [1, 0] w Cert.ReferenceIdeal.Facts₀.transposes_S64x128_S128x64_1_0)
      = dense x (transpose S128x64 [1, 0] w transposes_S64x128_S128x64_1_0) Net.zeroRow :=
  dense_zero_table Cert.ReferenceIdeal.dot_S50000x128_S128x64_S50000x64_1_0_0_1_n_n rfl rfl lhs_main_v1_0 lhs_main_v1_1
    rhs_main_v1_0 rhs_main_v1_1 x _ Net.zeroRow zeroRow_apply

/-- A later layer's product of a node table by the transposed weight is the affine map with the zero bias. -/
theorem dense_hidden (x : Net.FArr S50000x64) (w : Net.FArr S64x64) :
    Host.dotGeneral (F := Ideal) Cert.ReferenceIdeal.dot_S50000x64_S64x64_S50000x64_1_0_0_1_n_n none x
        (transpose S64x64 [1, 0] w Cert.ReferenceIdeal.Facts₀.transposes_S64x64_S64x64_1_0)
      = dense x (transpose S64x64 [1, 0] w transposes_S64x64_S64x64_1_0) Net.zeroRow :=
  dense_zero_table Cert.ReferenceIdeal.dot_S50000x64_S64x64_S50000x64_1_0_0_1_n_n rfl rfl lhs_main_v63_0 lhs_main_v63_1
    rhs_main_v63_0 rhs_main_v63_1 x _ Net.zeroRow zeroRow_apply

/-- A layer after its product, over any incoming table `H` and any norm vector `N` whose column of products with
    the weights is the edge scale. -/
theorem layer_table (a1 : Net.IArr S2x800000) (a2 : Net.FArr S800000x1) (N : Net.FArr S800000)
    (hN : Net.edgeScale a1 a2 = broadcastInDim S800000x1 ![0] bcast_S800000_S800000x1_0 (mulf N (Net.weight a2)))
    (H : Net.FArr S50000x64) (b g be : Net.FArr S64)
    {hrow : S64.BroadcastsInDim S1x64 ![1]} {hdown : S1x64.BroadcastsInDim S50000x64 ![0, 1]}
    {hfill : S_.BroadcastsInDim S50000x64 ![]} {hcol : S800000.BroadcastsInDim S800000x1 ![0]}
    {hacross : S800000x1.BroadcastsInDim S800000x64 ![0, 1]} :
    maximumf
        (addf
          (mulf (broadcastInDim S50000x64 ![0, 1] hdown (broadcastInDim S1x64 ![1] hrow g))
            (mulf
              (addf
                (Host.scatterAdd Cert.ReferenceIdeal.scatter_S50000x64_S800000x1_S800000x64_1_0_0_1
                  (broadcastInDim S50000x64 ![] hfill (constant (F := Ideal) S_ .f32 0x00000000#32))
                  (broadcastInDim S800000x1 ![0] hcol (Net.dst a1))
                  (mulf
                    (mulf (broadcastInDim S800000x64 ![0, 1] hacross (broadcastInDim S800000x1 ![0] hcol N))
                      (Host.gather Cert.ReferenceIdeal.gather_S50000x64_S800000x1_S800000x64_1_0_n_n_0_1_164 H
                        (Net.wrapCol (Net.src a1))))
                    (broadcastInDim S800000x64 ![0, 1] hacross a2)))
                (broadcastInDim S50000x64 ![0, 1] hdown (broadcastInDim S1x64 ![1] hrow b)))
              (broadcastInDim S50000x64 ![] hfill (constant (F := Ideal) S_ .f32 0x3F7FFFAC#32))))
          (broadcastInDim S50000x64 ![0, 1] hdown (broadcastInDim S1x64 ![1] hrow be)))
        (broadcastInDim S50000x64 ![] hfill (constant (F := Ideal) S_ .f32 0x00000000#32))
      = affineRelu (Net.intoTargets a1 (message (Net.edgeScale a1 a2) (Net.atSources a1 H))) (Net.row64 b) (Net.row64 g)
          (Net.row64 be) := by
  rw [affine_table _ b g be hrow hdown hfill shapeCasts_S64_S1x64,
    message_table N a2 _ hcol hacross shapeCasts_S800000x1_S800000, hN]
  rfl
/-- Layer 1 of the reference is `Net.layer` of its incoming node table. -/
theorem layer_1 (a0 : Net.FArr S50000x128) (a1 : Net.IArr S2x800000) (a2 : Net.FArr S800000x1) (a3 : Net.FArr S64x128) (a4 a5 a6 : Net.FArr S64) :
    val_main_v61 (F := Ideal) a0 a1 a2 a3 a4 a5 a6
      = Net.layer a1 a2 a0 (transpose S128x64 [1, 0] a3 transposes_S64x128_S128x64_1_0) a4 a5 a6 := by
  simp only [val_main_v61, val_main_v60, val_main_v59, val_main_v58, val_main_v57, val_main_v56, val_main_v55, val_main_v54, val_main_v53, val_main_v52, val_main_v51, val_main_v50, val_main_v49, val_main_v47, val_main_v46, val_main_v45, val_main_v44, val_main_v43, val_main_v42, val_main_v35, val_main_cst_10, val_main_cst_11, val_main_call2_v0, val_main_call2_cst, val_main_v1, val_main_v0]
  rw [targets_1, wrapSrcRows_1, dense_in]
  exact layer_table a1 a2 (val_main_v34 (F := Ideal) a1 a2) (edgeScale_1 a1 a2) _ a4 a5 a6

/-- Layer 2 of the reference is `Net.layer` of its incoming node table. -/
theorem layer_2 (a0 : Net.FArr S50000x128) (a1 : Net.IArr S2x800000) (a2 : Net.FArr S800000x1) (a3 : Net.FArr S64x128) (a4 a5 a6 : Net.FArr S64)
    (a7 : Net.FArr S64x64) (a8 a9 a10 : Net.FArr S64) :
    val_main_v123 (F := Ideal) a0 a1 a2 a3 a4 a5 a6 a7 a8 a9 a10
      = Net.layer a1 a2 (val_main_v61 (F := Ideal) a0 a1 a2 a3 a4 a5 a6) (transpose S64x64 [1, 0] a7 transposes_S64x64_S64x64_1_0) a8 a9 a10 := by
  simp only [val_main_v123, val_main_v122, val_main_v121, val_main_v120, val_main_v119, val_main_v118, val_main_v117, val_main_v116, val_main_v115, val_main_v114, val_main_v113, val_main_v112, val_main_v111, val_main_v109, val_main_v108, val_main_v107, val_main_v106, val_main_v105, val_main_v104, val_main_v97, val_main_cst_24, val_main_cst_25, val_main_call5_v0, val_main_call5_cst, val_main_v63, val_main_v62]
  rw [targets_2, wrapSrcRows_2, dense_hidden]
  exact layer_table a1 a2 (val_main_v96 (F := Ideal) a1 a2) (edgeScale_2 a1 a2) _ a8 a9 a10

/-- Layer 3 of the reference is `Net.layer` of its incoming node table. -/
theorem layer_3 (a0 : Net.FArr S50000x128) (a1 : Net.IArr S2x800000) (a2 : Net.FArr S800000x1) (a3 : Net.FArr S64x128) (a4 a5 a6 : Net.FArr S64)
    (a7 : Net.FArr S64x64) (a8 a9 a10 : Net.FArr S64) (a11 : Net.FArr S64x64) (a12 a13 a14 : Net.FArr S64) :
    val_main_v185 (F := Ideal) a0 a1 a2 a3 a4 a5 a6 a7 a8 a9 a10 a11 a12 a13 a14
      = Net.layer a1 a2 (val_main_v123 (F := Ideal) a0 a1 a2 a3 a4 a5 a6 a7 a8 a9 a10) (transpose S64x64 [1, 0] a11 transposes_S64x64_S64x64_1_0) a12 a13 a14 := by
  simp only [val_main_v185, val_main_v184, val_main_v183, val_main_v182, val_main_v181, val_main_v180, val_main_v179, val_main_v178, val_main_v177, val_main_v176, val_main_v175, val_main_v174, val_main_v173, val_main_v171, val_main_v170, val_main_v169, val_main_v168, val_main_v167, val_main_v166, val_main_v159, val_main_cst_38, val_main_cst_39, val_main_call8_v0, val_main_call8_cst, val_main_v125, val_main_v124]
  rw [targets_3, wrapSrcRows_3, dense_hidden]
  exact layer_table a1 a2 (val_main_v158 (F := Ideal) a1 a2) (edgeScale_3 a1 a2) _ a12 a13 a14

end Cert.Bridge

end
-- ==== Proof.ReferenceBridge.lean ====
/-
  The reference computes the network.

  The reference's three layers are `Net.layer` applied three times, and its tail, two products of rows by columns
  each followed by a broadcast bias (the first floored at zero), is `denseRelu` followed by `dense`. Rewriting layer
  by layer, from the last operation inwards, turns the reference's result into `Net.out` of the same nineteen arrays.
-/
import proofs.«138375_j82231443849542_2_alg».proof.Proof.ReferenceBridgeLayer

noncomputable section

namespace Cert.Bridge

open Idealize.ShloMosaic Idealize.ShloMosaic.ValueIdx Cert.KernelIdeal Cert.KernelIdeal.Facts₀ Cert.KernelIdeal.Facts
  Cert.GraphNet Cert.ReferenceIdeal.Read

/-- The perceptron's first map: product, broadcast bias, floor. -/
theorem hidden_table (h : Net.FArr S50000x64) (a15 : Net.FArr S32x64) (a16 : Net.FArr S32)
    {ht : S32x64.Transposes [1, 0] S64x32} {hrow : S32.BroadcastsInDim S1x32 ![1]}
    {hdown : S1x32.BroadcastsInDim S50000x32 ![0, 1]} {hfill : S_.BroadcastsInDim S50000x32 ![]} :
    maximumf
        (addf
          (Host.dotGeneral (F := Ideal) Cert.ReferenceIdeal.dot_S50000x64_S64x32_S50000x32_1_0_0_1_n_n none h
            (transpose S64x32 [1, 0] a15 ht))
          (broadcastInDim S50000x32 ![0, 1] hdown (broadcastInDim S1x32 ![1] hrow a16)))
        (broadcastInDim S50000x32 ![] hfill (constant (F := Ideal) S_ .f32 0x00000000#32))
      = denseRelu h (transpose S64x32 [1, 0] a15 transposes_S32x64_S64x32_1_0)
          (shapeCast S1x32 a16 shapeCasts_S32_S1x32) :=
  denseRelu_table Cert.ReferenceIdeal.dot_S50000x64_S64x32_S50000x32_1_0_0_1_n_n rfl rfl lhs_main_v187_0 lhs_main_v187_1
    rhs_main_v187_0 rhs_main_v187_1 h _ a16 hrow hdown hfill shapeCasts_S32_S1x32

/-- The perceptron's second map: product and broadcast bias. -/
theorem output_table (h : Net.FArr S50000x32) (a17 : Net.FArr S2x32) (a18 : Net.FArr S2)
    {ht : S2x32.Transposes [1, 0] S32x2} {hrow : S2.BroadcastsInDim S1x2 ![1]}
    {hdown : S1x2.BroadcastsInDim S50000x2 ![0, 1]} :
    addf
        (Host.dotGeneral (F := Ideal) Cert.ReferenceIdeal.dot_S50000x32_S32x2_S50000x2_1_0_0_1_n_n none h
          (transpose S32x2 [1, 0] a17 ht))
        (broadcastInDim S50000x2 ![0, 1] hdown (broadcastInDim S1x2 ![1] hrow a18))
      = dense h (transpose S32x2 [1, 0] a17 transposes_S2x32_S32x2_1_0) (shapeCast S1x2 a18 shapeCasts_S2_S1x2) :=
  dense_table Cert.ReferenceIdeal.dot_S50000x32_S32x2_S50000x2_1_0_0_1_n_n rfl rfl lhs_main_v193_0 lhs_main_v193_1
    rhs_main_v193_0 rhs_main_v193_1 h _ a18 hrow hdown shapeCasts_S2_S1x2

/-- The reference's tail is the two-layer perceptron of the third layer's table. -/
theorem perceptron (a0 : Net.FArr S50000x128) (a1 : Net.IArr S2x800000) (a2 : Net.FArr S800000x1) (a3 : Net.FArr S64x128)
    (a4 a5 a6 : Net.FArr S64) (a7 : Net.FArr S64x64) (a8 a9 a10 : Net.FArr S64) (a11 : Net.FArr S64x64)
    (a12 a13 a14 : Net.FArr S64) (a15 : Net.FArr S32x64) (a16 : Net.FArr S32) (a17 : Net.FArr S2x32) (a18 : Net.FArr S2) :
    val_main_v196 (F := Ideal) a0 a1 a2 a3 a4 a5 a6 a7 a8 a9 a10 a11 a12 a13 a14 a15 a16 a17 a18
      = dense
          (denseRelu (val_main_v185 (F := Ideal) a0 a1 a2 a3 a4 a5 a6 a7 a8 a9 a10 a11 a12 a13 a14)
            (transpose S64x32 [1, 0] a15 transposes_S32x64_S64x32_1_0) (shapeCast S1x32 a16 shapeCasts_S32_S1x32))
          (transpose S32x2 [1, 0] a17 transposes_S2x32_S32x2_1_0) (shapeCast S1x2 a18 shapeCasts_S2_S1x2) := by
  simp only [val_main_v196, val_main_v195, val_main_v194, val_main_v193, val_main_v192, val_main_v191, val_main_v190,
    val_main_v189, val_main_v188, val_main_v187, val_main_v186, val_main_call9_v0, val_main_call9_cst]
  rw [hidden_table, output_table]

/-- The network's value is the reference's result. -/
theorem out_eq_reference
    (a0 : Net.FArr S50000x128) (a1 : Net.IArr S2x800000) (a2 : Net.FArr S800000x1) (a3 : Net.FArr S64x128)
    (a4 a5 a6 : Net.FArr S64) (a7 : Net.FArr S64x64) (a8 a9 a10 : Net.FArr S64) (a11 : Net.FArr S64x64)
    (a12 a13 a14 : Net.FArr S64) (a15 : Net.FArr S32x64) (a16 : Net.FArr S32) (a17 : Net.FArr S2x32) (a18 : Net.FArr S2) :
    Cert.KernelIdeal.Net.out a0 a1 a2 a3 a4 a5 a6 a7 a8 a9 a10 a11 a12 a13 a14 a15 a16 a17 a18
      = Cert.ReferenceIdeal.Read.val_main_v196 (F := Ideal) a0 a1 a2 a3 a4 a5 a6 a7 a8 a9 a10 a11 a12 a13 a14 a15 a16 a17 a18 := by
  rw [perceptron, layer_3, layer_2, layer_1]
  rfl

end Cert.Bridge

end
-- ==== Proof.lean ====
/-
  A three-layer graph-convolution network with a two-layer perceptron on top, computed two ways, gives one result.

  Each layer maps a node table h to  relu(g · ((Σ over edges into a node of n(e) · w(e) · (h Wᵀ)(source e)) + b) · c + be),
  where w(e) is the edge's weight, n(e) = deg^(-1/2)(source e) · deg^(-1/2)(target e) with deg the sum of |w| over the edges
  leaving a node (and deg^(-1/2) read as 0 at an isolated node), and c a fixed scale; the perceptron is two affine maps, the
  first floored at zero. The tiled program runs the affine maps, the scaling of the gathered rows and the normalisation as
  kernels over blocks of rows and leaves the gather and the sum over edges to the host; the reference is the host alone.
  On the extended reals the two differ only in grouping: the tiled program scales a gathered row by (n · w) at once where
  the reference multiplies by n and then by w (· is commutative and associative on the extended reals, so no finiteness is
  used); it adds a zero bias inside the layer's affine map (x + 0 = x); and a change of float format is the identity.

  The frames of the two tiled programs are the generated ones, the reference's frame is its generated run with the result
  dropped, and nothing was rewritten by the idealization, so that conjunct is trivial. For the value claim the tiled
  program's run is taken with its result buffer kept (`Run.run_result`), the result buffer is read back through the
  program's segments as the network function of the launched arguments (`Chain.result_value`), and that function is the
  reference's composed term (`Bridge.out_eq_reference`).
-/
import proofs.«138375_j82231443849542_2_alg».proof.Defs
import proofs.«138375_j82231443849542_2_alg».proof.Proof.Gen.Kernel
import proofs.«138375_j82231443849542_2_alg».proof.Proof.Gen.Kernel.Skeleton
import proofs.«138375_j82231443849542_2_alg».proof.Proof.Gen.Kernel.Launch
import proofs.«138375_j82231443849542_2_alg».proof.Proof.Gen.Kernel.Points
import proofs.«138375_j82231443849542_2_alg».proof.Proof.Gen.Kernel.Frame
import proofs.«138375_j82231443849542_2_alg».proof.Proof.Gen.KernelIdeal
import proofs.«138375_j82231443849542_2_alg».proof.Proof.Gen.KernelIdeal.Skeleton
import proofs.«138375_j82231443849542_2_alg».proof.Proof.Gen.KernelIdeal.Launch
import proofs.«138375_j82231443849542_2_alg».proof.Proof.Gen.KernelIdeal.Points
import proofs.«138375_j82231443849542_2_alg».proof.Proof.Gen.KernelIdeal.Frame
import proofs.«138375_j82231443849542_2_alg».proof.Proof.Gen.ReferenceIdeal
import proofs.«138375_j82231443849542_2_alg».proof.Proof.Gen.Pre_finite_inputs
import proofs.«138375_j82231443849542_2_alg».proof.Proof.Gen.ReferenceIdeal.Run
import proofs.«138375_j82231443849542_2_alg».proof.Proof.Gen.ReferenceIdeal.Read
import proofs.«138375_j82231443849542_2_alg».proof.Proof.KernelRun
import proofs.«138375_j82231443849542_2_alg».proof.Proof.Chain
import proofs.«138375_j82231443849542_2_alg».proof.Proof.ReferenceBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the network function of the arguments they agree on. -/
theorem algebraic : Cert.algebraic_KernelIdeal_ReferenceIdeal := by
  intro m ρ m' ρ' _ hagree
  refine ⟨fun c => Cert.KernelIdeal.Net.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun r h c => ⟨((h c).1).trans (Cert.KernelIdeal.Chain.result_value m ρ c), (h c).2⟩)
      (Cert.KernelIdeal.Run.run_result (F := Ideal) m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11, e12, e13, e14, e15, e16, e17, e18⟩ := hagree c
    rw [(h c).1, Cert.ReferenceIdeal.Read.val_main_v196_eq, e0, e1, e2, e3, e4, e5, e6, e7, e8, e9, e10, e11, e12, e13, e14, e15, e16, e17, e18]
    exact (Cert.Bridge.out_eq_reference _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
